-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x64x64 : Shape := ⟨4, ![2, 128, 64, 64]⟩
abbrev S_ : Shape := ⟨0, ![]⟩

class Facts : Prop where
  bcast_S_S2x128x64x64 : S_.BroadcastsInDim S2x128x64x64 (![] : Fin 0 → Fin S2x128x64x64.rank)
  reducesTo_S2x128x64x64_S_d0_1_2_3 : S2x128x64x64.ReducesTo [0, 1, 2, 3] S_
  h_S_ : 0 < S_.numel

variable [Facts]

def fn {F : FTy → Type} [FloatOps F] (main_arg0 : FVec F S2x128x64x64 .f32) (main_arg1 : FVec F S2x128x64x64 .f32) : IVec S_ 1 :=
  let main_v0 : FVec F S2x128x64x64 .f32 := Host.absf main_arg0
  let main_cst : FVec F S_ .f32 := constant S_ .f32 0x7F800000#32
  let main_v1 : FVec F S2x128x64x64 .f32 := broadcastInDim S2x128x64x64 ![] bcast_S_S2x128x64x64 main_cst
  let main_v2 : IVec S2x128x64x64 1 := cmpf .olt main_v0 main_v1
  let main_c : IVec S_ 1 := constantI S_ 1 1#1
  let main_v3 : IVec S_ 1 := (fun x v => Host.reduce IntOp.andi x v reducesTo_S2x128x64x64_S_d0_1_2_3 h_S_) main_v2 main_c
  let main_v4 : FVec F S2x128x64x64 .f32 := Host.absf main_arg1
  let main_cst_0 : FVec F S_ .f32 := constant S_ .f32 0x7F800000#32
  let main_v5 : FVec F S2x128x64x64 .f32 := broadcastInDim S2x128x64x64 ![] bcast_S_S2x128x64x64 main_cst_0
  let main_v6 : IVec S2x128x64x64 1 := cmpf .olt main_v4 main_v5
  let main_c_1 : IVec S_ 1 := constantI S_ 1 1#1
  let main_v7 : IVec S_ 1 := (fun x v => Host.reduce IntOp.andi x v reducesTo_S2x128x64x64_S_d0_1_2_3 h_S_) main_v6 main_c_1
  let main_v8 : IVec S_ 1 := andi main_v3 main_v7
  main_v8
-- ==== Kernel.lean ====
abbrev S2x128x64x64 : Shape := ⟨4, ![2, 128, 64, 64]⟩
abbrev S2x128x4096 : Shape := ⟨3, ![2, 128, 4096]⟩
abbrev S2x4096x128 : Shape := ⟨3, ![2, 4096, 128]⟩
abbrev S2x1x4096 : Shape := ⟨3, ![2, 1, 4096]⟩
abbrev S1x128x4096 : Shape := ⟨3, ![1, 128, 4096]⟩
abbrev S1x256x128 : Shape := ⟨3, ![1, 256, 128]⟩
abbrev S1x1x4096 : Shape := ⟨3, ![1, 1, 4096]⟩
abbrev S128x4096 : Shape := ⟨2, ![128, 4096]⟩
abbrev S256x128 : Shape := ⟨2, ![256, 128]⟩
abbrev S4096 : Shape := ⟨1, ![4096]⟩
abbrev S1x4096 : Shape := ⟨2, ![1, 4096]⟩
abbrev S256 : Shape := ⟨1, ![256]⟩
abbrev S256x1 : Shape := ⟨2, ![256, 1]⟩
abbrev S256x4096 : Shape := ⟨2, ![256, 4096]⟩
abbrev S2x4096x1 : Shape := ⟨3, ![2, 4096, 1]⟩
abbrev S1x128x512 : Shape := ⟨3, ![1, 128, 512]⟩
abbrev S1x512x128 : Shape := ⟨3, ![1, 512, 128]⟩
abbrev S1x1x512 : Shape := ⟨3, ![1, 1, 512]⟩
abbrev S1x512x1 : Shape := ⟨3, ![1, 512, 1]⟩
abbrev S128x512 : Shape := ⟨2, ![128, 512]⟩
abbrev S512x128 : Shape := ⟨2, ![512, 128]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S2x4096 : Shape := ⟨2, ![2, 4096]⟩
abbrev S_ : Shape := ⟨0, ![]⟩
abbrev S2 : Shape := ⟨1, ![2]⟩

abbrev nBuf : Space → Nat
  | .hbm => 39
  | .vmem => 48
  | .smem => 0
  | _ => 0

abbrev bufTy : (tb : Table) → Fin (tcTables nBuf tb) → BufTy
  | .hbm, ⟨0, _⟩ => ⟨S2x128x64x64, .f32⟩
  | .hbm, ⟨1, _⟩ => ⟨S2x128x64x64, .f32⟩
  | .hbm, ⟨2, _⟩ => ⟨S2x128x4096, .f32⟩
  | .hbm, ⟨3, _⟩ => ⟨S2x128x4096, .f32⟩
  | .hbm, ⟨4, _⟩ => ⟨S2x4096x128, .f32⟩
  | .hbm, ⟨5, _⟩ => ⟨S2x4096x128, .f32⟩
  | .hbm, ⟨6, _⟩ => ⟨S2x1x4096, .f32⟩
  | .hbm, ⟨7, _⟩ => ⟨S2x1x4096, .f32⟩
  | .hbm, ⟨8, _⟩ => ⟨S2x4096x1, .f32⟩
  | .hbm, ⟨9, _⟩ => ⟨S2x4096, .f32⟩
  | .hbm, ⟨10, _⟩ => ⟨S_, .f32⟩
  | .hbm, ⟨11, _⟩ => ⟨S2, .f32⟩
  | .hbm, ⟨12, _⟩ => ⟨S_, .f32⟩
  | .hbm, ⟨13, _⟩ => ⟨S2, .f32⟩
  | .hbm, ⟨14, _⟩ => ⟨S2, .f32⟩
  | .hbm, ⟨15, _⟩ => ⟨S2x1x4096, .f32⟩
  | .hbm, ⟨16, _⟩ => ⟨S2x1x4096, .f32⟩
  | .hbm, ⟨17, _⟩ => ⟨S2x4096x1, .f32⟩
  | .hbm, ⟨18, _⟩ => ⟨S2x4096, .f32⟩
  | .hbm, ⟨19, _⟩ => ⟨S_, .f32⟩
  | .hbm, ⟨20, _⟩ => ⟨S2, .f32⟩
  | .hbm, ⟨21, _⟩ => ⟨S_, .f32⟩
  | .hbm, ⟨22, _⟩ => ⟨S2, .f32⟩
  | .hbm, ⟨23, _⟩ => ⟨S2, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2, .f32⟩
  | .hbm, ⟨31, _⟩ => ⟨S2, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x128x4096, .f32⟩
  | .local _ .vmem, ⟨1, _⟩ => ⟨S1x128x4096, .f32⟩
  | .local _ .vmem, ⟨2, _⟩ => ⟨S1x256x128, .f32⟩
  | .local _ .vmem, ⟨3, _⟩ => ⟨S1x256x128, .f32⟩
  | .local _ .vmem, ⟨4, _⟩ => ⟨S1x1x4096, .f32⟩
  | .local _ .vmem, ⟨5, _⟩ => ⟨S1x1x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x256x128, .f32⟩
  | .local _ .vmem, ⟨9, _⟩ => ⟨S1x256x128, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x128x512, .f32⟩
  | .local _ .vmem, ⟨15, _⟩ => ⟨S1x128x512, .f32⟩
  | .local _ .vmem, ⟨16, _⟩ => ⟨S1x512x128, .f32⟩
  | .local _ .vmem, ⟨17, _⟩ => ⟨S1x512x128, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x512x1, .f32⟩
  | .local _ .vmem, ⟨23, _⟩ => ⟨S1x512x1, .f32⟩
  | .local _ .vmem, ⟨24, _⟩ => ⟨S1x128x4096, .f32⟩
  | .local _ .vmem, ⟨25, _⟩ => ⟨S1x128x4096, .f32⟩
  | .local _ .vmem, ⟨26, _⟩ => ⟨S1x256x128, .f32⟩
  | .local _ .vmem, ⟨27, _⟩ => ⟨S1x256x128, .f32⟩
  | .local _ .vmem, ⟨28, _⟩ => ⟨S1x1x4096, .f32⟩
  | .local _ .vmem, ⟨29, _⟩ => ⟨S1x1x4096, .f32⟩
  | .local _ .vmem, ⟨30, _⟩ => ⟨S1x128x4096, .f32⟩
  | .local _ .vmem, ⟨31, _⟩ => ⟨S1x128x4096, .f32⟩
  | .local _ .vmem, ⟨32, _⟩ => ⟨S1x256x128, .f32⟩
  | .local _ .vmem, ⟨33, _⟩ => ⟨S1x256x128, .f32⟩
  | .local _ .vmem, ⟨34, _⟩ => ⟨S1x1x4096, .f32⟩
  | .local _ .vmem, ⟨35, _⟩ => ⟨S1x1x4096, .f32⟩
  | .local _ .vmem, ⟨36, _⟩ => ⟨S1x1x4096, .f32⟩
  | .local _ .vmem, ⟨37, _⟩ => ⟨S1x1x4096, .f32⟩
  | .local _ .vmem, ⟨38, _⟩ => ⟨S1x128x512, .f32⟩
  | .local _ .vmem, ⟨39, _⟩ => ⟨S1x128x512, .f32⟩
  | .local _ .vmem, ⟨40, _⟩ => ⟨S1x512x128, .f32⟩
  | .local _ .vmem, ⟨41, _⟩ => ⟨S1x512x128, .f32⟩
  | .local _ .vmem, ⟨42, _⟩ => ⟨S1x1x512, .f32⟩
  | .local _ .vmem, ⟨43, _⟩ => ⟨S1x1x512, .f32⟩
  | .local _ .vmem, ⟨44, _⟩ => ⟨S1x1x512, .f32⟩
  | .local _ .vmem, ⟨45, _⟩ => ⟨S1x1x512, .f32⟩
  | .local _ .vmem, ⟨46, _⟩ => ⟨S1x512x1, .f32⟩
  | .local _ .vmem, ⟨47, _⟩ => ⟨S1x512x1, .f32⟩
  | _, _ => ⟨S2x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨3, ![2, 8, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨2, ![2, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x128x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 16], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x128x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨3, ![2, 8, 8], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 2 → Memref sig .tc .vmem S1x128x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, false]

abbrev stage5_2 : Fin 2 → Memref sig .tc .vmem S1x1x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, true]

abbrev stage5_3 : Fin 2 → Memref sig .tc .vmem S1x1x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false, true]

abbrev stage5_4 : Fin 2 → Memref sig .tc .vmem S1x512x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

class Facts₀ : Prop where
  shapeCasts_S2x128x64x64_S2x128x4096 : S2x128x64x64.ShapeCasts S2x128x4096
  transposes_S2x128x4096_S2x4096x128_0_2_1 : S2x128x4096.Transposes [0, 2, 1] S2x4096x128
  inb_S1x1x4096_S1x1x4096_0_0_0 : ∀ a, (![0, 0, 0] : Fin 3 → Nat) a + S1x1x4096.size a ≤ S1x1x4096.size a
  h_S1x1x4096 : 0 < S1x1x4096.numel
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  reduces_S128x4096_S4096 : S128x4096.Reduces [0] S4096
  shapeCasts_S4096_S1x4096 : S4096.ShapeCasts S1x4096
  reduces_S256x128_S256 : S256x128.Reduces [1] S256
  shapeCasts_S256_S256x1 : S256.ShapeCasts S256x1
  bitsLt_bf16_f32 : FTy.bits .bf16 < FTy.bits .f32
  broadcasts_S256x1_S256x4096 : S256x1.Broadcasts S256x4096
  broadcasts_S1x4096_S256x4096 : S1x4096.Broadcasts S256x4096
  reduces_S256x4096_S4096 : S256x4096.Reduces [0] S4096
  shapeCasts_S1x1x4096_S1x4096 : S1x1x4096.ShapeCasts S1x4096
  shapeCasts_S1x4096_S1x1x4096 : S1x4096.ShapeCasts S1x1x4096
  inb_S1x512x1_S1x512x1_0_0_0 : ∀ a, (![0, 0, 0] : Fin 3 → Nat) a + S1x512x1.size a ≤ S1x512x1.size a
  h_S1x512x1 : 0 < S1x512x1.numel
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S128x512_S512 : S128x512.Reduces [0] S512
  shapeCasts_S512_S1x512 : S512.ShapeCasts S1x512
  reduces_S512x128_S512 : S512x128.Reduces [1] S512
  shapeCasts_S512_S512x1 : S512.ShapeCasts S512x1
  broadcasts_S512x1_S512x512 : S512x1.Broadcasts S512x512
  broadcasts_S1x512_S512x512 : S1x512.Broadcasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  reduces_S512x512_S512 : S512x512.Reduces [1] S512
  shapeCasts_S1x512x1_S512x1 : S1x512x1.ShapeCasts S512x1
  shapeCasts_S512x1_S1x512x1 : S512x1.ShapeCasts S1x512x1
  shapeCasts_S2x4096x1_S2x4096 : S2x4096x1.ShapeCasts S2x4096
  reducesTo_S2x4096_S2_d1 : S2x4096.ReducesTo [1] S2
  h_S_ : 0 < S_.numel
  bcast_S_S2 : S_.BroadcastsInDim S2 (![] : Fin 0 → Fin S2.rank)
  reducesTo_S2_S_d0 : S2.ReducesTo [0] S_
  dot_S256x128_S128x4096_S256x4096_1_0_0_1_n_n_wf : DotDims.WF S256x128 S128x4096 S256x4096 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S2x128x4096.size a
  hwx0_0 : ∀ i : grid0.Coords, EltTy.bits .f32 = 32 ∨ (Rect.block (s := S2x128x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S2x4096x128.size a
  hwx0_1 : ∀ i : grid0.Coords, EltTy.bits .f32 = 32 ∨ (Rect.block (s := S2x4096x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S2x1x4096.size a
  hwx0_2 : ∀ i : grid0.Coords, EltTy.bits .f32 = 32 ∨ (Rect.block (s := S2x1x4096) S1x1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x4096.size a ≤ S2x128x4096.size a
  hwx1_0 : ∀ i : grid1.Coords, EltTy.bits .f32 = 32 ∨ (Rect.block (s := S2x128x4096) S1x128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S2x4096x128.size a
  hwx1_1 : ∀ i : grid1.Coords, EltTy.bits .f32 = 32 ∨ (Rect.block (s := S2x4096x128) S1x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096.size a ≤ S2x1x4096.size a
  hwx1_2 : ∀ i : grid1.Coords, EltTy.bits .f32 = 32 ∨ (Rect.block (s := S2x1x4096) S1x1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096.size a ≤ S2x1x4096.size a
  hwx1_3 : ∀ i : grid1.Coords, EltTy.bits .f32 = 32 ∨ (Rect.block (s := S2x1x4096) S1x1x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x512.size a ≤ S2x128x4096.size a
  hwx2_0 : ∀ i : grid2.Coords, EltTy.bits .f32 = 32 ∨ (Rect.block (s := S2x128x4096) S1x128x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x128.size a ≤ S2x4096x128.size a
  hwx2_1 : ∀ i : grid2.Coords, EltTy.bits .f32 = 32 ∨ (Rect.block (s := S2x4096x128) S1x512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S2x1x4096.size a
  hwx2_2 : ∀ i : grid2.Coords, EltTy.bits .f32 = 32 ∨ (Rect.block (s := S2x1x4096) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512.size a ≤ S2x1x4096.size a
  hwx2_3 : ∀ i : grid2.Coords, EltTy.bits .f32 = 32 ∨ (Rect.block (s := S2x1x4096) S1x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1.size a ≤ S2x4096x1.size a
  hwx2_4 : ∀ i : grid2.Coords, EltTy.bits .f32 = 32 ∨ (Rect.block (s := S2x4096x1) S1x512x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x4096.size a ≤ S2x128x4096.size a
  hwx3_0 : ∀ i : grid3.Coords, EltTy.bits .f32 = 32 ∨ (Rect.block (s := S2x128x4096) S1x128x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x128.size a ≤ S2x4096x128.size a
  hwx3_1 : ∀ i : grid3.Coords, EltTy.bits .f32 = 32 ∨ (Rect.block (s := S2x4096x128) S1x256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x4096.size a ≤ S2x1x4096.size a
  hwx3_2 : ∀ i : grid3.Coords, EltTy.bits .f32 = 32 ∨ (Rect.block (s := S2x1x4096) S1x1x4096.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x4096.size a ≤ S2x128x4096.size a
  hwx4_0 : ∀ i : grid4.Coords, EltTy.bits .f32 = 32 ∨ (Rect.block (s := S2x128x4096) S1x128x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x256x128.size a ≤ S2x4096x128.size a
  hwx4_1 : ∀ i : grid4.Coords, EltTy.bits .f32 = 32 ∨ (Rect.block (s := S2x4096x128) S1x256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x4096.size a ≤ S2x1x4096.size a
  hwx4_2 : ∀ i : grid4.Coords, EltTy.bits .f32 = 32 ∨ (Rect.block (s := S2x1x4096) S1x1x4096.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x4096.size a ≤ S2x1x4096.size a
  hwx4_3 : ∀ i : grid4.Coords, EltTy.bits .f32 = 32 ∨ (Rect.block (s := S2x1x4096) S1x1x4096.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x128x512.size a ≤ S2x128x4096.size a
  hwx5_0 : ∀ i : grid5.Coords, EltTy.bits .f32 = 32 ∨ (Rect.block (s := S2x128x4096) S1x128x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x512x128.size a ≤ S2x4096x128.size a
  hwx5_1 : ∀ i : grid5.Coords, EltTy.bits .f32 = 32 ∨ (Rect.block (s := S2x4096x128) S1x512x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x512.size a ≤ S2x1x4096.size a
  hwx5_2 : ∀ i : grid5.Coords, EltTy.bits .f32 = 32 ∨ (Rect.block (s := S2x1x4096) S1x1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x512.size a ≤ S2x1x4096.size a
  hwx5_3 : ∀ i : grid5.Coords, EltTy.bits .f32 = 32 ∨ (Rect.block (s := S2x1x4096) S1x1x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x512x1.size a ≤ S2x4096x1.size a
  hwx5_4 : ∀ i : grid5.Coords, EltTy.bits .f32 = 32 ∨ (Rect.block (s := S2x4096x1) S1x512x1.size (cc5_transform_4 i) (hinb5_4 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x512x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v1) S1x128x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1x256x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1x4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v1) S1x128x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S1x256x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1x4096.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v12) S1x1x4096.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v1) S1x128x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S1x512x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1x1x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v12) S1x1x512.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v13) S1x512x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S2x128x64x64 : Shape := ⟨4, ![2, 128, 64, 64]⟩
abbrev S2x128x4096 : Shape := ⟨3, ![2, 128, 4096]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩
abbrev S2x1x4096 : Shape := ⟨3, ![2, 1, 4096]⟩
abbrev S2 : Shape := ⟨1, ![2]⟩

abbrev nBuf : Space → Nat
  | .hbm => 117
  | .vmem => 0
  | .smem => 0
  | _ => 0

abbrev bufTy : (tb : Table) → Fin (tcTables nBuf tb) → BufTy
  | .hbm, ⟨0, _⟩ => ⟨S2x128x64x64, .f32⟩
  | .hbm, ⟨1, _⟩ => ⟨S2x128x64x64, .f32⟩
  | .hbm, ⟨2, _⟩ => ⟨S2x128x4096, .f32⟩
  | .hbm, ⟨3, _⟩ => ⟨S2x4096x128, .f32⟩
  | .hbm, ⟨4, _⟩ => ⟨S2x128x4096, .f32⟩
  | .hbm, ⟨5, _⟩ => ⟨S2x4096x128, .f32⟩
  | .hbm, ⟨6, _⟩ => ⟨S2x4096x128, .f32⟩
  | .hbm, ⟨7, _⟩ => ⟨S_, .f32⟩
  | .hbm, ⟨8, _⟩ => ⟨S2x4096, .f32⟩
  | .hbm, ⟨9, _⟩ => ⟨S2x4096x128, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S2x4096x4096, .f32⟩
  | .hbm, ⟨14, _⟩ => ⟨S_, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x1x4096, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096, .f32⟩
  | .hbm, ⟨27, _⟩ => ⟨S2x1x4096, .f32⟩
  | .hbm, ⟨28, _⟩ => ⟨S_, .f32⟩
  | .hbm, ⟨29, _⟩ => ⟨S2x1x4096, .f32⟩
  | .hbm, ⟨30, _⟩ => ⟨S2x1x4096, .f32⟩
  | .hbm, ⟨31, _⟩ => ⟨S2x4096x4096, .f32⟩
  | .hbm, ⟨32, _⟩ => ⟨S2x4096x4096, .f32⟩
  | .hbm, ⟨33, _⟩ => ⟨S_, .f32⟩
  | .hbm, ⟨34, _⟩ => ⟨S2x4096x4096, .f32⟩
  | .hbm, ⟨35, _⟩ => ⟨S2x4096x4096, .f32⟩
  | .hbm, ⟨36, _⟩ => ⟨S_, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096, .f32⟩
  | .hbm, ⟨42, _⟩ => ⟨S2x1x4096, .f32⟩
  | .hbm, ⟨43, _⟩ => ⟨S2x4096x4096, .f32⟩
  | .hbm, ⟨44, _⟩ => ⟨S2x4096x4096, .f32⟩
  | .hbm, ⟨45, _⟩ => ⟨S_, .f32⟩
  | .hbm, ⟨46, _⟩ => ⟨S2x4096, .f32⟩
  | .hbm, ⟨47, _⟩ => ⟨S_, .f32⟩
  | .hbm, ⟨48, _⟩ => ⟨S2, .f32⟩
  | .hbm, ⟨49, _⟩ => ⟨S_, .f32⟩
  | .hbm, ⟨50, _⟩ => ⟨S2, .f32⟩
  | .hbm, ⟨51, _⟩ => ⟨S2, .f32⟩
  | .hbm, ⟨52, _⟩ => ⟨S2, .f32⟩
  | .hbm, ⟨53, _⟩ => ⟨S2, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2x128x4096, .f32⟩
  | .hbm, ⟨59, _⟩ => ⟨S2x4096x128, .f32⟩
  | .hbm, ⟨60, _⟩ => ⟨S2x128x4096, .f32⟩
  | .hbm, ⟨61, _⟩ => ⟨S2x4096x128, .f32⟩
  | .hbm, ⟨62, _⟩ => ⟨S2x4096x128, .f32⟩
  | .hbm, ⟨63, _⟩ => ⟨S_, .f32⟩
  | .hbm, ⟨64, _⟩ => ⟨S2x4096, .f32⟩
  | .hbm, ⟨65, _⟩ => ⟨S2x4096x128, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S2x4096x4096, .f32⟩
  | .hbm, ⟨70, _⟩ => ⟨S_, .f32⟩
  | .hbm, ⟨71, _⟩ => ⟨S2x4096x4096, .f32⟩
  | .hbm, ⟨72, _⟩ => ⟨S2x4096x4096, .f32⟩
  | .hbm, ⟨73, _⟩ => ⟨S2x4096x4096, .f32⟩
  | .hbm, ⟨74, _⟩ => ⟨S2x4096x4096, .f32⟩
  | .hbm, ⟨75, _⟩ => ⟨S2x1x4096, .f32⟩
  | .hbm, ⟨76, _⟩ => ⟨S2x4096x4096, .f32⟩
  | .hbm, ⟨77, _⟩ => ⟨S2x4096x4096, .f32⟩
  | .hbm, ⟨78, _⟩ => ⟨S_, .f32⟩
  | .hbm, ⟨79, _⟩ => ⟨S2x4096x4096, .f32⟩
  | .hbm, ⟨80, _⟩ => ⟨S2x4096x4096, .f32⟩
  | .hbm, ⟨81, _⟩ => ⟨S_, .f32⟩
  | .hbm, ⟨82, _⟩ => ⟨S2x4096, .f32⟩
  | .hbm, ⟨83, _⟩ => ⟨S2x1x4096, .f32⟩
  | .hbm, ⟨84, _⟩ => ⟨S_, .f32⟩
  | .hbm, ⟨85, _⟩ => ⟨S2x1x4096, .f32⟩
  | .hbm, ⟨86, _⟩ => ⟨S2x1x4096, .f32⟩
  | .hbm, ⟨87, _⟩ => ⟨S2x4096x4096, .f32⟩
  | .hbm, ⟨88, _⟩ => ⟨S2x4096x4096, .f32⟩
  | .hbm, ⟨89, _⟩ => ⟨S_, .f32⟩
  | .hbm, ⟨90, _⟩ => ⟨S2x4096x4096, .f32⟩
  | .hbm, ⟨91, _⟩ => ⟨S2x4096x4096, .f32⟩
  | .hbm, ⟨92, _⟩ => ⟨S_, .f32⟩
  | .hbm, ⟨93, _⟩ => ⟨S2x4096x4096, .f32⟩
  | .hbm, ⟨94, _⟩ => ⟨S2x4096x4096, .f32⟩
  | .hbm, ⟨95, _⟩ => ⟨S2x4096x4096, .f32⟩
  | .hbm, ⟨96, _⟩ => ⟨S_, .f32⟩
  | .hbm, ⟨97, _⟩ => ⟨S2x4096, .f32⟩
  | .hbm, ⟨98, _⟩ => ⟨S2x1x4096, .f32⟩
  | .hbm, ⟨99, _⟩ => ⟨S2x4096x4096, .f32⟩
  | .hbm, ⟨100, _⟩ => ⟨S2x4096x4096, .f32⟩
  | .hbm, ⟨101, _⟩ => ⟨S_, .f32⟩
  | .hbm, ⟨102, _⟩ => ⟨S2x4096, .f32⟩
  | .hbm, ⟨103, _⟩ => ⟨S_, .f32⟩
  | .hbm, ⟨104, _⟩ => ⟨S2, .f32⟩
  | .hbm, ⟨105, _⟩ => ⟨S_, .f32⟩
  | .hbm, ⟨106, _⟩ => ⟨S2, .f32⟩
  | .hbm, ⟨107, _⟩ => ⟨S2, .f32⟩
  | .hbm, ⟨108, _⟩ => ⟨S2, .f32⟩
  | .hbm, ⟨109, _⟩ => ⟨S2, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩
abbrev main_cst_18 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_19 : Ref sig .tc := ⟨.hbm, 89, rfl⟩
abbrev main_v67 : Ref sig .tc := ⟨.hbm, 90, rfl⟩
abbrev main_v68 : Ref sig .tc := ⟨.hbm, 91, rfl⟩
abbrev main_cst_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_21 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_22 : Ref sig .tc := ⟨.hbm, 101, rfl⟩
abbrev main_v76 : Ref sig .tc := ⟨.hbm, 102, rfl⟩
abbrev main_cst_23 : Ref sig .tc := ⟨.hbm, 103, rfl⟩
abbrev main_v77 : Ref sig .tc := ⟨.hbm, 104, rfl⟩
abbrev main_cst_24 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_25 : Ref sig .tc := ⟨.hbm, 110, rfl⟩
abbrev main_v82 : Ref sig .tc := ⟨.hbm, 111, rfl⟩
abbrev main_cst_26 : Ref sig .tc := ⟨.hbm, 112, rfl⟩
abbrev main_v83 : Ref sig .tc := ⟨.hbm, 113, rfl⟩
abbrev main_v84 : Ref sig .tc := ⟨.hbm, 114, rfl⟩
abbrev main_cst_27 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  shapeCasts_S2x128x64x64_S2x128x4096 : S2x128x64x64.ShapeCasts S2x128x4096
  transposes_S2x128x4096_S2x4096x128_0_2_1 : S2x128x4096.Transposes [0, 2, 1] S2x4096x128
  reducesTo_S2x4096x128_S2x4096_d2 : S2x4096x128.ReducesTo [2] S2x4096
  h_S_ : 0 < S_.numel
  bcast_S2x4096_S2x4096x1_0_1 : S2x4096.BroadcastsInDim S2x4096x1 (![0, 1] : Fin 2 → Fin S2x4096x1.rank)
  bcast_S_S2x4096x4096 : S_.BroadcastsInDim S2x4096x4096 (![] : Fin 0 → Fin S2x4096x4096.rank)
  bcast_S2x4096x1_S2x4096x4096_0_1_2 : S2x4096x1.BroadcastsInDim S2x4096x4096 (![0, 1, 2] : Fin 3 → Fin S2x4096x4096.rank)
  bcast_S2x4096_S2x1x4096_0_2 : S2x4096.BroadcastsInDim S2x1x4096 (![0, 2] : Fin 2 → Fin S2x1x4096.rank)
  bcast_S2x1x4096_S2x4096x4096_0_1_2 : S2x1x4096.BroadcastsInDim S2x4096x4096 (![0, 1, 2] : Fin 3 → Fin S2x4096x4096.rank)
  reducesTo_S2x4096x4096_S2x4096_d1 : S2x4096x4096.ReducesTo [1] S2x4096
  bcast_S_S2x1x4096 : S_.BroadcastsInDim S2x1x4096 (![] : Fin 0 → Fin S2x1x4096.rank)
  reducesTo_S2x4096x4096_S2x4096_d2 : S2x4096x4096.ReducesTo [2] S2x4096
  reducesTo_S2x4096_S2_d1 : S2x4096.ReducesTo [1] S2
  bcast_S_S2 : S_.BroadcastsInDim S2 (![] : Fin 0 → Fin S2.rank)
  reducesTo_S2_S_d0 : S2.ReducesTo [0] S_
  dot_S2x4096x128_S2x4096x128_S2x4096x4096_2_2_1_1_0_0_wf : DotDims.WF S2x4096x128 S2x4096x128 S2x4096x4096 [2] [2] [1] [1] [0] [0]

variable [Facts₀]

def dot_S2x4096x128_S2x4096x128_S2x4096x4096_2_2_1_1_0_0 : DotDims S2x4096x128 S2x4096x128 S2x4096x4096 where
  lhsContracting := [2]
  rhsContracting := [2]
  lhsNonContracting := [1]
  rhsNonContracting := [1]
  lhsBatch := [0]
  rhsBatch := [0]
  wf := dot_S2x4096x128_S2x4096x128_S2x4096x4096_2_2_1_1_0_0_wf

class Facts : Prop extends Facts₀ where

variable [Facts]
-- ==== Proof.SimSpec.lean ====
/-
  The contextual similarity of two point clouds, as one function of the points.

  A batch holds 4096 points of 128 channels on each side: `s b j c` is channel `c` of point `j` of the
  "column" cloud and `t b i c` channel `c` of point `i` of the "row" cloud. With
    dist b i j = max ((|t_i|² - 2·⟨t_i, s_j⟩) + |s_j|²) 0,
  the column minimum `mind b j = min_i dist b i j`, the weight
    w b i j = exp ((1 - dist b i j / (mind b j + ε)) / ½),
  the column total `tot b j = 0 + Σ_i w b i j` and the row maximum `best b i = max_j (w b i j / tot b j)`.
  The minimum, the total and the maximum are taken in one piece here; a tiled computation takes them tile by tile,
  and the lemmas of this file say that a tile-by-tile running minimum / total / maximum over consecutive tiles is the
  one-piece value: `min` and `max` by their universal property on a linear order, the total by splitting a sum over a
  range.
-/
import Idealize.ShloMosaic.PureOps.Ideal
import Idealize.ShloMosaic.PureOps.Ideal.Laws
import Mathlib.Algebra.BigOperators.Fin
import Mathlib.Algebra.BigOperators.Intervals

noncomputable section

namespace ContextualSim

open Idealize.ShloMosaic

/-- The float literals of both programs, as the extended reals their words denote (never evaluated: the same word
    stands on both sides). -/
abbrev cTwo : EReal := Ideal.ofBits .f32 0x40000000#32
abbrev cZero : EReal := Ideal.ofBits .f32 0x00000000#32
abbrev cPosInf : EReal := Ideal.ofBits .f32 0x7F800000#32
abbrev cNegInf : EReal := Ideal.ofBits .f32 0xFF800000#32
abbrev cEps : EReal := Ideal.ofBits .f32 0x3727C5AC#32
abbrev cOne : EReal := Ideal.ofBits .f32 0x3F800000#32
abbrev cHalf : EReal := Ideal.ofBits .f32 0x3F000000#32

/-- A cloud: batch, point, channel. -/
abbrev Cloud := Fin 2 → Fin 4096 → Fin 128 → EReal

variable (s t : Cloud)

/-- The squared norm of point `i`. -/
def sqn (x : Cloud) (b : Fin 2) (i : Fin 4096) : EReal := ∑ c : Fin 128, x b i c * x b i c

/-- The inner product of row point `i` and column point `j`. -/
def inner (b : Fin 2) (i j : Fin 4096) : EReal := ∑ c : Fin 128, t b i c * s b j c

/-- The clamped squared distance. -/
def dist (b : Fin 2) (i j : Fin 4096) : EReal :=
  max ((sqn t b i - cTwo * inner s t b i j) + sqn s b j) cZero

/-- The column minimum of the distances. -/
def mind (b : Fin 2) (j : Fin 4096) : EReal :=
  (Finset.univ : Finset (Fin 4096)).fold min cPosInf (fun i => dist s t b i j)

/-- The weight of the pair `(i, j)` given column minima `M`. -/
def weight (M : Fin 2 → Fin 4096 → EReal) (b : Fin 2) (i j : Fin 4096) : EReal :=
  Ideal.exp (Ideal.div (cOne - Ideal.div (dist s t b i j) (M b j + cEps)) cHalf)

/-- The column total of the weights. -/
def total (M : Fin 2 → Fin 4096 → EReal) (b : Fin 2) (j : Fin 4096) : EReal :=
  cZero + ∑ i : Fin 4096, weight s t M b i j

/-- The row maximum of the normalized weights, given column minima `M` and column totals `Z`. -/
def best (M Z : Fin 2 → Fin 4096 → EReal) (b : Fin 2) (i : Fin 4096) : EReal :=
  (Finset.univ : Finset (Fin 4096)).fold max cNegInf (fun j => Ideal.div (weight s t M b i j) (Z b j))

/-! ## Running values over consecutive tiles -/

/-- A value is the minimum of `init` and of `f` over the indices below `n`: its lower bounds are the common lower
    bounds. -/
def IsMinBelow {N : ℕ} (init : EReal) (f : Fin N → EReal) (n : ℕ) (v : EReal) : Prop :=
  ∀ z : EReal, z ≤ v ↔ z ≤ init ∧ ∀ i : Fin N, i.val < n → z ≤ f i

/-- A value is the maximum of `init` and of `f` over the indices below `n`. -/
def IsMaxBelow {N : ℕ} (init : EReal) (f : Fin N → EReal) (n : ℕ) (v : EReal) : Prop :=
  ∀ z : EReal, v ≤ z ↔ init ≤ z ∧ ∀ i : Fin N, i.val < n → f i ≤ z

theorem eq_of_forall_le_iff' {a b : EReal} (h : ∀ z, z ≤ a ↔ z ≤ b) : a = b :=
  le_antisymm ((h a).mp le_rfl) ((h b).mpr le_rfl)

theorem eq_of_forall_ge_iff' {a b : EReal} (h : ∀ z, a ≤ z ↔ b ≤ z) : a = b :=
  le_antisymm ((h b).mpr le_rfl) ((h a).mp le_rfl)

/-- Over all indices the running minimum is the fold of `min`. -/
theorem IsMinBelow.eq_fold {N : ℕ} {init : EReal} {f : Fin N → EReal} {v : EReal} (h : IsMinBelow init f N v) :
    v = (Finset.univ : Finset (Fin N)).fold min init f :=
  eq_of_forall_le_iff' fun z => by
    rw [h z, Finset.le_fold_min]
    exact ⟨fun ⟨h0, h1⟩ => ⟨h0, fun i _ => h1 i i.isLt⟩, fun ⟨h0, h1⟩ => ⟨h0, fun i _ => h1 i (Finset.mem_univ _)⟩⟩

/-- Over all indices the running maximum is the fold of `max`. -/
theorem IsMaxBelow.eq_fold {N : ℕ} {init : EReal} {f : Fin N → EReal} {v : EReal} (h : IsMaxBelow init f N v) :
    v = (Finset.univ : Finset (Fin N)).fold max init f :=
  eq_of_forall_ge_iff' fun z => by
    rw [h z, Finset.fold_max_le]
    exact ⟨fun ⟨h0, h1⟩ => ⟨h0, fun i _ => h1 i i.isLt⟩, fun ⟨h0, h1⟩ => ⟨h0, fun i _ => h1 i (Finset.mem_univ _)⟩⟩

/-- The first tile: the minimum of `init` with the tile's own minimum (itself a fold from `init`). -/
theorem IsMinBelow.first {N L : ℕ} (init : EReal) (f : Fin N → EReal) (g : Fin L → EReal)
    (emb : Fin L → Fin N) (hemb : ∀ r, (emb r).val = r.val) (hL : L ≤ N) :
    (∀ r, g r = f (emb r)) →
    IsMinBelow init f L (min init ((Finset.univ : Finset (Fin L)).fold min init g)) := by
  intro hg z
  rw [le_min_iff, Finset.le_fold_min]
  constructor
  · rintro ⟨h0, -, h1⟩
    refine ⟨h0, fun i hi => ?_⟩
    have := h1 ⟨i.val, hi⟩ (Finset.mem_univ _)
    rw [hg] at this
    rwa [show emb ⟨i.val, hi⟩ = i from Fin.ext (hemb _)] at this
  · rintro ⟨h0, h1⟩
    exact ⟨h0, h0, fun r _ => by rw [hg]; exact h1 _ (by rw [hemb]; exact r.isLt)⟩

/-- A further tile: the minimum of the running value with the tile's own minimum. -/
theorem IsMinBelow.step {N L : ℕ} {init : EReal} {f : Fin N → EReal} {n : ℕ} {v : EReal} (h : IsMinBelow init f n v)
    (g : Fin L → EReal) (emb : Fin L → Fin N) (hemb : ∀ r, (emb r).val = n + r.val) (hg : ∀ r, g r = f (emb r)) :
    IsMinBelow init f (n + L) (min v ((Finset.univ : Finset (Fin L)).fold min init g)) := by
  intro z
  rw [le_min_iff, h z, Finset.le_fold_min]
  constructor
  · rintro ⟨⟨h0, h1⟩, -, h2⟩
    refine ⟨h0, fun i hi => ?_⟩
    by_cases hlt : i.val < n
    · exact h1 i hlt
    · have := h2 ⟨i.val - n, by omega⟩ (Finset.mem_univ _)
      rw [hg] at this
      rwa [show emb ⟨i.val - n, by omega⟩ = i from Fin.ext (by rw [hemb]; simp only; omega)] at this
  · rintro ⟨h0, h1⟩
    exact ⟨⟨h0, fun i hi => h1 i (by omega)⟩, h0, fun r _ => by rw [hg]; exact h1 _ (by rw [hemb]; have := r.isLt; omega)⟩

/-- The first tile of a running maximum. -/
theorem IsMaxBelow.first {N L : ℕ} (init : EReal) (f : Fin N → EReal) (g : Fin L → EReal)
    (emb : Fin L → Fin N) (hemb : ∀ r, (emb r).val = r.val) (hg : ∀ r, g r = f (emb r)) :
    IsMaxBelow init f L (max init ((Finset.univ : Finset (Fin L)).fold max init g)) := by
  intro z
  rw [max_le_iff, Finset.fold_max_le]
  constructor
  · rintro ⟨h0, -, h1⟩
    refine ⟨h0, fun i hi => ?_⟩
    have := h1 ⟨i.val, hi⟩ (Finset.mem_univ _)
    rw [hg] at this
    rwa [show emb ⟨i.val, hi⟩ = i from Fin.ext (hemb _)] at this
  · rintro ⟨h0, h1⟩
    exact ⟨h0, h0, fun r _ => by rw [hg]; exact h1 _ (by rw [hemb]; exact r.isLt)⟩

/-- A further tile of a running maximum. -/
theorem IsMaxBelow.step {N L : ℕ} {init : EReal} {f : Fin N → EReal} {n : ℕ} {v : EReal} (h : IsMaxBelow init f n v)
    (g : Fin L → EReal) (emb : Fin L → Fin N) (hemb : ∀ r, (emb r).val = n + r.val) (hg : ∀ r, g r = f (emb r)) :
    IsMaxBelow init f (n + L) (max v ((Finset.univ : Finset (Fin L)).fold max init g)) := by
  intro z
  rw [max_le_iff, h z, Finset.fold_max_le]
  constructor
  · rintro ⟨⟨h0, h1⟩, -, h2⟩
    refine ⟨h0, fun i hi => ?_⟩
    by_cases hlt : i.val < n
    · exact h1 i hlt
    · have := h2 ⟨i.val - n, by omega⟩ (Finset.mem_univ _)
      rw [hg] at this
      rwa [show emb ⟨i.val - n, by omega⟩ = i from Fin.ext (by rw [hemb]; simp only; omega)] at this
  · rintro ⟨h0, h1⟩
    exact ⟨⟨h0, fun i hi => h1 i (by omega)⟩, h0, fun r _ => by rw [hg]; exact h1 _ (by rw [hemb]; have := r.isLt; omega)⟩

/-- `f` extended by zero past its domain, so that partial sums range over naturals. -/
def ext0 {N : ℕ} (f : Fin N → EReal) (i : ℕ) : EReal := if h : i < N then f ⟨i, h⟩ else 0

theorem ext0_val {N : ℕ} (f : Fin N → EReal) (i : Fin N) : ext0 f i.val = f i := by
  unfold ext0; rw [dif_pos i.isLt]

/-- The sum over a whole domain is the sum of the extension over the range. -/
theorem sum_eq_sum_range_ext0 {N : ℕ} (f : Fin N → EReal) : ∑ i : Fin N, f i = ∑ i ∈ Finset.range N, ext0 f i := by
  rw [← Fin.sum_univ_eq_sum_range]
  exact Finset.sum_congr rfl fun i _ => (ext0_val f i).symm

/-- A tile's own sum is the extension's sum over the tile's stretch of the range. -/
theorem tile_sum {N L : ℕ} (f : Fin N → EReal) (n : ℕ) (g : Fin L → EReal) (emb : Fin L → Fin N)
    (hemb : ∀ r, (emb r).val = n + r.val) (hg : ∀ r, g r = f (emb r)) :
    ∑ r : Fin L, g r = ∑ r ∈ Finset.range L, ext0 f (n + r) := by
  rw [← Fin.sum_univ_eq_sum_range]
  refine Finset.sum_congr rfl fun r _ => ?_
  rw [hg, ← hemb r, ext0_val]

/-- Adding a tile's sum to a running total over the indices below `n` gives the running total below `n + L`. -/
theorem total_step {N L : ℕ} (init : EReal) (f : Fin N → EReal) (n : ℕ) (g : Fin L → EReal) (emb : Fin L → Fin N)
    (hemb : ∀ r, (emb r).val = n + r.val) (hg : ∀ r, g r = f (emb r)) :
    (init + ∑ i ∈ Finset.range n, ext0 f i) + ∑ r : Fin L, g r = init + ∑ i ∈ Finset.range (n + L), ext0 f i := by
  rw [tile_sum f n g emb hemb hg, Finset.sum_range_add, add_assoc]

end ContextualSim

end
-- ==== Proof.TileA.lean ====
/-
  One grid point of the column passes, read at an index: a tile of 256 row points against all 4096 column points of a
  batch. `x0` is the column cloud's block `[1, 128, 4096]` (channel, point) and `x1` the row cloud's block
  `[1, 256, 128]` (point, channel). `tileDist x0 x1` is the `[256, 4096]` array of clamped squared distances
    max ((|x1_r|² - 2·⟨x1_r, x0_j⟩) + |x0_j|²) 0,
  the norms by lane sums over the channel axis, the inner products by the matrix product into a zero accumulator, the
  two norms broadcast along the other axis. The stores of the two column passes are then: the running column minimum
  `min old (min_r tileDist)`, and the running column total `old + Σ_r exp ((1 - tileDist / (mind + ε)) / ½)`.
-/
import proofs.«129256_j54339926229668_1_alg».proof.Proof.Gen.KernelIdeal.Skeleton
import proofs.«129256_j54339926229668_1_alg».proof.Proof.SimSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileA

open Cert.KernelIdeal Cert.KernelIdeal.Gen Idealize.ShloMosaic Idealize.ShloMosaic.ValueIdx ContextualSim

/-! ## The layout operations of the tile, at coordinates -/

/-- The row block with its unit axis dropped. -/
theorem rows_at (x1 : Vec Ideal S1x256x128 .f32) (r : Fin 256) (c : Fin 128) :
    shapeCast S256x128 x1 shapeCasts_S1x256x128_S256x128 (ix2 r c) = x1 (ix3 (0 : Fin 1) r c) :=
  shapeCast_1ab_ab_apply x1 shapeCasts_S1x256x128_S256x128 r c

/-- The column block with its unit axis dropped. -/
theorem cols_at (x0 : Vec Ideal S1x128x4096 .f32) (c : Fin 128) (j : Fin 4096) :
    shapeCast S128x4096 x0 shapeCasts_S1x128x4096_S128x4096 (ix2 c j) = x0 (ix3 (0 : Fin 1) c j) :=
  shapeCast_1ab_ab_apply x0 shapeCasts_S1x128x4096_S128x4096 c j

/-- The same two casts as whole arrays. -/
theorem rows_eq (x1 : Vec Ideal S1x256x128 .f32) :
    shapeCast S256x128 x1 shapeCasts_S1x256x128_S256x128 = fun i => x1 (ix3 (0 : Fin 1) (i 0) (i 1)) :=
  funext fun i => (congrArg (shapeCast S256x128 x1 shapeCasts_S1x256x128_S256x128) (eq_ix2 i)).trans (rows_at x1 (i 0) (i 1))

theorem cols_eq (x0 : Vec Ideal S1x128x4096 .f32) :
    shapeCast S128x4096 x0 shapeCasts_S1x128x4096_S128x4096 = fun i => x0 (ix3 (0 : Fin 1) (i 0) (i 1)) :=
  funext fun i => (congrArg (shapeCast S128x4096 x0 shapeCasts_S1x128x4096_S128x4096) (eq_ix2 i)).trans (cols_at x0 (i 0) (i 1))

/-- A lane sum along the channel axis of a `[256, 128]` array: the sum over the channels of row `r`. -/
theorem rowsum_at (v : FVec Ideal S256x128 .f32) (r : Fin 256) :
    multiReduction .add [1] S256 v 0x00000000#32 reduces_S256x128_S256 (.inl rfl) rfl (ix1 r) = ∑ c : Fin 128, v (ix2 r c) :=
  (Ideal.multiReduction_add_single v _ reduces_S256x128_S256 _ _ (ix1 r)).trans
    (Finset.sum_congr rfl fun k _ => congrArg v (funext fun a => Fin.ext (by
      match a with
      | ⟨0, _⟩ => rfl
      | ⟨1, _⟩ => rfl)))

/-- A sublane sum along the channel axis of a `[128, 4096]` array: the sum over the channels of column `j`. -/
theorem colsum_at (v : FVec Ideal S128x4096 .f32) (j : Fin 4096) :
    multiReduction .add [0] S4096 v 0x00000000#32 reduces_S128x4096_S4096 (.inl rfl) rfl (ix1 j) = ∑ c : Fin 128, v (ix2 c j) :=
  (Ideal.multiReduction_add_single v _ reduces_S128x4096_S4096 _ _ (ix1 j)).trans
    (Finset.sum_congr rfl fun k _ => congrArg v (funext fun a => Fin.ext (by
      match a with
      | ⟨0, _⟩ => rfl
      | ⟨1, _⟩ => rfl)))

/-- The sum over the tile's rows of column `j` of a `[256, 4096]` array. -/
theorem tilesum_at (v : FVec Ideal S256x4096 .f32) (j : Fin 4096) :
    multiReduction .add [0] S4096 v 0x00000000#32 reduces_S256x4096_S4096 (.inl rfl) rfl (ix1 j) = ∑ r : Fin 256, v (ix2 r j) :=
  (Ideal.multiReduction_add_single v _ reduces_S256x4096_S4096 _ _ (ix1 j)).trans
    (Finset.sum_congr rfl fun k _ => congrArg v (funext fun a => Fin.ext (by
      match a with
      | ⟨0, _⟩ => rfl
      | ⟨1, _⟩ => rfl)))

/-- The minimum over the tile's rows of column `j`: the fold of `min` from the accumulator's word. -/
theorem tilemin_at (v : FVec Ideal S256x4096 .f32) (j : Fin 4096) :
    multiReduction .minimumf [0] S4096 v 0x7F800000#32 reduces_S256x4096_S4096 (.inl rfl) rfl (ix1 j)
      = (Finset.univ : Finset (Fin 256)).fold min cPosInf (fun r => v (ix2 r j)) := by
  refine (multiReduction_minimumf_eq_fold v _ reduces_S256x4096_S4096 _ _ (ix1 j)).trans ?_
  refine (reduces_S256x4096_S4096.fold_filter_drop_single _ _ v (ix1 j)).trans ?_
  refine congrArg (fun f => (Finset.univ : Finset (Fin 256)).fold min cPosInf f) (funext fun r => ?_)
  exact congrArg v (funext fun a => Fin.ext (by
    match a with
    | ⟨0, _⟩ => rfl
    | ⟨1, _⟩ => rfl))

/-- A vector of row values as a column `[256, 1]`. -/
theorem col_of_vec_at (v : FVec Ideal S256 .f32) (r : Fin 256) (u : Fin 1) :
    shapeCast S256x1 v shapeCasts_S256_S256x1 (ix2 r u) = v (ix1 r) :=
  shapeCast_apply v shapeCasts_S256_S256x1 _ _ (by
    have hu : u.val = 0 := by omega
    rw [Shape.rowMajor_val_one, Shape.rowMajor_val_two]
    show r.val = r.val * 1 + u.val
    rw [hu, Nat.mul_one, Nat.add_zero])

/-- A column `[256, 1]` broadcast along the columns. -/
theorem bcast_col_at (w : FVec Ideal S256x1 .f32) (r : Fin 256) (j : Fin 4096) :
    broadcastTo S256x4096 w broadcasts_S256x1_S256x4096 (ix2 r j) = w (ix2 r (0 : Fin 1)) := by
  refine broadcastTo_apply w broadcasts_S256x1_S256x4096 (ix2 r j) (ix2 r (0 : Fin 1)) fun ax => ?_
  match ax with
  | ⟨0, _⟩ =>
    show r.val = if (256 : Nat) = 1 then 0 else r.val
    rw [if_neg (by decide)]
  | ⟨1, _⟩ => rfl

/-- A vector of column values as a row `[1, 4096]`. -/
theorem row_of_vec_at (v : FVec Ideal S4096 .f32) (u : Fin 1) (j : Fin 4096) :
    shapeCast S1x4096 v shapeCasts_S4096_S1x4096 (ix2 u j) = v (ix1 j) :=
  shapeCast_a_1a_apply v shapeCasts_S4096_S1x4096 u j

/-- A row `[1, 4096]` broadcast along the rows. -/
theorem bcast_row_at (w : FVec Ideal S1x4096 .f32) (r : Fin 256) (j : Fin 4096) :
    broadcastTo S256x4096 w broadcasts_S1x4096_S256x4096 (ix2 r j) = w (ix2 (0 : Fin 1) j) :=
  broadcastTo_1b_ab_apply w broadcasts_S1x4096_S256x4096 r j

/-- The output block `[1, 1, 4096]` read as a row. -/
theorem row_of_block_at (xo : Vec Ideal S1x1x4096 .f32) (u : Fin 1) (j : Fin 4096) :
    shapeCast S1x4096 xo shapeCasts_S1x1x4096_S1x4096 (ix2 u j) = xo (ix3 (0 : Fin 1) u j) :=
  shapeCast_1ab_ab_apply xo shapeCasts_S1x1x4096_S1x4096 u j

/-- A row stored as the output block. -/
theorem block_of_row_at (w : FVec Ideal S1x4096 .f32) (u u' : Fin 1) (j : Fin 4096) :
    shapeCast S1x1x4096 w shapeCasts_S1x4096_S1x1x4096 (ix3 u u' j) = w (ix2 u' j) :=
  shapeCast_ab_1ab_apply w shapeCasts_S1x4096_S1x1x4096 u u' j

theorem lhsIdx_row (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide),
    dif_pos (show (0 : Fin S256x128.rank) ∈ dot_S256x128_S128x4096_S256x4096_1_0_0_1_n_n.lhsNonContracting by decide)]
  rfl
theorem lhsIdx_chan (i : S256x4096.Idx) (q : dot_S256x128_S128x4096_S256x4096_1_0_0_1_n_n.contr.Idx) :
    (dot_S256x128_S128x4096_S256x4096_1_0_0_1_n_n.lhsIdx i q 1).val = (q ⟨0, by decide⟩).val :=
  dot_S256x128_S128x4096_S256x4096_1_0_0_1_n_n.lhsIdx_val_of_single rfl i q
theorem rhsIdx_chan (i : S256x4096.Idx) (q : dot_S256x128_S128x4096_S256x4096_1_0_0_1_n_n.contr.Idx) :
    (dot_S256x128_S128x4096_S256x4096_1_0_0_1_n_n.rhsIdx i q 0).val = (q ⟨0, by decide⟩).val :=
  dot_S256x128_S128x4096_S256x4096_1_0_0_1_n_n.rhsIdx_val_of_single rfl i q
theorem rhsIdx_col (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide),
    dif_pos (show (1 : Fin S128x4096.rank) ∈ dot_S256x128_S128x4096_S256x4096_1_0_0_1_n_n.rhsNonContracting by decide)]
  rfl

/-- The matrix product of the row tile with the column block into a zero accumulator: the sum over the channels. -/
theorem matmul_at (l : FVec Ideal S256x128 .bf16) (rr : FVec Ideal S128x4096 .bf16) (p : Fin 256) (j : Fin 4096) :
    matmul dot_S256x128_S128x4096_S256x4096_1_0_0_1_n_n none l rr (constant S256x4096 .f32 0x00000000#32) (ix2 p j)
      = ∑ k : Fin 128, l (ix2 p k) * rr (ix2 k j) := by
  simp only [matmul]
  rw [Ideal.matmul_constant_zero_apply, ← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 p j) ((contrEquiv1 dot_S256x128_S128x4096_S256x4096_1_0_0_1_n_n 128 rfl rfl).symm k) = ix2 p k :=
    funext fun a => Fin.ext (by
      match a with
      | ⟨0, _⟩ => exact lhsIdx_row _ _
      | ⟨1, _⟩ => exact (lhsIdx_chan _ _).trans hk)
  have er : dot_S256x128_S128x4096_S256x4096_1_0_0_1_n_n.rhsIdx (ix2 p j) ((contrEquiv1 dot_S256x128_S128x4096_S256x4096_1_0_0_1_n_n 128 rfl rfl).symm k) = ix2 k j :=
    funext fun a => Fin.ext (by
      match a with
      | ⟨0, _⟩ => exact (rhsIdx_chan _ _).trans hk
      | ⟨1, _⟩ => exact rhsIdx_col _ _)
  rw [el, er]

/-! ## The tile's distances -/

/-- The clamped squared distances of the tile's 256 row points to the 4096 column points, as the body computes them. -/
def tileDist (x0 : Vec Ideal S1x128x4096 .f32) (x1 : Vec Ideal S1x256x128 .f32) : FVec Ideal S256x4096 .f32 :=
  have v4 : FVec Ideal S128x4096 .f32 := shapeCast S128x4096 x0 shapeCasts_S1x128x4096_S128x4096
  have v6 : FVec Ideal S256x128 .f32 := shapeCast S256x128 x1 shapeCasts_S1x256x128_S256x128
  have v7 : FVec Ideal S128x4096 .f32 := mulf v4 v4
  have v8 : FVec Ideal S4096 .f32 := multiReduction .add [0] S4096 v7 0x00000000#32 reduces_S128x4096_S4096 (.inl rfl) rfl
  have v9 : FVec Ideal S1x4096 .f32 := shapeCast S1x4096 v8 shapeCasts_S4096_S1x4096
  have v10 : FVec Ideal S256x128 .f32 := mulf v6 v6
  have v11 : FVec Ideal S256 .f32 := multiReduction .add [1] S256 v10 0x00000000#32 reduces_S256x128_S256 (.inl rfl) rfl
  have v12 : FVec Ideal S256x1 .f32 := shapeCast S256x1 v11 shapeCasts_S256_S256x1
  have v13 : FVec Ideal S128x4096 .bf16 := truncf .bf16 v4 bitsLt_bf16_f32
  have v14 : FVec Ideal S256x128 .bf16 := truncf .bf16 v6 bitsLt_bf16_f32
  have cst_7 : FVec Ideal S256x4096 .f32 := constant S256x4096 .f32 0x00000000#32
  have v15 : FVec Ideal S256x4096 .f32 := matmul dot_S256x128_S128x4096_S256x4096_1_0_0_1_n_n none v14 v13 cst_7
  have cst_8 : Ideal .f32 := Scalar.ofBits .f32 0x40000000#32
  have v16 : FVec Ideal S256x4096 .f32 := broadcast S256x4096 cst_8
  have v17 : FVec Ideal S256x4096 .f32 := mulf v16 v15
  have v18 : FVec Ideal S256x4096 .f32 := broadcastTo S256x4096 v12 broadcasts_S256x1_S256x4096
  have v19 : FVec Ideal S256x4096 .f32 := subf v18 v17
  have v20 : FVec Ideal S256x4096 .f32 := broadcastTo S256x4096 v9 broadcasts_S1x4096_S256x4096
  have v21 : FVec Ideal S256x4096 .f32 := addf v19 v20
  have cst_9 : Ideal .f32 := Scalar.ofBits .f32 0x00000000#32
  have v22 : FVec Ideal S256x4096 .f32 := broadcast S256x4096 cst_9
  have v23 : FVec Ideal S256x4096 .f32 := maximumf v21 v22
  v23

/-- The tile's distance at row `r`, column `j`, in the blocks' entries. -/
theorem tileDist_at (x0 : Vec Ideal S1x128x4096 .f32) (x1 : Vec Ideal S1x256x128 .f32) (r : Fin 256) (j : Fin 4096) :
    tileDist x0 x1 (ix2 r j)
      = max (((∑ c : Fin 128, x1 (ix3 (0 : Fin 1) r c) * x1 (ix3 (0 : Fin 1) r c))
              - cTwo * ∑ c : Fin 128, x1 (ix3 (0 : Fin 1) r c) * x0 (ix3 (0 : Fin 1) c j))
            + ∑ c : Fin 128, x0 (ix3 (0 : Fin 1) c j) * x0 (ix3 (0 : Fin 1) c j)) cZero := by
  unfold tileDist
  simp only [maximumf_apply, addf_apply, subf_apply, mulf_apply, broadcast_apply]
  rw [bcast_col_at, col_of_vec_at, rowsum_at, matmul_at, bcast_row_at, row_of_vec_at, colsum_at]
  rw [rows_eq, cols_eq]
  rfl

/-! ## The stores of the two column passes -/

/-- The running-minimum store of the first pass is the old block against the tile's column minima. -/
theorem minStore_eq (x0 : Vec Ideal S1x128x4096 .f32) (x1 : Vec Ideal S1x256x128 .f32) (xo : Vec Ideal S1x1x4096 .f32) :
    k0_pay2 x0 x1 xo
      = shapeCast S1x1x4096 (minimumf (shapeCast S1x4096 xo shapeCasts_S1x1x4096_S1x4096)
          (shapeCast S1x4096 (multiReduction .minimumf [0] S4096 (tileDist x0 x1) 0x7F800000#32 reduces_S256x4096_S4096 (.inl rfl) rfl)
            shapeCasts_S4096_S1x4096)) shapeCasts_S1x4096_S1x1x4096 := rfl

theorem minStore_at (x0 : Vec Ideal S1x128x4096 .f32) (x1 : Vec Ideal S1x256x128 .f32) (xo : Vec Ideal S1x1x4096 .f32) (j : Fin 4096) :
    k0_pay2 x0 x1 xo (ix3 (0 : Fin 1) (0 : Fin 1) j)
      = min (xo (ix3 (0 : Fin 1) (0 : Fin 1) j)) ((Finset.univ : Finset (Fin 256)).fold min cPosInf (fun r => tileDist x0 x1 (ix2 r j))) := by
  rw [minStore_eq, block_of_row_at, minimumf_apply, row_of_block_at, row_of_vec_at, tilemin_at]

/-- The first pass's reset store: the word of `+∞` everywhere. -/
theorem minInit_at (i : S1x1x4096.Idx) : k0_pay1 (F := Ideal) i = cPosInf := rfl

/-- The tile's weights, given the block of column minima. -/
def tileWeight (x0 : Vec Ideal S1x128x4096 .f32) (x1 : Vec Ideal S1x256x128 .f32) (m : Vec Ideal S1x1x4096 .f32) : FVec Ideal S256x4096 .f32 :=
  have v23 : FVec Ideal S256x4096 .f32 := tileDist x0 x1
  have v25 : FVec Ideal S1x4096 .f32 := shapeCast S1x4096 m shapeCasts_S1x1x4096_S1x4096
  have cst_13 : Ideal .f32 := Scalar.ofBits .f32 0x3727C5AC#32
  have v26 : FVec Ideal S1x4096 .f32 := broadcast S1x4096 cst_13
  have v27 : FVec Ideal S1x4096 .f32 := addf v25 v26
  have v28 : FVec Ideal S256x4096 .f32 := broadcastTo S256x4096 v27 broadcasts_S1x4096_S256x4096
  have v29 : FVec Ideal S256x4096 .f32 := divf v23 v28
  have cst_14 : Ideal .f32 := Scalar.ofBits .f32 0x3F800000#32
  have v30 : FVec Ideal S256x4096 .f32 := broadcast S256x4096 cst_14
  have v31 : FVec Ideal S256x4096 .f32 := subf v30 v29
  have cst_15 : Ideal .f32 := Scalar.ofBits .f32 0x3F000000#32
  have v32 : FVec Ideal S256x4096 .f32 := broadcast S256x4096 cst_15
  have v33 : FVec Ideal S256x4096 .f32 := divf v31 v32
  have v34 : FVec Ideal S256x4096 .f32 := exp v33
  v34

theorem tileWeight_at (x0 : Vec Ideal S1x128x4096 .f32) (x1 : Vec Ideal S1x256x128 .f32) (m : Vec Ideal S1x1x4096 .f32)
    (r : Fin 256) (j : Fin 4096) :
    tileWeight x0 x1 m (ix2 r j)
      = Ideal.exp (Ideal.div (cOne - Ideal.div (tileDist x0 x1 (ix2 r j)) (m (ix3 (0 : Fin 1) (0 : Fin 1) j) + cEps)) cHalf) := by
  unfold tileWeight
  show Ideal.exp (Ideal.div (cOne - Ideal.div (tileDist x0 x1 (ix2 r j))
    (broadcastTo S256x4096 (addf (F := Ideal) (shapeCast S1x4096 m shapeCasts_S1x1x4096_S1x4096) (broadcast S1x4096 (Scalar.ofBits (F := Ideal) .f32 0x3727C5AC#32)))
      broadcasts_S1x4096_S256x4096 (ix2 r j))) cHalf) = _
  rw [bcast_row_at, addf_apply, row_of_block_at]
  rfl

/-- The tile's column sums of the weights (the second pass's first part). -/
theorem sumPart_eq (x0 : Vec Ideal S1x128x4096 .f32) (x1 : Vec Ideal S1x256x128 .f32) (m : Vec Ideal S1x1x4096 .f32) :
    k1_pay3 x0 x1 m
      = shapeCast S1x4096 (multiReduction .add [0] S4096 (tileWeight x0 x1 m) 0x00000000#32 reduces_S256x4096_S4096 (.inl rfl) rfl)
          shapeCasts_S4096_S1x4096 := rfl

theorem sumPart_at (x0 : Vec Ideal S1x128x4096 .f32) (x1 : Vec Ideal S1x256x128 .f32) (m : Vec Ideal S1x1x4096 .f32) (j : Fin 4096) :
    k1_pay3 x0 x1 m (ix2 (0 : Fin 1) j) = ∑ r : Fin 256, tileWeight x0 x1 m (ix2 r j) := by
  rw [sumPart_eq, row_of_vec_at, tilesum_at]

/-- The running-total store of the second pass: the old block plus the tile's column sums. -/
theorem sumStore_at (v36 : FVec Ideal S1x4096 .f32) (v37 : Vec Ideal S1x1x4096 .f32) (j : Fin 4096) :
    k1_pay1 v36 v37 (ix3 (0 : Fin 1) (0 : Fin 1) j) = v37 (ix3 (0 : Fin 1) (0 : Fin 1) j) + v36 (ix2 (0 : Fin 1) j) := by
  unfold k1_pay1
  rw [block_of_row_at, addf_apply, row_of_block_at]

/-- The second pass's reset store: the word of zero everywhere. -/
theorem sumInit_at (i : S1x1x4096.Idx) : k1_pay2 (F := Ideal) i = cZero := rfl

end Cert.KernelIdeal.TileA

end
-- ==== Proof.PassMin0.lean ====
/-
  The first pass of a direction (pallas_call 0): the column minima of the clamped distances.
  The grid is (batch, row tile): 2 × 16 points, point `t` is batch `t / 16`, row tile `t % 16`; the output block
  `(batch, 0, all columns)` stays in place across a batch's 16 row tiles, is reset to `+∞` at the first and written
  back after the last. After the point with row tile `k` the block holds, at column `j`, the minimum of `+∞` and of the
  distances `dist b i j` over the rows `i < 256·(k+1)` (by induction on the point: the first tile from the reset word,
  a later tile from what the point before left). So each batch's last point writes back the column minima, and the
  two write-backs cover the array.
-/
import proofs.«129256_j54339926229668_1_alg».proof.Proof.Gen.KernelIdeal.Frame
import proofs.«129256_j54339926229668_1_alg».proof.Proof.TileA
import Idealize.ShloMosaic.Lib.Pipeline.Value
import Idealize.ShloMosaic.Lib.Tactic

set_option maxRecDepth 16384

noncomputable section

namespace Cert.KernelIdeal.PassMin0

open Cert.KernelIdeal Cert.KernelIdeal.Gen Idealize.ShloMosaic Idealize.ShloMosaic.TcCoe Idealize.ShloMosaic.ValueIdx
open Idealize.SL.Sem ContextualSim Cert.KernelIdeal.TileA
open Idealize.ShloMosaic.Pipeline (Dat)

theorem hz3 : (![0, 0, 0] : Fin 3 → Nat) = fun _ => 0 := funext fun a => by fin_cases a <;> rfl

/-! ## What each case of the body leaves in the output block -/

section AnyValues
variable {F : FTy → Type} [FloatOps F]

/-- A later row tile: the one store's payload over the old block. -/
theorem left_later (c : Dev nD) (i : grid0.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (hc : ¬cond0_0 i) (x0 : Vec F S1x128x4096 .f32) (x1 : Vec F S1x256x128 .f32) (xo : Vec F S1x1x4096 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S1x128x4096) hz3,
    View.ld_unit_zero (S := S1x256x128) hz3, View.ld_unit_zero (S := S1x1x4096) hz3]

/-- The first row tile: the reset store, read back, under the same payload. -/
theorem left_first (c : Dev nD) (i : grid0.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (hc : cond0_0 i) (x0 : Vec F S1x128x4096 .f32) (x1 : Vec F S1x256x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x4096) hz3, View.readCov_unit_zero (S := S1x1x4096) _ hz3]
  simp only [View.readAt_eq_ld, h2.read_unread, h3.read_unread, View.ld_unit_zero (S := S1x128x4096) hz3,
    View.ld_unit_zero (S := S1x256x128) hz3]

end AnyValues

/-! ## The windows' blocks, at coordinates -/

variable (V : (c : Dev nD) → (b : Ref sig .tc) → Buf (Elt Ideal) ((c : Thread nD τ).loc b))

/-- The column cloud and the row cloud the region reads, point by point. -/
def colCloud (c : Dev nD) : Cloud := fun b j ch => (V c main_v0 : S2x128x4096.Idx → EReal) (ix3 b ch j)
def rowCloud (c : Dev nD) : Cloud := fun b i ch => (V c main_v3 : S2x4096x128.Idx → EReal) (ix3 b i ch)

/-- The printed index maps, decided over the grid: batch `t / 16` on the leading axis of every window, row tile
    `t % 16` on the row window's second axis, zero elsewhere. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The column block at a point is the batch's whole column cloud. -/
theorem colBlock_at (c : Dev nD) (t : Fin cfg0.N) (b : Fin 2) (hb : b.val = t.val / 16) (ch : Fin 128) (j : Fin 4096) :
    (iblk0 V c 0 t : S1x128x4096.Idx → EReal) (ix3 (0 : Fin 1) ch j) = colCloud V c b j ch := by
  obtain ⟨e0, e1, e2, -⟩ := idx_facts t
  unfold iblk0 colCloud
  rw [View.read_apply]
  show V c main_v0 (((cfg0.win 0).blk t).view.emb (ix3 (0 : Fin 1) ch j)) = V c main_v0 (ix3 b ch j)
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 128 + 1 * ch.val = ch.val; omega
  | ⟨2, _⟩ => show win0_0.index t (2 : Fin 3) * 4096 + 1 * j.val = j.val; omega

/-- The row block at a point is the batch's rows `256·(t % 16) + r`. -/
theorem rowBlock_at (c : Dev nD) (t : Fin cfg0.N) (b : Fin 2) (hb : b.val = t.val / 16) (r : Fin 256) (i : Fin 4096)
    (hi : i.val = 256 * (t.val % 16) + r.val) (ch : Fin 128) :
    (iblk0 V c 1 t : S1x256x128.Idx → EReal) (ix3 (0 : Fin 1) r ch) = rowCloud V c b i ch := by
  obtain ⟨-, -, -, e0, e1, e2, -⟩ := idx_facts t
  unfold iblk0 rowCloud
  rw [View.read_apply]
  show V c main_v3 (((cfg0.win 1).blk t).view.emb (ix3 (0 : Fin 1) r ch)) = V c main_v3 (ix3 b i ch)
  refine congrArg (V c main_v3) (funext fun a => Fin.ext ?_)
  match a with
  | ⟨0, _⟩ => show win0_1.index t (0 : Fin 3) * 1 + 1 * 0 = b.val; omega
  | ⟨1, _⟩ => show win0_1.index t (1 : Fin 3) * 256 + 1 * r.val = i.val; omega
  | ⟨2, _⟩ => show win0_1.index t (2 : Fin 3) * 128 + 1 * ch.val = ch.val; omega

/-- The tile's distances are the clouds' distances at the tile's rows. -/
theorem tile_is_dist (c : Dev nD) (t : Fin cfg0.N) (b : Fin 2) (hb : b.val = t.val / 16) (r : Fin 256) (i : Fin 4096)
    (hi : i.val = 256 * (t.val % 16) + r.val) (j : Fin 4096) :
    tileDist (iblk0 V c 0 t) (iblk0 V c 1 t) (ix2 r j) = dist (colCloud V c) (rowCloud V c) b i j := by
  rw [tileDist_at]
  have e0 : ∀ ch : Fin 128, (iblk0 V c 0 t : S1x128x4096.Idx → EReal) (ix3 (0 : Fin 1) ch j) = colCloud V c b j ch :=
    fun ch => colBlock_at V c t b hb ch j
  have e1 : ∀ ch : Fin 128, (iblk0 V c 1 t : S1x256x128.Idx → EReal) (ix3 (0 : Fin 1) r ch) = rowCloud V c b i ch :=
    fun ch => rowBlock_at V c t b hb r i hi ch
  simp only [e0, e1]
  rfl

/-! ## The running minimum, point by point -/

/-- The store's payload at a column, and the reset word (the tile-level lemmas, at this region's payload names). -/
theorem store_at (x0 : Vec Ideal S1x128x4096 .f32) (x1 : Vec Ideal S1x256x128 .f32) (xo : Vec Ideal S1x1x4096 .f32) (j : Fin 4096) :
    (k0_pay2 x0 x1 xo : S1x1x4096.Idx → EReal) (ix3 (0 : Fin 1) (0 : Fin 1) j)
      = min (xo (ix3 (0 : Fin 1) (0 : Fin 1) j)) ((Finset.univ : Finset (Fin 256)).fold min cPosInf (fun r => tileDist x0 x1 (ix2 r j))) :=
  minStore_at x0 x1 xo j
theorem init_at (i : S1x1x4096.Idx) : (k0_pay1 (F := Ideal) : S1x1x4096.Idx → EReal) i = cPosInf := rfl

/-- The first row tile of a batch leaves the minimum over the rows below 256. -/
theorem first_tile (c : Dev nD) (t : Fin cfg0.N) (h0 : t.val % 16 = 0) (b : Fin 2) (hb : b.val = t.val / 16) (j : Fin 4096) :
    IsMinBelow cPosInf (fun i : Fin 4096 => dist (colCloud V c) (rowCloud V c) b i j) 256
      ((outsAt0 V c t.val t.isLt : S1x1x4096.Idx → EReal) (ix3 (0 : Fin 1) (0 : Fin 1) j)) := by
  rw [outsAt0_A V c t h0, left_first, store_at, init_at]
  exact IsMinBelow.first cPosInf _ _ (fun r => ⟨r.val, by have := r.isLt; omega⟩) (fun _ => rfl) (by decide)
    (fun r => tile_is_dist V c t b hb r _ (by show r.val = 256 * (t.val % 16) + r.val; omega) j)

/-- A later row tile extends the running minimum by its 256 rows. -/
theorem later_tile (c : Dev nD) (t : Fin cfg0.N) (h0 : ¬t.val % 16 = 0) (b : Fin 2) (hb : b.val = t.val / 16) (j : Fin 4096)
    (ih : IsMinBelow cPosInf (fun i : Fin 4096 => dist (colCloud V c) (rowCloud V c) b i j) (256 * (t.val % 16))
      ((outsAt0 V c (t.val - 1) (Nat.lt_of_le_of_lt (Nat.sub_le _ _) t.isLt) : S1x1x4096.Idx → EReal) (ix3 (0 : Fin 1) (0 : Fin 1) j))) :
    IsMinBelow cPosInf (fun i : Fin 4096 => dist (colCloud V c) (rowCloud V c) b i j) (256 * (t.val % 16) + 256)
      ((outsAt0 V c t.val t.isLt : S1x1x4096.Idx → EReal) (ix3 (0 : Fin 1) (0 : Fin 1) j)) := by
  rw [outsAt0_B V c t h0, left_later, store_at]
  have hlt : t.val % 16 < 16 := Nat.mod_lt _ (by decide)
  exact ih.step _ (fun r => ⟨256 * (t.val % 16) + r.val, by have := r.isLt; omega⟩) (fun _ => rfl)
    (fun r => tile_is_dist V c t b hb r _ rfl j)

/-- After the point `n` the output block holds the minimum over the rows below `256·(n % 16 + 1)`. -/
theorem running_min (c : Dev nD) : ∀ (n : ℕ) (hn : n < cfg0.N) (b : Fin 2), b.val = n / 16 → ∀ j : Fin 4096,
    IsMinBelow cPosInf (fun i : Fin 4096 => dist (colCloud V c) (rowCloud V c) b i j) (256 * (n % 16 + 1))
      ((outsAt0 V c n hn : S1x1x4096.Idx → EReal) (ix3 (0 : Fin 1) (0 : Fin 1) j))
  | 0, hn, b, hb, j => first_tile V c ⟨0, hn⟩ rfl b hb j
  | n + 1, hn, b, hb, j => by
    by_cases h0 : (n + 1) % 16 = 0
    · have := first_tile V c ⟨n + 1, hn⟩ h0 b hb j
      rw [h0]; exact this
    · have ih := running_min c n (Nat.lt_of_succ_lt hn) b (by omega) j
      have e : 256 * (n % 16 + 1) = 256 * ((n + 1) % 16) := by omega
      rw [e] at ih
      have := later_tile V c ⟨n + 1, hn⟩ h0 b hb j ih
      have e' : 256 * ((n + 1) % 16) + 256 = 256 * ((n + 1) % 16 + 1) := by omega
      rw [← e']; exact this

/-! ## The array after the region -/

/-- The column minima as the region's output array `[2, 1, 4096]`. -/
def minArray (s t : Cloud) : S2x1x4096.Idx → EReal := fun i => mind s t (i 0) (i 2)

/-- What a batch's last point writes back is that batch's block of the column minima. -/
theorem flushed_eq (c : Dev nD) (t : Fin cfg0.N) (hf : (cfg0.win 2).flush t = true) :
    (dat0 V c).flushed 2 t = ((cfg0.win 2).blk t).view.read (Elt Ideal) (minArray (colCloud V c) (rowCloud V c)) := by
  have h15 : t.val % 16 = 15 := (flush0_2 t).mp hf
  have hN : t.val < 32 := lt_of_lt_of_eq t.isLt (show cfg0.N = 32 from N_0)
  obtain ⟨-, -, -, -, -, -, e0, e1, e2⟩ := idx_facts t
  show (cfg0.win 2).cut (grid0.coords t) ((dat0 V c).after 2 t) = _
  rw [after0_2]
  refine funext fun (y : S1x1x4096.Idx) => ?_
  have hy : y = ix3 (0 : Fin 1) (0 : Fin 1) (y 2) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)
  obtain ⟨j, rfl⟩ : ∃ j : Fin 4096, y = ix3 (0 : Fin 1) (0 : Fin 1) j := ⟨y 2, hy⟩
  have inv := running_min V c t.val t.isLt ⟨t.val / 16, by omega⟩ rfl j
  rw [show 256 * (t.val % 16 + 1) = 4096 by omega] at inv
  rw [View.read_apply]
  show (outsAt0 V c t.val t.isLt : S1x1x4096.Idx → EReal) (ix3 (0 : Fin 1) (0 : Fin 1) j)
    = mind (colCloud V c) (rowCloud V c) ((((cfg0.win 2).blk t).view.emb (ix3 (0 : Fin 1) (0 : Fin 1) j)) 0)
        ((((cfg0.win 2).blk t).view.emb (ix3 (0 : Fin 1) (0 : Fin 1) j)) 2)
  have eb : (((cfg0.win 2).blk t).view.emb (ix3 (0 : Fin 1) (0 : Fin 1) j)) 0 = (⟨t.val / 16, by omega⟩ : Fin 2) :=
    Fin.ext (by show win0_2.index t (0 : Fin 3) * 1 + 1 * 0 = t.val / 16; omega)
  have ej : (((cfg0.win 2).blk t).view.emb (ix3 (0 : Fin 1) (0 : Fin 1) j)) 2 = j :=
    Fin.ext (by show win0_2.index t (2 : Fin 3) * 4096 + 1 * j.val = j.val; omega)
  rw [eb, ej]
  exact inv.eq_fold

/-- An index of the output array is in a point's block iff each coordinate is in the block's range. -/
theorem mem_blk (t : Fin cfg0.N) (i : S2x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v4).slice (win0_2.rect t)).set ↔ _
  rw [View.set_slice_whole, Rect.mem_set_unit]
  exact Iff.rfl

/-- Every index of the output array is under the write-back of its batch's last point. -/
theorem covered (i : S2x1x4096.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 4096 := (i 2).isLt
  refine ⟨⟨16 * (i 0).val + 15, by rw [show cfg0.N = 32 from N_0]; omega⟩, (flush0_2 _).mpr (by show (16 * (i 0).val + 15) % 16 = 15; omega), ?_⟩
  obtain ⟨-, -, -, -, -, -, e0, e1, e2⟩ := idx_facts ⟨16 * (i 0).val + 15, by rw [show cfg0.N = 32 from N_0]; omega⟩
  rw [mem_blk]
  intro a
  match a with
  | ⟨0, _⟩ => show win0_2.index _ (0 : Fin 3) * 1 ≤ (i 0).val ∧ (i 0).val < win0_2.index _ (0 : Fin 3) * 1 + 1; dsimp only at e0; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 4096 ≤ (i 2).val ∧ (i 2).val < win0_2.index _ (2 : Fin 3) * 4096 + 4096; omega

/-- THE ARRAY AFTER THE REGION: the column minima of the clouds the region was entered with. -/
theorem final (c : Dev nD) : (dat0 V c).arrAt 2 cfg0.N = minArray (colCloud V c) (rowCloud V c) :=
  (dat0 V c).arrAt_eq_of_cover 2 (minArray (colCloud V c) (rowCloud V c)) (fun t hf => flushed_eq V c t hf) covered

end Cert.KernelIdeal.PassMin0

end
-- ==== Proof.PassSum1.lean ====
/-
  The second pass of a direction (pallas_call 1): the column totals of the weights.
  The grid is (batch, row tile) as in the first pass; the column minima come in as a third input block; the output
  block `(batch, 0, all columns)` is reset to zero at a batch's first row tile and written back after its last. After
  the point with row tile `k` the block holds, at column `j`, zero plus the sum of the weights `weight b i j` over the
  rows `i < 256·(k+1)` (by induction on the point), so each batch's last point writes back the column totals.
-/
import proofs.«129256_j54339926229668_1_alg».proof.Proof.Gen.KernelIdeal.Frame
import proofs.«129256_j54339926229668_1_alg».proof.Proof.TileA
import Idealize.ShloMosaic.Lib.Pipeline.Value
import Idealize.ShloMosaic.Lib.Tactic

set_option maxRecDepth 16384

noncomputable section

namespace Cert.KernelIdeal.PassSum1

open Cert.KernelIdeal Cert.KernelIdeal.Gen Idealize.ShloMosaic Idealize.ShloMosaic.TcCoe Idealize.ShloMosaic.ValueIdx
open Idealize.SL.Sem ContextualSim Cert.KernelIdeal.TileA
open Idealize.ShloMosaic.Pipeline (Dat)

theorem hz3 : (![0, 0, 0] : Fin 3 → Nat) = fun _ => 0 := funext fun a => by fin_cases a <;> rfl

/-! ## What each case of the body leaves in the output block -/

section AnyValues
variable {F : FTy → Type} [FloatOps F]

/-- A later row tile: the one store's payload over the old block. -/
theorem left_later (c : Dev nD) (i : grid1.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (a5 : Memref sig .tc .vmem S1x1x4096 .f32) (h5 : a5.IsWhole)
    (hc : ¬cond1_0 i) (x0 : Vec F S1x128x4096 .f32) (x1 : Vec F S1x256x128 .f32) (x2 : Vec F S1x1x4096 .f32) (xo : Vec F S1x1x4096 .f32) :
    out1_B_3 c i a2 h2 a3 h3 a4 h4 a5 h5 hc x0 x1 x2 xo = k1_pay1 (k1_pay3 x0 x1 x2) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread, View.ld_unit_zero (S := S1x128x4096) hz3,
    View.ld_unit_zero (S := S1x256x128) hz3, View.ld_unit_zero (S := S1x1x4096) hz3]

/-- The first row tile: the reset store, read back, under the same payload. -/
theorem left_first (c : Dev nD) (i : grid1.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (a5 : Memref sig .tc .vmem S1x1x4096 .f32) (h5 : a5.IsWhole)
    (hc : cond1_0 i) (x0 : Vec F S1x128x4096 .f32) (x1 : Vec F S1x256x128 .f32) (x2 : Vec F S1x1x4096 .f32) :
    out1_A_3 c i a2 h2 a3 h3 a4 h4 a5 h5 hc x0 x1 x2 = k1_pay1 (k1_pay3 x0 x1 x2) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x4096) hz3, View.readCov_unit_zero (S := S1x1x4096) _ hz3]
  simp only [View.readAt_eq_ld, h2.read_unread, h3.read_unread, h4.read_unread, View.ld_unit_zero (S := S1x128x4096) hz3,
    View.ld_unit_zero (S := S1x256x128) hz3, View.ld_unit_zero (S := S1x1x4096) hz3]

end AnyValues

/-! ## The windows' blocks, at coordinates -/

variable (V : (c : Dev nD) → (b : Ref sig .tc) → Buf (Elt Ideal) ((c : Thread nD τ).loc b))

/-- The column cloud, the row cloud and the column minima the region reads. -/
def colCloud (c : Dev nD) : Cloud := fun b j ch => (V c main_v0 : S2x128x4096.Idx → EReal) (ix3 b ch j)
def rowCloud (c : Dev nD) : Cloud := fun b i ch => (V c main_v3 : S2x4096x128.Idx → EReal) (ix3 b i ch)
def minIn (c : Dev nD) : Fin 2 → Fin 4096 → EReal := fun b j => (V c main_v4 : S2x1x4096.Idx → EReal) (ix3 b (0 : Fin 1) j)

/-- The printed index maps, decided over the grid. -/
theorem idx_facts : ∀ t : Fin cfg1.N,
    win1_0.index t (0 : Fin 3) = t.val / 16 ∧ win1_0.index t (1 : Fin 3) = 0 ∧ win1_0.index t (2 : Fin 3) = 0
    ∧ win1_1.index t (0 : Fin 3) = t.val / 16 ∧ win1_1.index t (1 : Fin 3) = t.val % 16 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0 :=
  (by decide +kernel : ∀ t : Fin grid1.N, _)

theorem colBlock_at (c : Dev nD) (t : Fin cfg1.N) (b : Fin 2) (hb : b.val = t.val / 16) (ch : Fin 128) (j : Fin 4096) :
    (iblk1 V c 0 t : S1x128x4096.Idx → EReal) (ix3 (0 : Fin 1) ch j) = colCloud V c b j ch := by
  obtain ⟨e0, e1, e2, -⟩ := idx_facts t
  unfold iblk1 colCloud
  rw [View.read_apply]
  show V c main_v0 (((cfg1.win 0).blk t).view.emb (ix3 (0 : Fin 1) ch j)) = V c main_v0 (ix3 b ch j)
  refine congrArg (V c main_v0) (funext fun a => Fin.ext ?_)
  match a with
  | ⟨0, _⟩ => show win1_0.index t (0 : Fin 3) * 1 + 1 * 0 = b.val; omega
  | ⟨1, _⟩ => show win1_0.index t (1 : Fin 3) * 128 + 1 * ch.val = ch.val; omega
  | ⟨2, _⟩ => show win1_0.index t (2 : Fin 3) * 4096 + 1 * j.val = j.val; omega

theorem rowBlock_at (c : Dev nD) (t : Fin cfg1.N) (b : Fin 2) (hb : b.val = t.val / 16) (r : Fin 256) (i : Fin 4096)
    (hi : i.val = 256 * (t.val % 16) + r.val) (ch : Fin 128) :
    (iblk1 V c 1 t : S1x256x128.Idx → EReal) (ix3 (0 : Fin 1) r ch) = rowCloud V c b i ch := by
  obtain ⟨-, -, -, e0, e1, e2, -⟩ := idx_facts t
  unfold iblk1 rowCloud
  rw [View.read_apply]
  show V c main_v3 (((cfg1.win 1).blk t).view.emb (ix3 (0 : Fin 1) r ch)) = V c main_v3 (ix3 b i ch)
  refine congrArg (V c main_v3) (funext fun a => Fin.ext ?_)
  match a with
  | ⟨0, _⟩ => show win1_1.index t (0 : Fin 3) * 1 + 1 * 0 = b.val; omega
  | ⟨1, _⟩ => show win1_1.index t (1 : Fin 3) * 256 + 1 * r.val = i.val; omega
  | ⟨2, _⟩ => show win1_1.index t (2 : Fin 3) * 128 + 1 * ch.val = ch.val; omega

theorem minBlock_at (c : Dev nD) (t : Fin cfg1.N) (b : Fin 2) (hb : b.val = t.val / 16) (j : Fin 4096) :
    (iblk1 V c 2 t : S1x1x4096.Idx → EReal) (ix3 (0 : Fin 1) (0 : Fin 1) j) = minIn V c b j := by
  obtain ⟨-, -, -, -, -, -, e0, e1, e2, -⟩ := idx_facts t
  unfold iblk1 minIn
  rw [View.read_apply]
  show V c main_v4 (((cfg1.win 2).blk t).view.emb (ix3 (0 : Fin 1) (0 : Fin 1) j)) = V c main_v4 (ix3 b (0 : Fin 1) j)
  refine congrArg (V c main_v4) (funext fun a => Fin.ext ?_)
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 4096 + 1 * j.val = j.val; omega

theorem tile_is_dist (c : Dev nD) (t : Fin cfg1.N) (b : Fin 2) (hb : b.val = t.val / 16) (r : Fin 256) (i : Fin 4096)
    (hi : i.val = 256 * (t.val % 16) + r.val) (j : Fin 4096) :
    tileDist (iblk1 V c 0 t) (iblk1 V c 1 t) (ix2 r j) = dist (colCloud V c) (rowCloud V c) b i j := by
  rw [tileDist_at]
  have e0 : ∀ ch : Fin 128, (iblk1 V c 0 t : S1x128x4096.Idx → EReal) (ix3 (0 : Fin 1) ch j) = colCloud V c b j ch :=
    fun ch => colBlock_at V c t b hb ch j
  have e1 : ∀ ch : Fin 128, (iblk1 V c 1 t : S1x256x128.Idx → EReal) (ix3 (0 : Fin 1) r ch) = rowCloud V c b i ch :=
    fun ch => rowBlock_at V c t b hb r i hi ch
  simp only [e0, e1]
  rfl

/-- The tile's weights are the clouds' weights at the tile's rows. -/
theorem tile_is_weight (c : Dev nD) (t : Fin cfg1.N) (b : Fin 2) (hb : b.val = t.val / 16) (r : Fin 256) (i : Fin 4096)
    (hi : i.val = 256 * (t.val % 16) + r.val) (j : Fin 4096) :
    tileWeight (iblk1 V c 0 t) (iblk1 V c 1 t) (iblk1 V c 2 t) (ix2 r j)
      = weight (colCloud V c) (rowCloud V c) (minIn V c) b i j := by
  rw [tileWeight_at, tile_is_dist V c t b hb r i hi j, minBlock_at V c t b hb j]
  rfl

/-! ## The running total, point by point -/

/-- The store's payload at a column, its first part, and the reset word (the tile-level lemmas, at this region's
    payload names). -/
theorem store_at (v36 : FVec Ideal S1x4096 .f32) (v37 : Vec Ideal S1x1x4096 .f32) (j : Fin 4096) :
    (k1_pay1 v36 v37 : S1x1x4096.Idx → EReal) (ix3 (0 : Fin 1) (0 : Fin 1) j) = v37 (ix3 (0 : Fin 1) (0 : Fin 1) j) + v36 (ix2 (0 : Fin 1) j) :=
  sumStore_at v36 v37 j
theorem part_at (x0 : Vec Ideal S1x128x4096 .f32) (x1 : Vec Ideal S1x256x128 .f32) (mm : Vec Ideal S1x1x4096 .f32) (j : Fin 4096) :
    (k1_pay3 x0 x1 mm : S1x4096.Idx → EReal) (ix2 (0 : Fin 1) j) = ∑ r : Fin 256, tileWeight x0 x1 mm (ix2 r j) :=
  sumPart_at x0 x1 mm j
theorem init_at (i : S1x1x4096.Idx) : (k1_pay2 (F := Ideal) : S1x1x4096.Idx → EReal) i = cZero := rfl

/-- The weights of column `j`, by row. -/
abbrev colWeights (c : Dev nD) (b : Fin 2) (j : Fin 4096) : Fin 4096 → EReal :=
  fun i => weight (colCloud V c) (rowCloud V c) (minIn V c) b i j

theorem first_tile (c : Dev nD) (t : Fin cfg1.N) (h0 : t.val % 16 = 0) (b : Fin 2) (hb : b.val = t.val / 16) (j : Fin 4096) :
    (outsAt1 V c t.val t.isLt : S1x1x4096.Idx → EReal) (ix3 (0 : Fin 1) (0 : Fin 1) j)
      = cZero + ∑ i ∈ Finset.range 256, ext0 (colWeights V c b j) i := by
  rw [outsAt1_A V c t h0, left_first, store_at, part_at, init_at]
  have h := total_step cZero (colWeights V c b j) 0 (fun r : Fin 256 => tileWeight (iblk1 V c 0 t) (iblk1 V c 1 t) (iblk1 V c 2 t) (ix2 r j))
    (fun r => ⟨r.val, by have := r.isLt; omega⟩) (fun r => (Nat.zero_add _).symm)
    (fun r => tile_is_weight V c t b hb r _ (by show r.val = 256 * (t.val % 16) + r.val; omega) j)
  rw [Finset.sum_range_zero, add_zero, Nat.zero_add] at h
  exact h

theorem later_tile (c : Dev nD) (t : Fin cfg1.N) (h0 : ¬t.val % 16 = 0) (b : Fin 2) (hb : b.val = t.val / 16) (j : Fin 4096)
    (ih : (outsAt1 V c (t.val - 1) (Nat.lt_of_le_of_lt (Nat.sub_le _ _) t.isLt) : S1x1x4096.Idx → EReal) (ix3 (0 : Fin 1) (0 : Fin 1) j)
      = cZero + ∑ i ∈ Finset.range (256 * (t.val % 16)), ext0 (colWeights V c b j) i) :
    (outsAt1 V c t.val t.isLt : S1x1x4096.Idx → EReal) (ix3 (0 : Fin 1) (0 : Fin 1) j)
      = cZero + ∑ i ∈ Finset.range (256 * (t.val % 16) + 256), ext0 (colWeights V c b j) i := by
  rw [outsAt1_B V c t h0, left_later, store_at, part_at, ih]
  have hlt : t.val % 16 < 16 := Nat.mod_lt _ (by decide)
  exact total_step cZero (colWeights V c b j) (256 * (t.val % 16)) _
    (fun r => ⟨256 * (t.val % 16) + r.val, by have := r.isLt; omega⟩) (fun _ => rfl)
    (fun r => tile_is_weight V c t b hb r _ rfl j)

theorem running_total (c : Dev nD) : ∀ (n : ℕ) (hn : n < cfg1.N) (b : Fin 2), b.val = n / 16 → ∀ j : Fin 4096,
    (outsAt1 V c n hn : S1x1x4096.Idx → EReal) (ix3 (0 : Fin 1) (0 : Fin 1) j)
      = cZero + ∑ i ∈ Finset.range (256 * (n % 16 + 1)), ext0 (colWeights V c b j) i
  | 0, hn, b, hb, j => first_tile V c ⟨0, hn⟩ rfl b hb j
  | n + 1, hn, b, hb, j => by
    by_cases h0 : (n + 1) % 16 = 0
    · have := first_tile V c ⟨n + 1, hn⟩ h0 b hb j
      rw [h0]; exact this
    · have ih := running_total c n (Nat.lt_of_succ_lt hn) b (by omega) j
      have e : 256 * (n % 16 + 1) = 256 * ((n + 1) % 16) := by omega
      rw [e] at ih
      have := later_tile V c ⟨n + 1, hn⟩ h0 b hb j ih
      have e' : 256 * ((n + 1) % 16) + 256 = 256 * ((n + 1) % 16 + 1) := by omega
      rw [← e']; exact this

/-! ## The array after the region -/

/-- The column totals as the region's output array `[2, 1, 4096]`. -/
def totArray (s t : Cloud) (M : Fin 2 → Fin 4096 → EReal) : S2x1x4096.Idx → EReal := fun i => total s t M (i 0) (i 2)

theorem flushed_eq (c : Dev nD) (t : Fin cfg1.N) (hf : (cfg1.win 3).flush t = true) :
    (dat1 V c).flushed 3 t = ((cfg1.win 3).blk t).view.read (Elt Ideal) (totArray (colCloud V c) (rowCloud V c) (minIn V c)) := by
  have h15 : t.val % 16 = 15 := (flush1_3 t).mp hf
  have hN : t.val < 32 := lt_of_lt_of_eq t.isLt (show cfg1.N = 32 from N_1)
  obtain ⟨-, -, -, -, -, -, -, -, -, e0, e1, e2⟩ := idx_facts t
  show (cfg1.win 3).cut (grid1.coords t) ((dat1 V c).after 3 t) = _
  rw [after1_3]
  refine funext fun (y : S1x1x4096.Idx) => ?_
  have hy : y = ix3 (0 : Fin 1) (0 : Fin 1) (y 2) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)
  obtain ⟨j, rfl⟩ : ∃ j : Fin 4096, y = ix3 (0 : Fin 1) (0 : Fin 1) j := ⟨y 2, hy⟩
  have inv := running_total V c t.val t.isLt ⟨t.val / 16, by omega⟩ rfl j
  rw [show 256 * (t.val % 16 + 1) = 4096 by omega, ← sum_eq_sum_range_ext0] at inv
  rw [View.read_apply]
  show (outsAt1 V c t.val t.isLt : S1x1x4096.Idx → EReal) (ix3 (0 : Fin 1) (0 : Fin 1) j)
    = total (colCloud V c) (rowCloud V c) (minIn V c) ((((cfg1.win 3).blk t).view.emb (ix3 (0 : Fin 1) (0 : Fin 1) j)) 0)
        ((((cfg1.win 3).blk t).view.emb (ix3 (0 : Fin 1) (0 : Fin 1) j)) 2)
  have eb : (((cfg1.win 3).blk t).view.emb (ix3 (0 : Fin 1) (0 : Fin 1) j)) 0 = (⟨t.val / 16, by omega⟩ : Fin 2) :=
    Fin.ext (by show win1_3.index t (0 : Fin 3) * 1 + 1 * 0 = t.val / 16; omega)
  have ej : (((cfg1.win 3).blk t).view.emb (ix3 (0 : Fin 1) (0 : Fin 1) j)) 2 = j :=
    Fin.ext (by show win1_3.index t (2 : Fin 3) * 4096 + 1 * j.val = j.val; omega)
  rw [eb, ej]
  exact inv

theorem mem_blk (t : Fin cfg1.N) (i : S2x1x4096.Idx) :
    i ∈ ((cfg1.win 3).blk t).view.set ↔ ∀ a : Fin 3, win1_3.index t a * S1x1x4096.size a ≤ (i a).val ∧ (i a).val < win1_3.index t a * S1x1x4096.size a + S1x1x4096.size a := by
  show i ∈ ((View.whole main_v5).slice (win1_3.rect t)).set ↔ _
  rw [View.set_slice_whole, Rect.mem_set_unit]
  exact Iff.rfl

theorem covered (i : S2x1x4096.Idx) : ∃ t : Fin cfg1.N, (cfg1.win 3).flush t = true ∧ i ∈ ((cfg1.win 3).blk t).view.set := by
  have h0 : (i 0).val < 2 := (i 0).isLt
  have h1 : (i 1).val < 1 := (i 1).isLt
  have h2 : (i 2).val < 4096 := (i 2).isLt
  refine ⟨⟨16 * (i 0).val + 15, by rw [show cfg1.N = 32 from N_1]; omega⟩, (flush1_3 _).mpr (by show (16 * (i 0).val + 15) % 16 = 15; omega), ?_⟩
  obtain ⟨-, -, -, -, -, -, -, -, -, e0, e1, e2⟩ := idx_facts ⟨16 * (i 0).val + 15, by rw [show cfg1.N = 32 from N_1]; omega⟩
  rw [mem_blk]
  intro a
  match a with
  | ⟨0, _⟩ => show win1_3.index _ (0 : Fin 3) * 1 ≤ (i 0).val ∧ (i 0).val < win1_3.index _ (0 : Fin 3) * 1 + 1; dsimp only at e0; omega
  | ⟨1, _⟩ => show win1_3.index _ (1 : Fin 3) * 1 ≤ (i 1).val ∧ (i 1).val < win1_3.index _ (1 : Fin 3) * 1 + 1; omega
  | ⟨2, _⟩ => show win1_3.index _ (2 : Fin 3) * 4096 ≤ (i 2).val ∧ (i 2).val < win1_3.index _ (2 : Fin 3) * 4096 + 4096; omega

/-- THE ARRAY AFTER THE REGION: the column totals of the weights, for the clouds and the column minima the region was
    entered with. -/
theorem final (c : Dev nD) : (dat1 V c).arrAt 3 cfg1.N = totArray (colCloud V c) (rowCloud V c) (minIn V c) :=
  (dat1 V c).arrAt_eq_of_cover 3 (totArray (colCloud V c) (rowCloud V c) (minIn V c)) (fun t hf => flushed_eq V c t hf) covered

end Cert.KernelIdeal.PassSum1

end
-- ==== Proof.TileB.lean ====
/-
  One grid point of the row pass, read at an index: a tile of 512 row points against a tile of 512 column points of a
  batch. `x0` is the column cloud's block `[1, 128, 512]` (channel, point) and `x1` the row cloud's block
  `[1, 512, 128]` (point, channel); `tileDist x0 x1` is the `[512, 512]` array of clamped squared distances, as in the
  column passes. With the blocks `m` of column minima and `z` of column totals the body stores the running row maximum
    max old (max_j (exp ((1 - tileDist / (m_j + ε)) / ½) / z_j)).
-/
import proofs.«129256_j54339926229668_1_alg».proof.Proof.Gen.KernelIdeal.Skeleton
import proofs.«129256_j54339926229668_1_alg».proof.Proof.SimSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileB

open Cert.KernelIdeal Cert.KernelIdeal.Gen Idealize.ShloMosaic Idealize.ShloMosaic.ValueIdx ContextualSim

/-! ## The layout operations of the tile, at coordinates -/

/-- The row block with its unit axis dropped. -/
theorem rows_at (x1 : Vec Ideal S1x512x128 .f32) (r : Fin 512) (c : Fin 128) :
    shapeCast S512x128 x1 shapeCasts_S1x512x128_S512x128 (ix2 r c) = x1 (ix3 (0 : Fin 1) r c) :=
  shapeCast_1ab_ab_apply x1 shapeCasts_S1x512x128_S512x128 r c

/-- The column block with its unit axis dropped. -/
theorem cols_at (x0 : Vec Ideal S1x128x512 .f32) (c : Fin 128) (j : Fin 512) :
    shapeCast S128x512 x0 shapeCasts_S1x128x512_S128x512 (ix2 c j) = x0 (ix3 (0 : Fin 1) c j) :=
  shapeCast_1ab_ab_apply x0 shapeCasts_S1x128x512_S128x512 c j

/-- The same two casts as whole arrays. -/
theorem rows_eq (x1 : Vec Ideal S1x512x128 .f32) :
    shapeCast S512x128 x1 shapeCasts_S1x512x128_S512x128 = fun i => x1 (ix3 (0 : Fin 1) (i 0) (i 1)) :=
  funext fun i => (congrArg (shapeCast S512x128 x1 shapeCasts_S1x512x128_S512x128) (eq_ix2 i)).trans (rows_at x1 (i 0) (i 1))

theorem cols_eq (x0 : Vec Ideal S1x128x512 .f32) :
    shapeCast S128x512 x0 shapeCasts_S1x128x512_S128x512 = fun i => x0 (ix3 (0 : Fin 1) (i 0) (i 1)) :=
  funext fun i => (congrArg (shapeCast S128x512 x0 shapeCasts_S1x128x512_S128x512) (eq_ix2 i)).trans (cols_at x0 (i 0) (i 1))

/-- A lane sum along the channel axis of a `[512, 128]` array: the sum over the channels of row `r`. -/
theorem rowsum_at (v : FVec Ideal S512x128 .f32) (r : Fin 512) :
    multiReduction .add [1] S512 v 0x00000000#32 reduces_S512x128_S512 (.inl rfl) rfl (ix1 r) = ∑ c : Fin 128, v (ix2 r c) :=
  (Ideal.multiReduction_add_single v _ reduces_S512x128_S512 _ _ (ix1 r)).trans
    (Finset.sum_congr rfl fun k _ => congrArg v (funext fun a => Fin.ext (by
      match a with
      | ⟨0, _⟩ => rfl
      | ⟨1, _⟩ => rfl)))

/-- A sublane sum along the channel axis of a `[128, 512]` array: the sum over the channels of column `j`. -/
theorem colsum_at (v : FVec Ideal S128x512 .f32) (j : Fin 512) :
    multiReduction .add [0] S512 v 0x00000000#32 reduces_S128x512_S512 (.inl rfl) rfl (ix1 j) = ∑ c : Fin 128, v (ix2 c j) :=
  (Ideal.multiReduction_add_single v _ reduces_S128x512_S512 _ _ (ix1 j)).trans
    (Finset.sum_congr rfl fun k _ => congrArg v (funext fun a => Fin.ext (by
      match a with
      | ⟨0, _⟩ => rfl
      | ⟨1, _⟩ => rfl)))

/-- A vector of row values as a column `[512, 1]`. -/
theorem col_of_vec_at (v : FVec Ideal S512 .f32) (r : Fin 512) (u : Fin 1) :
    shapeCast S512x1 v shapeCasts_S512_S512x1 (ix2 r u) = v (ix1 r) :=
  shapeCast_apply v shapeCasts_S512_S512x1 _ _ (by
    have hu : u.val = 0 := by omega
    rw [Shape.rowMajor_val_one, Shape.rowMajor_val_two]
    show r.val = r.val * 1 + u.val
    rw [hu, Nat.mul_one, Nat.add_zero])

/-- A column `[512, 1]` broadcast along the columns. -/
theorem bcast_col_at (w : FVec Ideal S512x1 .f32) (r : Fin 512) (j : Fin 512) :
    broadcastTo S512x512 w broadcasts_S512x1_S512x512 (ix2 r j) = w (ix2 r (0 : Fin 1)) := by
  refine broadcastTo_apply w broadcasts_S512x1_S512x512 (ix2 r j) (ix2 r (0 : Fin 1)) fun ax => ?_
  match ax with
  | ⟨0, _⟩ =>
    show r.val = if (512 : Nat) = 1 then 0 else r.val
    rw [if_neg (by decide)]
  | ⟨1, _⟩ => rfl

/-- A vector of column values as a row `[1, 512]`. -/
theorem row_of_vec_at (v : FVec Ideal S512 .f32) (u : Fin 1) (j : Fin 512) :
    shapeCast S1x512 v shapeCasts_S512_S1x512 (ix2 u j) = v (ix1 j) :=
  shapeCast_a_1a_apply v shapeCasts_S512_S1x512 u j

/-- A row `[1, 512]` broadcast along the rows. -/
theorem bcast_row_at (w : FVec Ideal S1x512 .f32) (r : Fin 512) (j : Fin 512) :
    broadcastTo S512x512 w broadcasts_S1x512_S512x512 (ix2 r j) = w (ix2 (0 : Fin 1) j) :=
  broadcastTo_1b_ab_apply w broadcasts_S1x512_S512x512 r j

theorem lhsIdx_row (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
theorem lhsIdx_chan (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem rhsIdx_chan (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem rhsIdx_col (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- The matrix product of the row tile with the column block into a zero accumulator: the sum over the channels. -/
theorem matmul_at (l : FVec Ideal S512x128 .bf16) (rr : FVec Ideal S128x512 .bf16) (p : Fin 512) (j : Fin 512) :
    matmul dot_S512x128_S128x512_S512x512_1_0_0_1_n_n none l rr (constant S512x512 .f32 0x00000000#32) (ix2 p j)
      = ∑ k : Fin 128, l (ix2 p k) * rr (ix2 k j) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p j) ((contrEquiv1 dot_S512x128_S128x512_S512x512_1_0_0_1_n_n 128 rfl rfl).symm k) = ix2 p k :=
    funext fun a => Fin.ext (by
      match a with
      | ⟨0, _⟩ => exact lhsIdx_row _ _
      | ⟨1, _⟩ => exact (lhsIdx_chan _ _).trans hk)
  have er : dot_S512x128_S128x512_S512x512_1_0_0_1_n_n.rhsIdx (ix2 p j) ((contrEquiv1 dot_S512x128_S128x512_S512x512_1_0_0_1_n_n 128 rfl rfl).symm k) = ix2 k j :=
    funext fun a => Fin.ext (by
      match a with
      | ⟨0, _⟩ => exact (rhsIdx_chan _ _).trans hk
      | ⟨1, _⟩ => exact rhsIdx_col _ _)
  rw [el, er]

/-! ## The tile's distances -/

/-- The clamped squared distances of the tile's 512 row points to the 512 column points, as the body computes them. -/
def tileDist (x0 : Vec Ideal S1x128x512 .f32) (x1 : Vec Ideal S1x512x128 .f32) : FVec Ideal S512x512 .f32 :=
  have v4 : FVec Ideal S128x512 .f32 := shapeCast S128x512 x0 shapeCasts_S1x128x512_S128x512
  have v6 : FVec Ideal S512x128 .f32 := shapeCast S512x128 x1 shapeCasts_S1x512x128_S512x128
  have v7 : FVec Ideal S128x512 .f32 := mulf v4 v4
  have v8 : FVec Ideal S512 .f32 := multiReduction .add [0] S512 v7 0x00000000#32 reduces_S128x512_S512 (.inl rfl) rfl
  have v9 : FVec Ideal S1x512 .f32 := shapeCast S1x512 v8 shapeCasts_S512_S1x512
  have v10 : FVec Ideal S512x128 .f32 := mulf v6 v6
  have v11 : FVec Ideal S512 .f32 := multiReduction .add [1] S512 v10 0x00000000#32 reduces_S512x128_S512 (.inl rfl) rfl
  have v12 : FVec Ideal S512x1 .f32 := shapeCast S512x1 v11 shapeCasts_S512_S512x1
  have v13 : FVec Ideal S128x512 .bf16 := truncf .bf16 v4 bitsLt_bf16_f32
  have v14 : FVec Ideal S512x128 .bf16 := truncf .bf16 v6 bitsLt_bf16_f32
  have cst_7 : FVec Ideal S512x512 .f32 := constant S512x512 .f32 0x00000000#32
  have v15 : FVec Ideal S512x512 .f32 := matmul dot_S512x128_S128x512_S512x512_1_0_0_1_n_n none v14 v13 cst_7
  have cst_8 : Ideal .f32 := Scalar.ofBits .f32 0x40000000#32
  have v16 : FVec Ideal S512x512 .f32 := broadcast S512x512 cst_8
  have v17 : FVec Ideal S512x512 .f32 := mulf v16 v15
  have v18 : FVec Ideal S512x512 .f32 := broadcastTo S512x512 v12 broadcasts_S512x1_S512x512
  have v19 : FVec Ideal S512x512 .f32 := subf v18 v17
  have v20 : FVec Ideal S512x512 .f32 := broadcastTo S512x512 v9 broadcasts_S1x512_S512x512
  have v21 : FVec Ideal S512x512 .f32 := addf v19 v20
  have cst_9 : Ideal .f32 := Scalar.ofBits .f32 0x00000000#32
  have v22 : FVec Ideal S512x512 .f32 := broadcast S512x512 cst_9
  have v23 : FVec Ideal S512x512 .f32 := maximumf v21 v22
  v23

/-- The tile's distance at row `r`, column `j`, in the blocks' entries. -/
theorem tileDist_at (x0 : Vec Ideal S1x128x512 .f32) (x1 : Vec Ideal S1x512x128 .f32) (r : Fin 512) (j : Fin 512) :
    tileDist x0 x1 (ix2 r j)
      = max (((∑ c : Fin 128, x1 (ix3 (0 : Fin 1) r c) * x1 (ix3 (0 : Fin 1) r c))
              - cTwo * ∑ c : Fin 128, x1 (ix3 (0 : Fin 1) r c) * x0 (ix3 (0 : Fin 1) c j))
            + ∑ c : Fin 128, x0 (ix3 (0 : Fin 1) c j) * x0 (ix3 (0 : Fin 1) c j)) cZero := by
  unfold tileDist
  simp only [maximumf_apply, addf_apply, subf_apply, mulf_apply, broadcast_apply]
  rw [bcast_col_at, col_of_vec_at, rowsum_at, matmul_at, bcast_row_at, row_of_vec_at, colsum_at]
  rw [rows_eq, cols_eq]
  rfl

/-! ## The stores of the row pass -/

/-- A block `[1, 1, 512]` of column values read as a row. -/
theorem row_of_block_at (xo : Vec Ideal S1x1x512 .f32) (u : Fin 1) (j : Fin 512) :
    shapeCast S1x512 xo shapeCasts_S1x1x512_S1x512 (ix2 u j) = xo (ix3 (0 : Fin 1) u j) :=
  shapeCast_1ab_ab_apply xo shapeCasts_S1x1x512_S1x512 u j

/-- The output block `[1, 512, 1]` read as a column. -/
theorem col_of_block_at (xo : Vec Ideal S1x512x1 .f32) (r : Fin 512) (u : Fin 1) :
    shapeCast S512x1 xo shapeCasts_S1x512x1_S512x1 (ix2 r u) = xo (ix3 (0 : Fin 1) r u) :=
  shapeCast_1ab_ab_apply xo shapeCasts_S1x512x1_S512x1 r u

/-- A column stored as the output block. -/
theorem block_of_col_at (w : FVec Ideal S512x1 .f32) (u : Fin 1) (r : Fin 512) (u' : Fin 1) :
    shapeCast S1x512x1 w shapeCasts_S512x1_S1x512x1 (ix3 u r u') = w (ix2 r u') :=
  shapeCast_ab_1ab_apply w shapeCasts_S512x1_S1x512x1 u r u'

/-- The maximum over the tile's columns of row `r`: the fold of `max` from the accumulator's word. -/
theorem rowmax_at (v : FVec Ideal S512x512 .f32) (r : Fin 512) :
    multiReduction .maximumf [1] S512 v 0xFF800000#32 reduces_S512x512_S512 (.inl rfl) rfl (ix1 r)
      = (Finset.univ : Finset (Fin 512)).fold max cNegInf (fun j => v (ix2 r j)) := by
  refine (Ideal.multiReduction_maximumf_single v _ reduces_S512x512_S512 _ _ (ix1 r)).trans ?_
  refine congrArg (fun f => (Finset.univ : Finset (Fin 512)).fold max cNegInf f) (funext fun j => ?_)
  exact congrArg v (funext fun a => Fin.ext (by
    match a with
    | ⟨0, _⟩ => rfl
    | ⟨1, _⟩ => rfl))

/-- One minus the tile's distances over the shifted column minima (the row pass's first part). -/
def tileRatio (x0 : Vec Ideal S1x128x512 .f32) (x1 : Vec Ideal S1x512x128 .f32) (m : Vec Ideal S1x1x512 .f32) : FVec Ideal S512x512 .f32 :=
  have v23 : FVec Ideal S512x512 .f32 := tileDist x0 x1
  have v25 : FVec Ideal S1x512 .f32 := shapeCast S1x512 m shapeCasts_S1x1x512_S1x512
  have cst_16 : Ideal .f32 := Scalar.ofBits .f32 0x3727C5AC#32
  have v28 : FVec Ideal S1x512 .f32 := broadcast S1x512 cst_16
  have v29 : FVec Ideal S1x512 .f32 := addf v25 v28
  have v30 : FVec Ideal S512x512 .f32 := broadcastTo S512x512 v29 broadcasts_S1x512_S512x512
  have v31 : FVec Ideal S512x512 .f32 := divf v23 v30
  have cst_17 : Ideal .f32 := Scalar.ofBits .f32 0x3F800000#32
  have v32 : FVec Ideal S512x512 .f32 := broadcast S512x512 cst_17
  have v33 : FVec Ideal S512x512 .f32 := subf v32 v31
  v33

theorem ratioPart_eq (x0 : Vec Ideal S1x128x512 .f32) (x1 : Vec Ideal S1x512x128 .f32) (m : Vec Ideal S1x1x512 .f32) :
    k2_pay4 x0 x1 m = tileRatio x0 x1 m := rfl

theorem tileRatio_at (x0 : Vec Ideal S1x128x512 .f32) (x1 : Vec Ideal S1x512x128 .f32) (m : Vec Ideal S1x1x512 .f32)
    (r : Fin 512) (j : Fin 512) :
    tileRatio x0 x1 m (ix2 r j) = cOne - Ideal.div (tileDist x0 x1 (ix2 r j)) (m (ix3 (0 : Fin 1) (0 : Fin 1) j) + cEps) := by
  unfold tileRatio
  show cOne - Ideal.div (tileDist x0 x1 (ix2 r j))
    (broadcastTo S512x512 (addf (F := Ideal) (shapeCast S1x512 m shapeCasts_S1x1x512_S1x512) (broadcast S1x512 (Scalar.ofBits (F := Ideal) .f32 0x3727C5AC#32)))
      broadcasts_S1x512_S512x512 (ix2 r j)) = _
  rw [bcast_row_at, addf_apply, row_of_block_at]
  rfl

/-- The block of column totals as the body reads it. -/
theorem totalsPart_at (z : Vec Ideal S1x1x512 .f32) (j : Fin 512) :
    k2_pay3 z (ix2 (0 : Fin 1) j) = z (ix3 (0 : Fin 1) (0 : Fin 1) j) := by
  unfold k2_pay3
  rw [row_of_block_at]

/-- The running-maximum store: the old block against the tile's row maxima of the normalized weights. -/
theorem maxStore_at (v27 : FVec Ideal S1x512 .f32) (v33 : FVec Ideal S512x512 .f32) (cst : Ideal .f32) (v41 : Vec Ideal S1x512x1 .f32)
    (r : Fin 512) :
    k2_pay1 v27 v33 cst v41 (ix3 (0 : Fin 1) r (0 : Fin 1))
      = max (v41 (ix3 (0 : Fin 1) r (0 : Fin 1)))
          ((Finset.univ : Finset (Fin 512)).fold max cNegInf
            (fun j => Ideal.div (Ideal.exp (Ideal.div (v33 (ix2 r j)) cst)) (v27 (ix2 (0 : Fin 1) j)))) := by
  unfold k2_pay1
  rw [block_of_col_at, maximumf_apply, col_of_block_at, col_of_vec_at, rowmax_at]
  refine congrArg (fun f => max (v41 (ix3 (0 : Fin 1) r (0 : Fin 1))) ((Finset.univ : Finset (Fin 512)).fold max cNegInf f)) (funext fun j => ?_)
  show Ideal.div (Ideal.exp (Ideal.div (v33 (ix2 r j)) cst)) (broadcastTo S512x512 v27 broadcasts_S1x512_S512x512 (ix2 r j)) = _
  rw [bcast_row_at]

/-- The row pass's reset store: the word of `-∞` everywhere. -/
theorem maxInit_at (i : S1x512x1.Idx) : k2_pay2 (F := Ideal) i = cNegInf := rfl

end Cert.KernelIdeal.TileB

end
-- ==== Proof.PassMax2.lean ====
/-
  The third pass of a direction (pallas_call 2): the row maxima of the normalized weights.
  The grid is (batch, row tile, column tile): 2 × 8 × 8 points, point `t` is batch `t / 64`, row tile `(t / 8) % 8`,
  column tile `t % 8`; the output block `(batch, row tile, 0)` stays in place across a row tile's 8 column tiles, is reset
  to `-∞` at the first and written back after the last. After the point with column tile `k` the block holds, at row
  `r` of the tile, the maximum of `-∞` and of `weight b i j / Z b j` over the columns `j < 512·(k+1)`, where
  `i = 512·(row tile) + r` (by induction on the point). So each row tile's last point writes back its rows' maxima, and
  the 16 write-backs cover the array.
-/
import proofs.«129256_j54339926229668_1_alg».proof.Proof.Gen.KernelIdeal.Frame
import proofs.«129256_j54339926229668_1_alg».proof.Proof.TileB
import Idealize.ShloMosaic.Lib.Pipeline.Value
import Idealize.ShloMosaic.Lib.Tactic

set_option maxRecDepth 16384

noncomputable section

namespace Cert.KernelIdeal.PassMax2

open Cert.KernelIdeal Cert.KernelIdeal.Gen Idealize.ShloMosaic Idealize.ShloMosaic.TcCoe Idealize.ShloMosaic.ValueIdx
open Idealize.SL.Sem ContextualSim Cert.KernelIdeal.TileB
open Idealize.ShloMosaic.Pipeline (Dat)

theorem hz3 : (![0, 0, 0] : Fin 3 → Nat) = fun _ => 0 := funext fun a => by fin_cases a <;> rfl

/-! ## What each case of the body leaves in the output block -/

section AnyValues
variable {F : FTy → Type} [FloatOps F]

/-- A later column tile: the one store's payload over the old block. -/
theorem left_later (c : Dev nD) (i : grid2.Coords) (a3 : Memref sig .tc .vmem S1x128x512 .f32) (h3 : a3.IsWhole)
    (a4 : Memref sig .tc .vmem S1x512x128 .f32) (h4 : a4.IsWhole) (a5 : Memref sig .tc .vmem S1x1x512 .f32) (h5 : a5.IsWhole)
    (a6 : Memref sig .tc .vmem S1x1x512 .f32) (h6 : a6.IsWhole) (a7 : Memref sig .tc .vmem S1x512x1 .f32) (h7 : a7.IsWhole)
    (hc : ¬cond2_0 i) (x0 : Vec F S1x128x512 .f32) (x1 : Vec F S1x512x128 .f32) (x2 : Vec F S1x1x512 .f32) (x3 : Vec F S1x1x512 .f32)
    (xo : Vec F S1x512x1 .f32) :
    out2_B_4 c i a3 h3 a4 h4 a5 h5 a6 h6 a7 h7 hc x0 x1 x2 x3 xo
      = k2_pay1 (k2_pay3 x3) (k2_pay4 x0 x1 x2) (Scalar.ofBits .f32 0x3F000000#32) xo := by
  unfold out2_B_4
  rw [View.read_writes_eq_canon _ _ _ (cover2_B_4 c i a3 h3 a4 h4 a5 h5 a6 h6 a7 h7 hc x0 x1 x2 x3 xo)]
  unfold kernelRun2_B
  dsimp only
  sl_unfold_words
  rw [View.canon_unit_zero hz3]
  simp only [View.readAt_eq_ld, h3.read_unread, h4.read_unread, h5.read_unread, h6.read_unread, h7.read_unread,
    View.ld_unit_zero (S := S1x128x512) hz3, View.ld_unit_zero (S := S1x512x128) hz3, View.ld_unit_zero (S := S1x1x512) hz3,
    View.ld_unit_zero (S := S1x512x1) hz3]

/-- The first column tile: the reset store, read back, under the same payload. -/
theorem left_first (c : Dev nD) (i : grid2.Coords) (a3 : Memref sig .tc .vmem S1x128x512 .f32) (h3 : a3.IsWhole)
    (a4 : Memref sig .tc .vmem S1x512x128 .f32) (h4 : a4.IsWhole) (a5 : Memref sig .tc .vmem S1x1x512 .f32) (h5 : a5.IsWhole)
    (a6 : Memref sig .tc .vmem S1x1x512 .f32) (h6 : a6.IsWhole) (a7 : Memref sig .tc .vmem S1x512x1 .f32) (h7 : a7.IsWhole)
    (hc : cond2_0 i) (x0 : Vec F S1x128x512 .f32) (x1 : Vec F S1x512x128 .f32) (x2 : Vec F S1x1x512 .f32) (x3 : Vec F S1x1x512 .f32) :
    out2_A_4 c i a3 h3 a4 h4 a5 h5 a6 h6 a7 h7 hc x0 x1 x2 x3
      = k2_pay1 (k2_pay3 x3) (k2_pay4 x0 x1 x2) (Scalar.ofBits .f32 0x3F000000#32) (k2_pay2 (F := F)) := by
  unfold out2_A_4
  rw [View.read_writes_eq_canon _ _ _ (cover2_A_4 c i a3 h3 a4 h4 a5 h5 a6 h6 a7 h7 hc x0 x1 x2 x3)]
  unfold kernelRun2_A
  dsimp only
  sl_unfold_words
  rw [View.canon_cons_unit_zero (S := S1x512x1) hz3, View.readCov_unit_zero (S := S1x512x1) _ hz3]
  simp only [View.readAt_eq_ld, h3.read_unread, h4.read_unread, h5.read_unread, h6.read_unread,
    View.ld_unit_zero (S := S1x128x512) hz3, View.ld_unit_zero (S := S1x512x128) hz3, View.ld_unit_zero (S := S1x1x512) hz3]

end AnyValues

/-! ## The windows' blocks, at coordinates -/

variable (V : (c : Dev nD) → (b : Ref sig .tc) → Buf (Elt Ideal) ((c : Thread nD τ).loc b))

/-- The column cloud, the row cloud, the column minima and the column totals the region reads. -/
def colCloud (c : Dev nD) : Cloud := fun b j ch => (V c main_v0 : S2x128x4096.Idx → EReal) (ix3 b ch j)
def rowCloud (c : Dev nD) : Cloud := fun b i ch => (V c main_v3 : S2x4096x128.Idx → EReal) (ix3 b i ch)
def minIn (c : Dev nD) : Fin 2 → Fin 4096 → EReal := fun b j => (V c main_v4 : S2x1x4096.Idx → EReal) (ix3 b (0 : Fin 1) j)
def totIn (c : Dev nD) : Fin 2 → Fin 4096 → EReal := fun b j => (V c main_v5 : S2x1x4096.Idx → EReal) (ix3 b (0 : Fin 1) j)

/-- The printed index maps, decided over the grid. -/
theorem idx_facts : ∀ t : Fin cfg2.N,
    win2_0.index t (0 : Fin 3) = t.val / 64 ∧ win2_0.index t (1 : Fin 3) = 0 ∧ win2_0.index t (2 : Fin 3) = t.val % 8
    ∧ win2_1.index t (0 : Fin 3) = t.val / 64 ∧ win2_1.index t (1 : Fin 3) = t.val / 8 % 8 ∧ win2_1.index t (2 : Fin 3) = 0
    ∧ win2_2.index t (0 : Fin 3) = t.val / 64 ∧ win2_2.index t (1 : Fin 3) = 0 ∧ win2_2.index t (2 : Fin 3) = t.val % 8
    ∧ win2_3.index t (0 : Fin 3) = t.val / 64 ∧ win2_3.index t (1 : Fin 3) = 0 ∧ win2_3.index t (2 : Fin 3) = t.val % 8
    ∧ win2_4.index t (0 : Fin 3) = t.val / 64 ∧ win2_4.index t (1 : Fin 3) = t.val / 8 % 8 ∧ win2_4.index t (2 : Fin 3) = 0 :=
  (by decide +kernel : ∀ t : Fin grid2.N, _)

theorem colBlock_at (c : Dev nD) (t : Fin cfg2.N) (b : Fin 2) (hb : b.val = t.val / 64) (ch : Fin 128) (jj : Fin 512) (j : Fin 4096)
    (hj : j.val = 512 * (t.val % 8) + jj.val) :
    (iblk2 V c 0 t : S1x128x512.Idx → EReal) (ix3 (0 : Fin 1) ch jj) = colCloud V c b j ch := by
  obtain ⟨e0, e1, e2, -⟩ := idx_facts t
  unfold iblk2 colCloud
  rw [View.read_apply]
  show V c main_v0 (((cfg2.win 0).blk t).view.emb (ix3 (0 : Fin 1) ch jj)) = V c main_v0 (ix3 b ch j)
  refine congrArg (V c main_v0) (funext fun a => Fin.ext ?_)
  match a with
  | ⟨0, _⟩ => show win2_0.index t (0 : Fin 3) * 1 + 1 * 0 = b.val; omega
  | ⟨1, _⟩ => show win2_0.index t (1 : Fin 3) * 128 + 1 * ch.val = ch.val; omega
  | ⟨2, _⟩ => show win2_0.index t (2 : Fin 3) * 512 + 1 * jj.val = j.val; omega

theorem rowBlock_at (c : Dev nD) (t : Fin cfg2.N) (b : Fin 2) (hb : b.val = t.val / 64) (r : Fin 512) (i : Fin 4096)
    (hi : i.val = 512 * (t.val / 8 % 8) + r.val) (ch : Fin 128) :
    (iblk2 V c 1 t : S1x512x128.Idx → EReal) (ix3 (0 : Fin 1) r ch) = rowCloud V c b i ch := by
  obtain ⟨-, -, -, e0, e1, e2, -⟩ := idx_facts t
  unfold iblk2 rowCloud
  rw [View.read_apply]
  show V c main_v3 (((cfg2.win 1).blk t).view.emb (ix3 (0 : Fin 1) r ch)) = V c main_v3 (ix3 b i ch)
  refine congrArg (V c main_v3) (funext fun a => Fin.ext ?_)
  match a with
  | ⟨0, _⟩ => show win2_1.index t (0 : Fin 3) * 1 + 1 * 0 = b.val; omega
  | ⟨1, _⟩ => show win2_1.index t (1 : Fin 3) * 512 + 1 * r.val = i.val; omega
  | ⟨2, _⟩ => show win2_1.index t (2 : Fin 3) * 128 + 1 * ch.val = ch.val; omega

theorem minBlock_at (c : Dev nD) (t : Fin cfg2.N) (b : Fin 2) (hb : b.val = t.val / 64) (jj : Fin 512) (j : Fin 4096)
    (hj : j.val = 512 * (t.val % 8) + jj.val) :
    (iblk2 V c 2 t : S1x1x512.Idx → EReal) (ix3 (0 : Fin 1) (0 : Fin 1) jj) = minIn V c b j := by
  obtain ⟨-, -, -, -, -, -, e0, e1, e2, -⟩ := idx_facts t
  unfold iblk2 minIn
  rw [View.read_apply]
  show V c main_v4 (((cfg2.win 2).blk t).view.emb (ix3 (0 : Fin 1) (0 : Fin 1) jj)) = V c main_v4 (ix3 b (0 : Fin 1) j)
  refine congrArg (V c main_v4) (funext fun a => Fin.ext ?_)
  match a with
  | ⟨0, _⟩ => show win2_2.index t (0 : Fin 3) * 1 + 1 * 0 = b.val; omega
  | ⟨1, _⟩ => show win2_2.index t (1 : Fin 3) * 1 + 1 * 0 = 0; omega
  | ⟨2, _⟩ => show win2_2.index t (2 : Fin 3) * 512 + 1 * jj.val = j.val; omega

theorem totBlock_at (c : Dev nD) (t : Fin cfg2.N) (b : Fin 2) (hb : b.val = t.val / 64) (jj : Fin 512) (j : Fin 4096)
    (hj : j.val = 512 * (t.val % 8) + jj.val) :
    (iblk2 V c 3 t : S1x1x512.Idx → EReal) (ix3 (0 : Fin 1) (0 : Fin 1) jj) = totIn V c b j := by
  obtain ⟨-, -, -, -, -, -, -, -, -, e0, e1, e2, -⟩ := idx_facts t
  unfold iblk2 totIn
  rw [View.read_apply]
  show V c main_v5 (((cfg2.win 3).blk t).view.emb (ix3 (0 : Fin 1) (0 : Fin 1) jj)) = V c main_v5 (ix3 b (0 : Fin 1) j)
  refine congrArg (V c main_v5) (funext fun a => Fin.ext ?_)
  match a with
  | ⟨0, _⟩ => show win2_3.index t (0 : Fin 3) * 1 + 1 * 0 = b.val; omega
  | ⟨1, _⟩ => show win2_3.index t (1 : Fin 3) * 1 + 1 * 0 = 0; omega
  | ⟨2, _⟩ => show win2_3.index t (2 : Fin 3) * 512 + 1 * jj.val = j.val; omega

theorem tile_is_dist (c : Dev nD) (t : Fin cfg2.N) (b : Fin 2) (hb : b.val = t.val / 64) (r : Fin 512) (i : Fin 4096)
    (hi : i.val = 512 * (t.val / 8 % 8) + r.val) (jj : Fin 512) (j : Fin 4096) (hj : j.val = 512 * (t.val % 8) + jj.val) :
    tileDist (iblk2 V c 0 t) (iblk2 V c 1 t) (ix2 r jj) = dist (colCloud V c) (rowCloud V c) b i j := by
  rw [tileDist_at]
  have e0 : ∀ ch : Fin 128, (iblk2 V c 0 t : S1x128x512.Idx → EReal) (ix3 (0 : Fin 1) ch jj) = colCloud V c b j ch :=
    fun ch => colBlock_at V c t b hb ch jj j hj
  have e1 : ∀ ch : Fin 128, (iblk2 V c 1 t : S1x512x128.Idx → EReal) (ix3 (0 : Fin 1) r ch) = rowCloud V c b i ch :=
    fun ch => rowBlock_at V c t b hb r i hi ch
  simp only [e0, e1]
  rfl

/-- The normalized weight of the pair `(i, j)`. -/
abbrev rowRatios (c : Dev nD) (b : Fin 2) (i : Fin 4096) : Fin 4096 → EReal :=
  fun j => Ideal.div (weight (colCloud V c) (rowCloud V c) (minIn V c) b i j) (totIn V c b j)

/-- One entry of the tile's normalized weights is the clouds' at the tile's row and column. -/
theorem tile_is_ratio (c : Dev nD) (t : Fin cfg2.N) (b : Fin 2) (hb : b.val = t.val / 64) (r : Fin 512) (i : Fin 4096)
    (hi : i.val = 512 * (t.val / 8 % 8) + r.val) (jj : Fin 512) (j : Fin 4096) (hj : j.val = 512 * (t.val % 8) + jj.val) :
    Ideal.div (Ideal.exp (Ideal.div (k2_pay4 (iblk2 V c 0 t) (iblk2 V c 1 t) (iblk2 V c 2 t) (ix2 r jj)) (Scalar.ofBits (F := Ideal) .f32 0x3F000000#32)))
        (k2_pay3 (iblk2 V c 3 t) (ix2 (0 : Fin 1) jj))
      = rowRatios V c b i j := by
  rw [show k2_pay4 (iblk2 V c 0 t) (iblk2 V c 1 t) (iblk2 V c 2 t) = tileRatio (iblk2 V c 0 t) (iblk2 V c 1 t) (iblk2 V c 2 t) from rfl,
    show k2_pay3 (iblk2 V c 3 t) = k2_pay3 (iblk2 V c 3 t) from rfl,
    tileRatio_at, totalsPart_at, tile_is_dist V c t b hb r i hi jj j hj, minBlock_at V c t b hb jj j hj, totBlock_at V c t b hb jj j hj]
  rfl

/-! ## The running maximum, point by point -/

theorem store_at (c : Dev nD) (t : Fin cfg2.N) (xo : Vec Ideal S1x512x1 .f32) (r : Fin 512) :
    (k2_pay1 (k2_pay3 (iblk2 V c 3 t)) (k2_pay4 (iblk2 V c 0 t) (iblk2 V c 1 t) (iblk2 V c 2 t)) (Scalar.ofBits .f32 0x3F000000#32) xo
        : S1x512x1.Idx → EReal) (ix3 (0 : Fin 1) r (0 : Fin 1))
      = max (xo (ix3 (0 : Fin 1) r (0 : Fin 1)))
          ((Finset.univ : Finset (Fin 512)).fold max cNegInf (fun jj =>
            Ideal.div (Ideal.exp (Ideal.div (k2_pay4 (iblk2 V c 0 t) (iblk2 V c 1 t) (iblk2 V c 2 t) (ix2 r jj)) (Scalar.ofBits (F := Ideal) .f32 0x3F000000#32)))
              (k2_pay3 (iblk2 V c 3 t) (ix2 (0 : Fin 1) jj)))) :=
  maxStore_at _ _ _ _ r

theorem init_at (i : S1x512x1.Idx) : (k2_pay2 (F := Ideal) : S1x512x1.Idx → EReal) i = cNegInf := rfl

theorem first_tile (c : Dev nD) (t : Fin cfg2.N) (h0 : t.val % 8 = 0) (b : Fin 2) (hb : b.val = t.val / 64) (r : Fin 512) (i : Fin 4096)
    (hi : i.val = 512 * (t.val / 8 % 8) + r.val) :
    IsMaxBelow cNegInf (rowRatios V c b i) 512
      ((outsAt2 V c t.val t.isLt : S1x512x1.Idx → EReal) (ix3 (0 : Fin 1) r (0 : Fin 1))) := by
  rw [outsAt2_A V c t h0, left_first, store_at, init_at]
  exact IsMaxBelow.first cNegInf _ _ (fun jj => ⟨jj.val, by have := jj.isLt; omega⟩) (fun _ => rfl)
    (fun jj => tile_is_ratio V c t b hb r i hi jj _ (by show jj.val = 512 * (t.val % 8) + jj.val; omega))

theorem later_tile (c : Dev nD) (t : Fin cfg2.N) (h0 : ¬t.val % 8 = 0) (b : Fin 2) (hb : b.val = t.val / 64) (r : Fin 512) (i : Fin 4096)
    (hi : i.val = 512 * (t.val / 8 % 8) + r.val)
    (ih : IsMaxBelow cNegInf (rowRatios V c b i) (512 * (t.val % 8))
      ((outsAt2 V c (t.val - 1) (Nat.lt_of_le_of_lt (Nat.sub_le _ _) t.isLt) : S1x512x1.Idx → EReal) (ix3 (0 : Fin 1) r (0 : Fin 1)))) :
    IsMaxBelow cNegInf (rowRatios V c b i) (512 * (t.val % 8) + 512)
      ((outsAt2 V c t.val t.isLt : S1x512x1.Idx → EReal) (ix3 (0 : Fin 1) r (0 : Fin 1))) := by
  rw [outsAt2_B V c t h0, left_later, store_at]
  have hlt : t.val % 8 < 8 := Nat.mod_lt _ (by decide)
  exact ih.step _ (fun jj => ⟨512 * (t.val % 8) + jj.val, by have := jj.isLt; omega⟩) (fun _ => rfl)
    (fun jj => tile_is_ratio V c t b hb r i hi jj _ rfl)

theorem running_max (c : Dev nD) : ∀ (n : ℕ) (hn : n < cfg2.N) (b : Fin 2), b.val = n / 64 → ∀ (r : Fin 512) (i : Fin 4096),
    i.val = 512 * (n / 8 % 8) + r.val →
    IsMaxBelow cNegInf (rowRatios V c b i) (512 * (n % 8 + 1))
      ((outsAt2 V c n hn : S1x512x1.Idx → EReal) (ix3 (0 : Fin 1) r (0 : Fin 1)))
  | 0, hn, b, hb, r, i, hi => first_tile V c ⟨0, hn⟩ rfl b hb r i hi
  | n + 1, hn, b, hb, r, i, hi => by
    by_cases h0 : (n + 1) % 8 = 0
    · have := first_tile V c ⟨n + 1, hn⟩ h0 b hb r i hi
      rw [h0]; exact this
    · have ih := running_max c n (Nat.lt_of_succ_lt hn) b (by omega) r i (by omega)
      have e : 512 * (n % 8 + 1) = 512 * ((n + 1) % 8) := by omega
      rw [e] at ih
      have := later_tile V c ⟨n + 1, hn⟩ h0 b hb r i hi ih
      have e' : 512 * ((n + 1) % 8) + 512 = 512 * ((n + 1) % 8 + 1) := by omega
      rw [← e']; exact this

/-! ## The array after the region -/

/-- The row maxima as the region's output array `[2, 4096, 1]`. -/
def bestArray (s t : Cloud) (M Z : Fin 2 → Fin 4096 → EReal) : S2x4096x1.Idx → EReal := fun i => best s t M Z (i 0) (i 1)

theorem flushed_eq (c : Dev nD) (t : Fin cfg2.N) (hf : (cfg2.win 4).flush t = true) :
    (dat2 V c).flushed 4 t
      = ((cfg2.win 4).blk t).view.read (Elt Ideal) (bestArray (colCloud V c) (rowCloud V c) (minIn V c) (totIn V c)) := by
  have h7 : t.val % 8 = 7 := (flush2_4 t).mp hf
  have hN : t.val < 128 := lt_of_lt_of_eq t.isLt (show cfg2.N = 128 from N_2)
  obtain ⟨-, -, -, -, -, -, -, -, -, -, -, -, e0, e1, e2⟩ := idx_facts t
  show (cfg2.win 4).cut (grid2.coords t) ((dat2 V c).after 4 t) = _
  rw [after2_4]
  refine funext fun (y : S1x512x1.Idx) => ?_
  have hy : y = ix3 (0 : Fin 1) (y 1) (0 : Fin 1) := funext fun a => Fin.ext (by
    match a with
    | ⟨0, _⟩ => have h : (y 0).val < 1 := (y 0).isLt; show (y 0).val = 0; omega
    | ⟨1, _⟩ => rfl
    | ⟨2, _⟩ => have h : (y 2).val < 1 := (y 2).isLt; show (y 2).val = 0; omega)
  obtain ⟨r, rfl⟩ : ∃ r : Fin 512, y = ix3 (0 : Fin 1) r (0 : Fin 1) := ⟨y 1, hy⟩
  have hr : r.val < 512 := r.isLt
  have inv := running_max V c t.val t.isLt ⟨t.val / 64, by omega⟩ rfl r ⟨512 * (t.val / 8 % 8) + r.val, by omega⟩ rfl
  rw [show 512 * (t.val % 8 + 1) = 4096 by omega] at inv
  rw [View.read_apply]
  show (outsAt2 V c t.val t.isLt : S1x512x1.Idx → EReal) (ix3 (0 : Fin 1) r (0 : Fin 1))
    = best (colCloud V c) (rowCloud V c) (minIn V c) (totIn V c) ((((cfg2.win 4).blk t).view.emb (ix3 (0 : Fin 1) r (0 : Fin 1))) 0)
        ((((cfg2.win 4).blk t).view.emb (ix3 (0 : Fin 1) r (0 : Fin 1))) 1)
  have eb : (((cfg2.win 4).blk t).view.emb (ix3 (0 : Fin 1) r (0 : Fin 1))) 0 = (⟨t.val / 64, by omega⟩ : Fin 2) :=
    Fin.ext (by show win2_4.index t (0 : Fin 3) * 1 + 1 * 0 = t.val / 64; omega)
  have ei : (((cfg2.win 4).blk t).view.emb (ix3 (0 : Fin 1) r (0 : Fin 1))) 1 = (⟨512 * (t.val / 8 % 8) + r.val, by omega⟩ : Fin 4096) :=
    Fin.ext (by show win2_4.index t (1 : Fin 3) * 512 + 1 * r.val = 512 * (t.val / 8 % 8) + r.val; omega)
  rw [eb, ei]
  exact inv.eq_fold

theorem mem_blk (t : Fin cfg2.N) (i : S2x4096x1.Idx) :
    i ∈ ((cfg2.win 4).blk t).view.set ↔ ∀ a : Fin 3, win2_4.index t a * S1x512x1.size a ≤ (i a).val ∧ (i a).val < win2_4.index t a * S1x512x1.size a + S1x512x1.size a := by
  show i ∈ ((View.whole main_v6).slice (win2_4.rect t)).set ↔ _
  rw [View.set_slice_whole, Rect.mem_set_unit]
  exact Iff.rfl

theorem covered (i : S2x4096x1.Idx) : ∃ t : Fin cfg2.N, (cfg2.win 4).flush t = true ∧ i ∈ ((cfg2.win 4).blk t).view.set := by
  have h0 : (i 0).val < 2 := (i 0).isLt
  have h1 : (i 1).val < 4096 := (i 1).isLt
  have h2 : (i 2).val < 1 := (i 2).isLt
  have hlt : 64 * (i 0).val + 8 * ((i 1).val / 512) + 7 < cfg2.N := by rw [show cfg2.N = 128 from N_2]; omega
  refine ⟨⟨64 * (i 0).val + 8 * ((i 1).val / 512) + 7, hlt⟩, (flush2_4 _).mpr (by show (64 * (i 0).val + 8 * ((i 1).val / 512) + 7) % 8 = 7; omega), ?_⟩
  obtain ⟨-, -, -, -, -, -, -, -, -, -, -, -, e0, e1, e2⟩ := idx_facts ⟨64 * (i 0).val + 8 * ((i 1).val / 512) + 7, hlt⟩
  dsimp only at e0 e1 e2
  rw [mem_blk]
  intro a
  match a with
  | ⟨0, _⟩ => show win2_4.index _ (0 : Fin 3) * 1 ≤ (i 0).val ∧ (i 0).val < win2_4.index _ (0 : Fin 3) * 1 + 1; omega
  | ⟨1, _⟩ => show win2_4.index _ (1 : Fin 3) * 512 ≤ (i 1).val ∧ (i 1).val < win2_4.index _ (1 : Fin 3) * 512 + 512; omega
  | ⟨2, _⟩ => show win2_4.index _ (2 : Fin 3) * 1 ≤ (i 2).val ∧ (i 2).val < win2_4.index _ (2 : Fin 3) * 1 + 1; omega

/-- THE ARRAY AFTER THE REGION: the row maxima of the normalized weights, for the clouds, the column minima and the
    column totals the region was entered with. -/
theorem final (c : Dev nD) :
    (dat2 V c).arrAt 4 cfg2.N = bestArray (colCloud V c) (rowCloud V c) (minIn V c) (totIn V c) :=
  (dat2 V c).arrAt_eq_of_cover 4 (bestArray (colCloud V c) (rowCloud V c) (minIn V c) (totIn V c)) (fun t hf => flushed_eq V c t hf) covered

end Cert.KernelIdeal.PassMax2

end
-- ==== Proof.PassMin3.lean ====
/-
  The first pass of a direction (pallas_call 3): the column minima of the clamped distances.
  The grid is (batch, row tile): 2 × 16 points, point `t` is batch `t / 16`, row tile `t % 16`; the output block
  `(batch, 0, all columns)` stays in place across a batch's 16 row tiles, is reset to `+∞` at the first and written
  back after the last. After the point with row tile `k` the block holds, at column `j`, the minimum of `+∞` and of the
  distances `dist b i j` over the rows `i < 256·(k+1)` (by induction on the point: the first tile from the reset word,
  a later tile from what the point before left). So each batch's last point writes back the column minima, and the
  two write-backs cover the array.
-/
import proofs.«129256_j54339926229668_1_alg».proof.Proof.Gen.KernelIdeal.Frame
import proofs.«129256_j54339926229668_1_alg».proof.Proof.TileA
import Idealize.ShloMosaic.Lib.Pipeline.Value
import Idealize.ShloMosaic.Lib.Tactic

set_option maxRecDepth 16384

noncomputable section

namespace Cert.KernelIdeal.PassMin3

open Cert.KernelIdeal Cert.KernelIdeal.Gen Idealize.ShloMosaic Idealize.ShloMosaic.TcCoe Idealize.ShloMosaic.ValueIdx
open Idealize.SL.Sem ContextualSim Cert.KernelIdeal.TileA
open Idealize.ShloMosaic.Pipeline (Dat)

theorem hz3 : (![0, 0, 0] : Fin 3 → Nat) = fun _ => 0 := funext fun a => by fin_cases a <;> rfl

/-! ## What each case of the body leaves in the output block -/

section AnyValues
variable {F : FTy → Type} [FloatOps F]

/-- A later row tile: the one store's payload over the old block. -/
theorem left_later (c : Dev nD) (i : grid3.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (hc : ¬cond3_0 i) (x0 : Vec F S1x128x4096 .f32) (x1 : Vec F S1x256x128 .f32) (xo : Vec F S1x1x4096 .f32) :
    out3_B_2 c i a2 h2 a3 h3 a4 h4 hc x0 x1 xo = k3_pay2 x0 x1 xo := by
  unfold out3_B_2
  rw [View.read_writes_eq_canon _ _ _ (cover3_B_2 c i a2 h2 a3 h3 a4 h4 hc x0 x1 xo)]
  unfold kernelRun3_B
  dsimp only
  rw [View.canon_unit_zero hz3]
  simp only [View.readAt_eq_ld, h2.read_unread, h3.read_unread, h4.read_unread, View.ld_unit_zero (S := S1x128x4096) hz3,
    View.ld_unit_zero (S := S1x256x128) hz3, View.ld_unit_zero (S := S1x1x4096) hz3]

/-- The first row tile: the reset store, read back, under the same payload. -/
theorem left_first (c : Dev nD) (i : grid3.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (hc : cond3_0 i) (x0 : Vec F S1x128x4096 .f32) (x1 : Vec F S1x256x128 .f32) :
    out3_A_2 c i a2 h2 a3 h3 a4 h4 hc x0 x1 = k3_pay2 x0 x1 (k3_pay1 (F := F)) := by
  unfold out3_A_2
  rw [View.read_writes_eq_canon _ _ _ (cover3_A_2 c i a2 h2 a3 h3 a4 h4 hc x0 x1)]
  unfold kernelRun3_A
  dsimp only
  sl_unfold_words
  rw [View.canon_cons_unit_zero (S := S1x1x4096) hz3, View.readCov_unit_zero (S := S1x1x4096) _ hz3]
  simp only [View.readAt_eq_ld, h2.read_unread, h3.read_unread, View.ld_unit_zero (S := S1x128x4096) hz3,
    View.ld_unit_zero (S := S1x256x128) hz3]

end AnyValues

/-! ## The windows' blocks, at coordinates -/

variable (V : (c : Dev nD) → (b : Ref sig .tc) → Buf (Elt Ideal) ((c : Thread nD τ).loc b))

/-- The column cloud and the row cloud the region reads, point by point. -/
def colCloud (c : Dev nD) : Cloud := fun b j ch => (V c main_v1 : S2x128x4096.Idx → EReal) (ix3 b ch j)
def rowCloud (c : Dev nD) : Cloud := fun b i ch => (V c main_v2 : S2x4096x128.Idx → EReal) (ix3 b i ch)

/-- The printed index maps, decided over the grid: batch `t / 16` on the leading axis of every window, row tile
    `t % 16` on the row window's second axis, zero elsewhere. -/
theorem idx_facts : ∀ t : Fin cfg3.N,
    win3_0.index t (0 : Fin 3) = t.val / 16 ∧ win3_0.index t (1 : Fin 3) = 0 ∧ win3_0.index t (2 : Fin 3) = 0
    ∧ win3_1.index t (0 : Fin 3) = t.val / 16 ∧ win3_1.index t (1 : Fin 3) = t.val % 16 ∧ win3_1.index t (2 : Fin 3) = 0
    ∧ win3_2.index t (0 : Fin 3) = t.val / 16 ∧ win3_2.index t (1 : Fin 3) = 0 ∧ win3_2.index t (2 : Fin 3) = 0 :=
  (by decide +kernel : ∀ t : Fin grid3.N, _)

/-- The column block at a point is the batch's whole column cloud. -/
theorem colBlock_at (c : Dev nD) (t : Fin cfg3.N) (b : Fin 2) (hb : b.val = t.val / 16) (ch : Fin 128) (j : Fin 4096) :
    (iblk3 V c 0 t : S1x128x4096.Idx → EReal) (ix3 (0 : Fin 1) ch j) = colCloud V c b j ch := by
  obtain ⟨e0, e1, e2, -⟩ := idx_facts t
  unfold iblk3 colCloud
  rw [View.read_apply]
  show V c main_v1 (((cfg3.win 0).blk t).view.emb (ix3 (0 : Fin 1) ch j)) = V c main_v1 (ix3 b ch j)
  refine congrArg (V c main_v1) (funext fun a => Fin.ext ?_)
  match a with
  | ⟨0, _⟩ => show win3_0.index t (0 : Fin 3) * 1 + 1 * 0 = b.val; omega
  | ⟨1, _⟩ => show win3_0.index t (1 : Fin 3) * 128 + 1 * ch.val = ch.val; omega
  | ⟨2, _⟩ => show win3_0.index t (2 : Fin 3) * 4096 + 1 * j.val = j.val; omega

/-- The row block at a point is the batch's rows `256·(t % 16) + r`. -/
theorem rowBlock_at (c : Dev nD) (t : Fin cfg3.N) (b : Fin 2) (hb : b.val = t.val / 16) (r : Fin 256) (i : Fin 4096)
    (hi : i.val = 256 * (t.val % 16) + r.val) (ch : Fin 128) :
    (iblk3 V c 1 t : S1x256x128.Idx → EReal) (ix3 (0 : Fin 1) r ch) = rowCloud V c b i ch := by
  obtain ⟨-, -, -, e0, e1, e2, -⟩ := idx_facts t
  unfold iblk3 rowCloud
  rw [View.read_apply]
  show V c main_v2 (((cfg3.win 1).blk t).view.emb (ix3 (0 : Fin 1) r ch)) = V c main_v2 (ix3 b i ch)
  refine congrArg (V c main_v2) (funext fun a => Fin.ext ?_)
  match a with
  | ⟨0, _⟩ => show win3_1.index t (0 : Fin 3) * 1 + 1 * 0 = b.val; omega
  | ⟨1, _⟩ => show win3_1.index t (1 : Fin 3) * 256 + 1 * r.val = i.val; omega
  | ⟨2, _⟩ => show win3_1.index t (2 : Fin 3) * 128 + 1 * ch.val = ch.val; omega

/-- The tile's distances are the clouds' distances at the tile's rows. -/
theorem tile_is_dist (c : Dev nD) (t : Fin cfg3.N) (b : Fin 2) (hb : b.val = t.val / 16) (r : Fin 256) (i : Fin 4096)
    (hi : i.val = 256 * (t.val % 16) + r.val) (j : Fin 4096) :
    tileDist (iblk3 V c 0 t) (iblk3 V c 1 t) (ix2 r j) = dist (colCloud V c) (rowCloud V c) b i j := by
  rw [tileDist_at]
  have e0 : ∀ ch : Fin 128, (iblk3 V c 0 t : S1x128x4096.Idx → EReal) (ix3 (0 : Fin 1) ch j) = colCloud V c b j ch :=
    fun ch => colBlock_at V c t b hb ch j
  have e1 : ∀ ch : Fin 128, (iblk3 V c 1 t : S1x256x128.Idx → EReal) (ix3 (0 : Fin 1) r ch) = rowCloud V c b i ch :=
    fun ch => rowBlock_at V c t b hb r i hi ch
  simp only [e0, e1]
  rfl

/-! ## The running minimum, point by point -/

/-- The store's payload at a column, and the reset word (the tile-level lemmas, at this region's payload names). -/
theorem store_at (x0 : Vec Ideal S1x128x4096 .f32) (x1 : Vec Ideal S1x256x128 .f32) (xo : Vec Ideal S1x1x4096 .f32) (j : Fin 4096) :
    (k3_pay2 x0 x1 xo : S1x1x4096.Idx → EReal) (ix3 (0 : Fin 1) (0 : Fin 1) j)
      = min (xo (ix3 (0 : Fin 1) (0 : Fin 1) j)) ((Finset.univ : Finset (Fin 256)).fold min cPosInf (fun r => tileDist x0 x1 (ix2 r j))) :=
  minStore_at x0 x1 xo j
theorem init_at (i : S1x1x4096.Idx) : (k3_pay1 (F := Ideal) : S1x1x4096.Idx → EReal) i = cPosInf := rfl

/-- The first row tile of a batch leaves the minimum over the rows below 256. -/
theorem first_tile (c : Dev nD) (t : Fin cfg3.N) (h0 : t.val % 16 = 0) (b : Fin 2) (hb : b.val = t.val / 16) (j : Fin 4096) :
    IsMinBelow cPosInf (fun i : Fin 4096 => dist (colCloud V c) (rowCloud V c) b i j) 256
      ((outsAt3 V c t.val t.isLt : S1x1x4096.Idx → EReal) (ix3 (0 : Fin 1) (0 : Fin 1) j)) := by
  rw [outsAt3_A V c t h0, left_first, store_at, init_at]
  exact IsMinBelow.first cPosInf _ _ (fun r => ⟨r.val, by have := r.isLt; omega⟩) (fun _ => rfl) (by decide)
    (fun r => tile_is_dist V c t b hb r _ (by show r.val = 256 * (t.val % 16) + r.val; omega) j)

/-- A later row tile extends the running minimum by its 256 rows. -/
theorem later_tile (c : Dev nD) (t : Fin cfg3.N) (h0 : ¬t.val % 16 = 0) (b : Fin 2) (hb : b.val = t.val / 16) (j : Fin 4096)
    (ih : IsMinBelow cPosInf (fun i : Fin 4096 => dist (colCloud V c) (rowCloud V c) b i j) (256 * (t.val % 16))
      ((outsAt3 V c (t.val - 1) (Nat.lt_of_le_of_lt (Nat.sub_le _ _) t.isLt) : S1x1x4096.Idx → EReal) (ix3 (0 : Fin 1) (0 : Fin 1) j))) :
    IsMinBelow cPosInf (fun i : Fin 4096 => dist (colCloud V c) (rowCloud V c) b i j) (256 * (t.val % 16) + 256)
      ((outsAt3 V c t.val t.isLt : S1x1x4096.Idx → EReal) (ix3 (0 : Fin 1) (0 : Fin 1) j)) := by
  rw [outsAt3_B V c t h0, left_later, store_at]
  have hlt : t.val % 16 < 16 := Nat.mod_lt _ (by decide)
  exact ih.step _ (fun r => ⟨256 * (t.val % 16) + r.val, by have := r.isLt; omega⟩) (fun _ => rfl)
    (fun r => tile_is_dist V c t b hb r _ rfl j)

/-- After the point `n` the output block holds the minimum over the rows below `256·(n % 16 + 1)`. -/
theorem running_min (c : Dev nD) : ∀ (n : ℕ) (hn : n < cfg3.N) (b : Fin 2), b.val = n / 16 → ∀ j : Fin 4096,
    IsMinBelow cPosInf (fun i : Fin 4096 => dist (colCloud V c) (rowCloud V c) b i j) (256 * (n % 16 + 1))
      ((outsAt3 V c n hn : S1x1x4096.Idx → EReal) (ix3 (0 : Fin 1) (0 : Fin 1) j))
  | 0, hn, b, hb, j => first_tile V c ⟨0, hn⟩ rfl b hb j
  | n + 1, hn, b, hb, j => by
    by_cases h0 : (n + 1) % 16 = 0
    · have := first_tile V c ⟨n + 1, hn⟩ h0 b hb j
      rw [h0]; exact this
    · have ih := running_min c n (Nat.lt_of_succ_lt hn) b (by omega) j
      have e : 256 * (n % 16 + 1) = 256 * ((n + 1) % 16) := by omega
      rw [e] at ih
      have := later_tile V c ⟨n + 1, hn⟩ h0 b hb j ih
      have e' : 256 * ((n + 1) % 16) + 256 = 256 * ((n + 1) % 16 + 1) := by omega
      rw [← e']; exact this

/-! ## The array after the region -/

/-- The column minima as the region's output array `[2, 1, 4096]`. -/
def minArray (s t : Cloud) : S2x1x4096.Idx → EReal := fun i => mind s t (i 0) (i 2)

/-- What a batch's last point writes back is that batch's block of the column minima. -/
theorem flushed_eq (c : Dev nD) (t : Fin cfg3.N) (hf : (cfg3.win 2).flush t = true) :
    (dat3 V c).flushed 2 t = ((cfg3.win 2).blk t).view.read (Elt Ideal) (minArray (colCloud V c) (rowCloud V c)) := by
  have h15 : t.val % 16 = 15 := (flush3_2 t).mp hf
  have hN : t.val < 32 := lt_of_lt_of_eq t.isLt (show cfg3.N = 32 from N_3)
  obtain ⟨-, -, -, -, -, -, e0, e1, e2⟩ := idx_facts t
  show (cfg3.win 2).cut (grid3.coords t) ((dat3 V c).after 2 t) = _
  rw [after3_2]
  refine funext fun (y : S1x1x4096.Idx) => ?_
  have hy : y = ix3 (0 : Fin 1) (0 : Fin 1) (y 2) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)
  obtain ⟨j, rfl⟩ : ∃ j : Fin 4096, y = ix3 (0 : Fin 1) (0 : Fin 1) j := ⟨y 2, hy⟩
  have inv := running_min V c t.val t.isLt ⟨t.val / 16, by omega⟩ rfl j
  rw [show 256 * (t.val % 16 + 1) = 4096 by omega] at inv
  rw [View.read_apply]
  show (outsAt3 V c t.val t.isLt : S1x1x4096.Idx → EReal) (ix3 (0 : Fin 1) (0 : Fin 1) j)
    = mind (colCloud V c) (rowCloud V c) ((((cfg3.win 2).blk t).view.emb (ix3 (0 : Fin 1) (0 : Fin 1) j)) 0)
        ((((cfg3.win 2).blk t).view.emb (ix3 (0 : Fin 1) (0 : Fin 1) j)) 2)
  have eb : (((cfg3.win 2).blk t).view.emb (ix3 (0 : Fin 1) (0 : Fin 1) j)) 0 = (⟨t.val / 16, by omega⟩ : Fin 2) :=
    Fin.ext (by show win3_2.index t (0 : Fin 3) * 1 + 1 * 0 = t.val / 16; omega)
  have ej : (((cfg3.win 2).blk t).view.emb (ix3 (0 : Fin 1) (0 : Fin 1) j)) 2 = j :=
    Fin.ext (by show win3_2.index t (2 : Fin 3) * 4096 + 1 * j.val = j.val; omega)
  rw [eb, ej]
  exact inv.eq_fold

/-- An index of the output array is in a point's block iff each coordinate is in the block's range. -/
theorem mem_blk (t : Fin cfg3.N) (i : S2x1x4096.Idx) :
    i ∈ ((cfg3.win 2).blk t).view.set ↔ ∀ a : Fin 3, win3_2.index t a * S1x1x4096.size a ≤ (i a).val ∧ (i a).val < win3_2.index t a * S1x1x4096.size a + S1x1x4096.size a := by
  show i ∈ ((View.whole main_v11).slice (win3_2.rect t)).set ↔ _
  rw [View.set_slice_whole, Rect.mem_set_unit]
  exact Iff.rfl

/-- Every index of the output array is under the write-back of its batch's last point. -/
theorem covered (i : S2x1x4096.Idx) : ∃ t : Fin cfg3.N, (cfg3.win 2).flush t = true ∧ i ∈ ((cfg3.win 2).blk t).view.set := by
  have h0 : (i 0).val < 2 := (i 0).isLt
  have h1 : (i 1).val < 1 := (i 1).isLt
  have h2 : (i 2).val < 4096 := (i 2).isLt
  refine ⟨⟨16 * (i 0).val + 15, by rw [show cfg3.N = 32 from N_3]; omega⟩, (flush3_2 _).mpr (by show (16 * (i 0).val + 15) % 16 = 15; omega), ?_⟩
  obtain ⟨-, -, -, -, -, -, e0, e1, e2⟩ := idx_facts ⟨16 * (i 0).val + 15, by rw [show cfg3.N = 32 from N_3]; omega⟩
  rw [mem_blk]
  intro a
  match a with
  | ⟨0, _⟩ => show win3_2.index _ (0 : Fin 3) * 1 ≤ (i 0).val ∧ (i 0).val < win3_2.index _ (0 : Fin 3) * 1 + 1; dsimp only at e0; omega
  | ⟨1, _⟩ => show win3_2.index _ (1 : Fin 3) * 1 ≤ (i 1).val ∧ (i 1).val < win3_2.index _ (1 : Fin 3) * 1 + 1; omega
  | ⟨2, _⟩ => show win3_2.index _ (2 : Fin 3) * 4096 ≤ (i 2).val ∧ (i 2).val < win3_2.index _ (2 : Fin 3) * 4096 + 4096; omega

/-- THE ARRAY AFTER THE REGION: the column minima of the clouds the region was entered with. -/
theorem final (c : Dev nD) : (dat3 V c).arrAt 2 cfg3.N = minArray (colCloud V c) (rowCloud V c) :=
  (dat3 V c).arrAt_eq_of_cover 2 (minArray (colCloud V c) (rowCloud V c)) (fun t hf => flushed_eq V c t hf) covered

end Cert.KernelIdeal.PassMin3

end
-- ==== Proof.PassSum4.lean ====
/-
  The second pass of a direction (pallas_call 4): the column totals of the weights.
  The grid is (batch, row tile) as in the first pass; the column minima come in as a third input block; the output
  block `(batch, 0, all columns)` is reset to zero at a batch's first row tile and written back after its last. After
  the point with row tile `k` the block holds, at column `j`, zero plus the sum of the weights `weight b i j` over the
  rows `i < 256·(k+1)` (by induction on the point), so each batch's last point writes back the column totals.
-/
import proofs.«129256_j54339926229668_1_alg».proof.Proof.Gen.KernelIdeal.Frame
import proofs.«129256_j54339926229668_1_alg».proof.Proof.TileA
import Idealize.ShloMosaic.Lib.Pipeline.Value
import Idealize.ShloMosaic.Lib.Tactic

set_option maxRecDepth 16384

noncomputable section

namespace Cert.KernelIdeal.PassSum4

open Cert.KernelIdeal Cert.KernelIdeal.Gen Idealize.ShloMosaic Idealize.ShloMosaic.TcCoe Idealize.ShloMosaic.ValueIdx
open Idealize.SL.Sem ContextualSim Cert.KernelIdeal.TileA
open Idealize.ShloMosaic.Pipeline (Dat)

theorem hz3 : (![0, 0, 0] : Fin 3 → Nat) = fun _ => 0 := funext fun a => by fin_cases a <;> rfl

/-! ## What each case of the body leaves in the output block -/

section AnyValues
variable {F : FTy → Type} [FloatOps F]

/-- A later row tile: the one store's payload over the old block. -/
theorem left_later (c : Dev nD) (i : grid4.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (a5 : Memref sig .tc .vmem S1x1x4096 .f32) (h5 : a5.IsWhole)
    (hc : ¬cond4_0 i) (x0 : Vec F S1x128x4096 .f32) (x1 : Vec F S1x256x128 .f32) (x2 : Vec F S1x1x4096 .f32) (xo : Vec F S1x1x4096 .f32) :
    out4_B_3 c i a2 h2 a3 h3 a4 h4 a5 h5 hc x0 x1 x2 xo = k4_pay1 (k4_pay3 x0 x1 x2) xo := by
  unfold out4_B_3
  rw [View.read_writes_eq_canon _ _ _ (cover4_B_3 c i a2 h2 a3 h3 a4 h4 a5 h5 hc x0 x1 x2 xo)]
  unfold kernelRun4_B
  dsimp only
  sl_unfold_words
  rw [View.canon_unit_zero hz3]
  simp only [View.readAt_eq_ld, h2.read_unread, h3.read_unread, h4.read_unread, h5.read_unread, View.ld_unit_zero (S := S1x128x4096) hz3,
    View.ld_unit_zero (S := S1x256x128) hz3, View.ld_unit_zero (S := S1x1x4096) hz3]

/-- The first row tile: the reset store, read back, under the same payload. -/
theorem left_first (c : Dev nD) (i : grid4.Coords) (a2 : Memref sig .tc .vmem S1x128x4096 .f32) (h2 : a2.IsWhole)
    (a3 : Memref sig .tc .vmem S1x256x128 .f32) (h3 : a3.IsWhole) (a4 : Memref sig .tc .vmem S1x1x4096 .f32) (h4 : a4.IsWhole)
    (a5 : Memref sig .tc .vmem S1x1x4096 .f32) (h5 : a5.IsWhole)
    (hc : cond4_0 i) (x0 : Vec F S1x128x4096 .f32) (x1 : Vec F S1x256x128 .f32) (x2 : Vec F S1x1x4096 .f32) :
    out4_A_3 c i a2 h2 a3 h3 a4 h4 a5 h5 hc x0 x1 x2 = k4_pay1 (k4_pay3 x0 x1 x2) (k4_pay2 (F := F)) := by
  unfold out4_A_3
  rw [View.read_writes_eq_canon _ _ _ (cover4_A_3 c i a2 h2 a3 h3 a4 h4 a5 h5 hc x0 x1 x2)]
  unfold kernelRun4_A
  dsimp only
  sl_unfold_words
  rw [View.canon_cons_unit_zero (S := S1x1x4096) hz3, View.readCov_unit_zero (S := S1x1x4096) _ hz3]
  simp only [View.readAt_eq_ld, h2.read_unread, h3.read_unread, h4.read_unread, View.ld_unit_zero (S := S1x128x4096) hz3,
    View.ld_unit_zero (S := S1x256x128) hz3, View.ld_unit_zero (S := S1x1x4096) hz3]

end AnyValues

/-! ## The windows' blocks, at coordinates -/

variable (V : (c : Dev nD) → (b : Ref sig .tc) → Buf (Elt Ideal) ((c : Thread nD τ).loc b))

/-- The column cloud, the row cloud and the column minima the region reads. -/
def colCloud (c : Dev nD) : Cloud := fun b j ch => (V c main_v1 : S2x128x4096.Idx → EReal) (ix3 b ch j)
def rowCloud (c : Dev nD) : Cloud := fun b i ch => (V c main_v2 : S2x4096x128.Idx → EReal) (ix3 b i ch)
def minIn (c : Dev nD) : Fin 2 → Fin 4096 → EReal := fun b j => (V c main_v11 : S2x1x4096.Idx → EReal) (ix3 b (0 : Fin 1) j)

/-- The printed index maps, decided over the grid. -/
theorem idx_facts : ∀ t : Fin cfg4.N,
    win4_0.index t (0 : Fin 3) = t.val / 16 ∧ win4_0.index t (1 : Fin 3) = 0 ∧ win4_0.index t (2 : Fin 3) = 0
    ∧ win4_1.index t (0 : Fin 3) = t.val / 16 ∧ win4_1.index t (1 : Fin 3) = t.val % 16 ∧ win4_1.index t (2 : Fin 3) = 0
    ∧ win4_2.index t (0 : Fin 3) = t.val / 16 ∧ win4_2.index t (1 : Fin 3) = 0 ∧ win4_2.index t (2 : Fin 3) = 0
    ∧ win4_3.index t (0 : Fin 3) = t.val / 16 ∧ win4_3.index t (1 : Fin 3) = 0 ∧ win4_3.index t (2 : Fin 3) = 0 :=
  (by decide +kernel : ∀ t : Fin grid4.N, _)

theorem colBlock_at (c : Dev nD) (t : Fin cfg4.N) (b : Fin 2) (hb : b.val = t.val / 16) (ch : Fin 128) (j : Fin 4096) :
    (iblk4 V c 0 t : S1x128x4096.Idx → EReal) (ix3 (0 : Fin 1) ch j) = colCloud V c b j ch := by
  obtain ⟨e0, e1, e2, -⟩ := idx_facts t
  unfold iblk4 colCloud
  rw [View.read_apply]
  show V c main_v1 (((cfg4.win 0).blk t).view.emb (ix3 (0 : Fin 1) ch j)) = V c main_v1 (ix3 b ch j)
  refine congrArg (V c main_v1) (funext fun a => Fin.ext ?_)
  match a with
  | ⟨0, _⟩ => show win4_0.index t (0 : Fin 3) * 1 + 1 * 0 = b.val; omega
  | ⟨1, _⟩ => show win4_0.index t (1 : Fin 3) * 128 + 1 * ch.val = ch.val; omega
  | ⟨2, _⟩ => show win4_0.index t (2 : Fin 3) * 4096 + 1 * j.val = j.val; omega

theorem rowBlock_at (c : Dev nD) (t : Fin cfg4.N) (b : Fin 2) (hb : b.val = t.val / 16) (r : Fin 256) (i : Fin 4096)
    (hi : i.val = 256 * (t.val % 16) + r.val) (ch : Fin 128) :
    (iblk4 V c 1 t : S1x256x128.Idx → EReal) (ix3 (0 : Fin 1) r ch) = rowCloud V c b i ch := by
  obtain ⟨-, -, -, e0, e1, e2, -⟩ := idx_facts t
  unfold iblk4 rowCloud
  rw [View.read_apply]
  show V c main_v2 (((cfg4.win 1).blk t).view.emb (ix3 (0 : Fin 1) r ch)) = V c main_v2 (ix3 b i ch)
  refine congrArg (V c main_v2) (funext fun a => Fin.ext ?_)
  match a with
  | ⟨0, _⟩ => show win4_1.index t (0 : Fin 3) * 1 + 1 * 0 = b.val; omega
  | ⟨1, _⟩ => show win4_1.index t (1 : Fin 3) * 256 + 1 * r.val = i.val; omega
  | ⟨2, _⟩ => show win4_1.index t (2 : Fin 3) * 128 + 1 * ch.val = ch.val; omega

theorem minBlock_at (c : Dev nD) (t : Fin cfg4.N) (b : Fin 2) (hb : b.val = t.val / 16) (j : Fin 4096) :
    (iblk4 V c 2 t : S1x1x4096.Idx → EReal) (ix3 (0 : Fin 1) (0 : Fin 1) j) = minIn V c b j := by
  obtain ⟨-, -, -, -, -, -, e0, e1, e2, -⟩ := idx_facts t
  unfold iblk4 minIn
  rw [View.read_apply]
  show V c main_v11 (((cfg4.win 2).blk t).view.emb (ix3 (0 : Fin 1) (0 : Fin 1) j)) = V c main_v11 (ix3 b (0 : Fin 1) j)
  refine congrArg (V c main_v11) (funext fun a => Fin.ext ?_)
  match a with
  | ⟨0, _⟩ => show win4_2.index t (0 : Fin 3) * 1 + 1 * 0 = b.val; omega
  | ⟨1, _⟩ => show win4_2.index t (1 : Fin 3) * 1 + 1 * 0 = 0; omega
  | ⟨2, _⟩ => show win4_2.index t (2 : Fin 3) * 4096 + 1 * j.val = j.val; omega

theorem tile_is_dist (c : Dev nD) (t : Fin cfg4.N) (b : Fin 2) (hb : b.val = t.val / 16) (r : Fin 256) (i : Fin 4096)
    (hi : i.val = 256 * (t.val % 16) + r.val) (j : Fin 4096) :
    tileDist (iblk4 V c 0 t) (iblk4 V c 1 t) (ix2 r j) = dist (colCloud V c) (rowCloud V c) b i j := by
  rw [tileDist_at]
  have e0 : ∀ ch : Fin 128, (iblk4 V c 0 t : S1x128x4096.Idx → EReal) (ix3 (0 : Fin 1) ch j) = colCloud V c b j ch :=
    fun ch => colBlock_at V c t b hb ch j
  have e1 : ∀ ch : Fin 128, (iblk4 V c 1 t : S1x256x128.Idx → EReal) (ix3 (0 : Fin 1) r ch) = rowCloud V c b i ch :=
    fun ch => rowBlock_at V c t b hb r i hi ch
  simp only [e0, e1]
  rfl

/-- The tile's weights are the clouds' weights at the tile's rows. -/
theorem tile_is_weight (c : Dev nD) (t : Fin cfg4.N) (b : Fin 2) (hb : b.val = t.val / 16) (r : Fin 256) (i : Fin 4096)
    (hi : i.val = 256 * (t.val % 16) + r.val) (j : Fin 4096) :
    tileWeight (iblk4 V c 0 t) (iblk4 V c 1 t) (iblk4 V c 2 t) (ix2 r j)
      = weight (colCloud V c) (rowCloud V c) (minIn V c) b i j := by
  rw [tileWeight_at, tile_is_dist V c t b hb r i hi j, minBlock_at V c t b hb j]
  rfl

/-! ## The running total, point by point -/

/-- The store's payload at a column, its first part, and the reset word (the tile-level lemmas, at this region's
    payload names). -/
theorem store_at (v36 : FVec Ideal S1x4096 .f32) (v37 : Vec Ideal S1x1x4096 .f32) (j : Fin 4096) :
    (k4_pay1 v36 v37 : S1x1x4096.Idx → EReal) (ix3 (0 : Fin 1) (0 : Fin 1) j) = v37 (ix3 (0 : Fin 1) (0 : Fin 1) j) + v36 (ix2 (0 : Fin 1) j) :=
  sumStore_at v36 v37 j
theorem part_at (x0 : Vec Ideal S1x128x4096 .f32) (x1 : Vec Ideal S1x256x128 .f32) (mm : Vec Ideal S1x1x4096 .f32) (j : Fin 4096) :
    (k4_pay3 x0 x1 mm : S1x4096.Idx → EReal) (ix2 (0 : Fin 1) j) = ∑ r : Fin 256, tileWeight x0 x1 mm (ix2 r j) :=
  sumPart_at x0 x1 mm j
theorem init_at (i : S1x1x4096.Idx) : (k4_pay2 (F := Ideal) : S1x1x4096.Idx → EReal) i = cZero := rfl

/-- The weights of column `j`, by row. -/
abbrev colWeights (c : Dev nD) (b : Fin 2) (j : Fin 4096) : Fin 4096 → EReal :=
  fun i => weight (colCloud V c) (rowCloud V c) (minIn V c) b i j

theorem first_tile (c : Dev nD) (t : Fin cfg4.N) (h0 : t.val % 16 = 0) (b : Fin 2) (hb : b.val = t.val / 16) (j : Fin 4096) :
    (outsAt4 V c t.val t.isLt : S1x1x4096.Idx → EReal) (ix3 (0 : Fin 1) (0 : Fin 1) j)
      = cZero + ∑ i ∈ Finset.range 256, ext0 (colWeights V c b j) i := by
  rw [outsAt4_A V c t h0, left_first, store_at, part_at, init_at]
  have h := total_step cZero (colWeights V c b j) 0 (fun r : Fin 256 => tileWeight (iblk4 V c 0 t) (iblk4 V c 1 t) (iblk4 V c 2 t) (ix2 r j))
    (fun r => ⟨r.val, by have := r.isLt; omega⟩) (fun r => (Nat.zero_add _).symm)
    (fun r => tile_is_weight V c t b hb r _ (by show r.val = 256 * (t.val % 16) + r.val; omega) j)
  rw [Finset.sum_range_zero, add_zero, Nat.zero_add] at h
  exact h

theorem later_tile (c : Dev nD) (t : Fin cfg4.N) (h0 : ¬t.val % 16 = 0) (b : Fin 2) (hb : b.val = t.val / 16) (j : Fin 4096)
    (ih : (outsAt4 V c (t.val - 1) (Nat.lt_of_le_of_lt (Nat.sub_le _ _) t.isLt) : S1x1x4096.Idx → EReal) (ix3 (0 : Fin 1) (0 : Fin 1) j)
      = cZero + ∑ i ∈ Finset.range (256 * (t.val % 16)), ext0 (colWeights V c b j) i) :
    (outsAt4 V c t.val t.isLt : S1x1x4096.Idx → EReal) (ix3 (0 : Fin 1) (0 : Fin 1) j)
      = cZero + ∑ i ∈ Finset.range (256 * (t.val % 16) + 256), ext0 (colWeights V c b j) i := by
  rw [outsAt4_B V c t h0, left_later, store_at, part_at, ih]
  have hlt : t.val % 16 < 16 := Nat.mod_lt _ (by decide)
  exact total_step cZero (colWeights V c b j) (256 * (t.val % 16)) _
    (fun r => ⟨256 * (t.val % 16) + r.val, by have := r.isLt; omega⟩) (fun _ => rfl)
    (fun r => tile_is_weight V c t b hb r _ rfl j)

theorem running_total (c : Dev nD) : ∀ (n : ℕ) (hn : n < cfg4.N) (b : Fin 2), b.val = n / 16 → ∀ j : Fin 4096,
    (outsAt4 V c n hn : S1x1x4096.Idx → EReal) (ix3 (0 : Fin 1) (0 : Fin 1) j)
      = cZero + ∑ i ∈ Finset.range (256 * (n % 16 + 1)), ext0 (colWeights V c b j) i
  | 0, hn, b, hb, j => first_tile V c ⟨0, hn⟩ rfl b hb j
  | n + 1, hn, b, hb, j => by
    by_cases h0 : (n + 1) % 16 = 0
    · have := first_tile V c ⟨n + 1, hn⟩ h0 b hb j
      rw [h0]; exact this
    · have ih := running_total c n (Nat.lt_of_succ_lt hn) b (by omega) j
      have e : 256 * (n % 16 + 1) = 256 * ((n + 1) % 16) := by omega
      rw [e] at ih
      have := later_tile V c ⟨n + 1, hn⟩ h0 b hb j ih
      have e' : 256 * ((n + 1) % 16) + 256 = 256 * ((n + 1) % 16 + 1) := by omega
      rw [← e']; exact this

/-! ## The array after the region -/

/-- The column totals as the region's output array `[2, 1, 4096]`. -/
def totArray (s t : Cloud) (M : Fin 2 → Fin 4096 → EReal) : S2x1x4096.Idx → EReal := fun i => total s t M (i 0) (i 2)

theorem flushed_eq (c : Dev nD) (t : Fin cfg4.N) (hf : (cfg4.win 3).flush t = true) :
    (dat4 V c).flushed 3 t = ((cfg4.win 3).blk t).view.read (Elt Ideal) (totArray (colCloud V c) (rowCloud V c) (minIn V c)) := by
  have h15 : t.val % 16 = 15 := (flush4_3 t).mp hf
  have hN : t.val < 32 := lt_of_lt_of_eq t.isLt (show cfg4.N = 32 from N_4)
  obtain ⟨-, -, -, -, -, -, -, -, -, e0, e1, e2⟩ := idx_facts t
  show (cfg4.win 3).cut (grid4.coords t) ((dat4 V c).after 3 t) = _
  rw [after4_3]
  refine funext fun (y : S1x1x4096.Idx) => ?_
  have hy : y = ix3 (0 : Fin 1) (0 : Fin 1) (y 2) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)
  obtain ⟨j, rfl⟩ : ∃ j : Fin 4096, y = ix3 (0 : Fin 1) (0 : Fin 1) j := ⟨y 2, hy⟩
  have inv := running_total V c t.val t.isLt ⟨t.val / 16, by omega⟩ rfl j
  rw [show 256 * (t.val % 16 + 1) = 4096 by omega, ← sum_eq_sum_range_ext0] at inv
  rw [View.read_apply]
  show (outsAt4 V c t.val t.isLt : S1x1x4096.Idx → EReal) (ix3 (0 : Fin 1) (0 : Fin 1) j)
    = total (colCloud V c) (rowCloud V c) (minIn V c) ((((cfg4.win 3).blk t).view.emb (ix3 (0 : Fin 1) (0 : Fin 1) j)) 0)
        ((((cfg4.win 3).blk t).view.emb (ix3 (0 : Fin 1) (0 : Fin 1) j)) 2)
  have eb : (((cfg4.win 3).blk t).view.emb (ix3 (0 : Fin 1) (0 : Fin 1) j)) 0 = (⟨t.val / 16, by omega⟩ : Fin 2) :=
    Fin.ext (by show win4_3.index t (0 : Fin 3) * 1 + 1 * 0 = t.val / 16; omega)
  have ej : (((cfg4.win 3).blk t).view.emb (ix3 (0 : Fin 1) (0 : Fin 1) j)) 2 = j :=
    Fin.ext (by show win4_3.index t (2 : Fin 3) * 4096 + 1 * j.val = j.val; omega)
  rw [eb, ej]
  exact inv

theorem mem_blk (t : Fin cfg4.N) (i : S2x1x4096.Idx) :
    i ∈ ((cfg4.win 3).blk t).view.set ↔ ∀ a : Fin 3, win4_3.index t a * S1x1x4096.size a ≤ (i a).val ∧ (i a).val < win4_3.index t a * S1x1x4096.size a + S1x1x4096.size a := by
  show i ∈ ((View.whole main_v12).slice (win4_3.rect t)).set ↔ _
  rw [View.set_slice_whole, Rect.mem_set_unit]
  exact Iff.rfl

theorem covered (i : S2x1x4096.Idx) : ∃ t : Fin cfg4.N, (cfg4.win 3).flush t = true ∧ i ∈ ((cfg4.win 3).blk t).view.set := by
  have h0 : (i 0).val < 2 := (i 0).isLt
  have h1 : (i 1).val < 1 := (i 1).isLt
  have h2 : (i 2).val < 4096 := (i 2).isLt
  refine ⟨⟨16 * (i 0).val + 15, by rw [show cfg4.N = 32 from N_4]; omega⟩, (flush4_3 _).mpr (by show (16 * (i 0).val + 15) % 16 = 15; omega), ?_⟩
  obtain ⟨-, -, -, -, -, -, -, -, -, e0, e1, e2⟩ := idx_facts ⟨16 * (i 0).val + 15, by rw [show cfg4.N = 32 from N_4]; omega⟩
  rw [mem_blk]
  intro a
  match a with
  | ⟨0, _⟩ => show win4_3.index _ (0 : Fin 3) * 1 ≤ (i 0).val ∧ (i 0).val < win4_3.index _ (0 : Fin 3) * 1 + 1; dsimp only at e0; omega
  | ⟨1, _⟩ => show win4_3.index _ (1 : Fin 3) * 1 ≤ (i 1).val ∧ (i 1).val < win4_3.index _ (1 : Fin 3) * 1 + 1; omega
  | ⟨2, _⟩ => show win4_3.index _ (2 : Fin 3) * 4096 ≤ (i 2).val ∧ (i 2).val < win4_3.index _ (2 : Fin 3) * 4096 + 4096; omega

/-- THE ARRAY AFTER THE REGION: the column totals of the weights, for the clouds and the column minima the region was
    entered with. -/
theorem final (c : Dev nD) : (dat4 V c).arrAt 3 cfg4.N = totArray (colCloud V c) (rowCloud V c) (minIn V c) :=
  (dat4 V c).arrAt_eq_of_cover 3 (totArray (colCloud V c) (rowCloud V c) (minIn V c)) (fun t hf => flushed_eq V c t hf) covered

end Cert.KernelIdeal.PassSum4

end
-- ==== Proof.PassMax5.lean ====
/-
  The third pass of a direction (pallas_call 5): the row maxima of the normalized weights.
  The grid is (batch, row tile, column tile): 2 × 8 × 8 points, point `t` is batch `t / 64`, row tile `(t / 8) % 8`,
  column tile `t % 8`; the output block `(batch, row tile, 0)` stays in place across a row tile's 8 column tiles, is reset
  to `-∞` at the first and written back after the last. After the point with column tile `k` the block holds, at row
  `r` of the tile, the maximum of `-∞` and of `weight b i j / Z b j` over the columns `j < 512·(k+1)`, where
  `i = 512·(row tile) + r` (by induction on the point). So each row tile's last point writes back its rows' maxima, and
  the 16 write-backs cover the array.
-/
import proofs.«129256_j54339926229668_1_alg».proof.Proof.Gen.KernelIdeal.Frame
import proofs.«129256_j54339926229668_1_alg».proof.Proof.TileB
import Idealize.ShloMosaic.Lib.Pipeline.Value
import Idealize.ShloMosaic.Lib.Tactic

set_option maxRecDepth 16384

noncomputable section

namespace Cert.KernelIdeal.PassMax5

open Cert.KernelIdeal Cert.KernelIdeal.Gen Idealize.ShloMosaic Idealize.ShloMosaic.TcCoe Idealize.ShloMosaic.ValueIdx
open Idealize.SL.Sem ContextualSim Cert.KernelIdeal.TileB
open Idealize.ShloMosaic.Pipeline (Dat)

theorem hz3 : (![0, 0, 0] : Fin 3 → Nat) = fun _ => 0 := funext fun a => by fin_cases a <;> rfl

/-! ## What each case of the body leaves in the output block -/

section AnyValues
variable {F : FTy → Type} [FloatOps F]

/-- A later column tile: the one store's payload over the old block. -/
theorem left_later (c : Dev nD) (i : grid5.Coords) (a3 : Memref sig .tc .vmem S1x128x512 .f32) (h3 : a3.IsWhole)
    (a4 : Memref sig .tc .vmem S1x512x128 .f32) (h4 : a4.IsWhole) (a5 : Memref sig .tc .vmem S1x1x512 .f32) (h5 : a5.IsWhole)
    (a6 : Memref sig .tc .vmem S1x1x512 .f32) (h6 : a6.IsWhole) (a7 : Memref sig .tc .vmem S1x512x1 .f32) (h7 : a7.IsWhole)
    (hc : ¬cond5_0 i) (x0 : Vec F S1x128x512 .f32) (x1 : Vec F S1x512x128 .f32) (x2 : Vec F S1x1x512 .f32) (x3 : Vec F S1x1x512 .f32)
    (xo : Vec F S1x512x1 .f32) :
    out5_B_4 c i a3 h3 a4 h4 a5 h5 a6 h6 a7 h7 hc x0 x1 x2 x3 xo
      = k5_pay1 (k5_pay3 x3) (k5_pay4 x0 x1 x2) (Scalar.ofBits .f32 0x3F000000#32) xo := by
  unfold out5_B_4
  rw [View.read_writes_eq_canon _ _ _ (cover5_B_4 c i a3 h3 a4 h4 a5 h5 a6 h6 a7 h7 hc x0 x1 x2 x3 xo)]
  unfold kernelRun5_B
  dsimp only
  sl_unfold_words
  rw [View.canon_unit_zero hz3]
  simp only [View.readAt_eq_ld, h3.read_unread, h4.read_unread, h5.read_unread, h6.read_unread, h7.read_unread,
    View.ld_unit_zero (S := S1x128x512) hz3, View.ld_unit_zero (S := S1x512x128) hz3, View.ld_unit_zero (S := S1x1x512) hz3,
    View.ld_unit_zero (S := S1x512x1) hz3]

/-- The first column tile: the reset store, read back, under the same payload. -/
theorem left_first (c : Dev nD) (i : grid5.Coords) (a3 : Memref sig .tc .vmem S1x128x512 .f32) (h3 : a3.IsWhole)
    (a4 : Memref sig .tc .vmem S1x512x128 .f32) (h4 : a4.IsWhole) (a5 : Memref sig .tc .vmem S1x1x512 .f32) (h5 : a5.IsWhole)
    (a6 : Memref sig .tc .vmem S1x1x512 .f32) (h6 : a6.IsWhole) (a7 : Memref sig .tc .vmem S1x512x1 .f32) (h7 : a7.IsWhole)
    (hc : cond5_0 i) (x0 : Vec F S1x128x512 .f32) (x1 : Vec F S1x512x128 .f32) (x2 : Vec F S1x1x512 .f32) (x3 : Vec F S1x1x512 .f32) :
    out5_A_4 c i a3 h3 a4 h4 a5 h5 a6 h6 a7 h7 hc x0 x1 x2 x3
      = k5_pay1 (k5_pay3 x3) (k5_pay4 x0 x1 x2) (Scalar.ofBits .f32 0x3F000000#32) (k5_pay2 (F := F)) := by
  unfold out5_A_4
  rw [View.read_writes_eq_canon _ _ _ (cover5_A_4 c i a3 h3 a4 h4 a5 h5 a6 h6 a7 h7 hc x0 x1 x2 x3)]
  unfold kernelRun5_A
  dsimp only
  sl_unfold_words
  rw [View.canon_cons_unit_zero (S := S1x512x1) hz3, View.readCov_unit_zero (S := S1x512x1) _ hz3]
  simp only [View.readAt_eq_ld, h3.read_unread, h4.read_unread, h5.read_unread, h6.read_unread,
    View.ld_unit_zero (S := S1x128x512) hz3, View.ld_unit_zero (S := S1x512x128) hz3, View.ld_unit_zero (S := S1x1x512) hz3]

end AnyValues

/-! ## The windows' blocks, at coordinates -/

variable (V : (c : Dev nD) → (b : Ref sig .tc) → Buf (Elt Ideal) ((c : Thread nD τ).loc b))

/-- The column cloud, the row cloud, the column minima and the column totals the region reads. -/
def colCloud (c : Dev nD) : Cloud := fun b j ch => (V c main_v1 : S2x128x4096.Idx → EReal) (ix3 b ch j)
def rowCloud (c : Dev nD) : Cloud := fun b i ch => (V c main_v2 : S2x4096x128.Idx → EReal) (ix3 b i ch)
def minIn (c : Dev nD) : Fin 2 → Fin 4096 → EReal := fun b j => (V c main_v11 : S2x1x4096.Idx → EReal) (ix3 b (0 : Fin 1) j)
def totIn (c : Dev nD) : Fin 2 → Fin 4096 → EReal := fun b j => (V c main_v12 : S2x1x4096.Idx → EReal) (ix3 b (0 : Fin 1) j)

/-- The printed index maps, decided over the grid. -/
theorem idx_facts : ∀ t : Fin cfg5.N,
    win5_0.index t (0 : Fin 3) = t.val / 64 ∧ win5_0.index t (1 : Fin 3) = 0 ∧ win5_0.index t (2 : Fin 3) = t.val % 8
    ∧ win5_1.index t (0 : Fin 3) = t.val / 64 ∧ win5_1.index t (1 : Fin 3) = t.val / 8 % 8 ∧ win5_1.index t (2 : Fin 3) = 0
    ∧ win5_2.index t (0 : Fin 3) = t.val / 64 ∧ win5_2.index t (1 : Fin 3) = 0 ∧ win5_2.index t (2 : Fin 3) = t.val % 8
    ∧ win5_3.index t (0 : Fin 3) = t.val / 64 ∧ win5_3.index t (1 : Fin 3) = 0 ∧ win5_3.index t (2 : Fin 3) = t.val % 8
    ∧ win5_4.index t (0 : Fin 3) = t.val / 64 ∧ win5_4.index t (1 : Fin 3) = t.val / 8 % 8 ∧ win5_4.index t (2 : Fin 3) = 0 :=
  (by decide +kernel : ∀ t : Fin grid5.N, _)

theorem colBlock_at (c : Dev nD) (t : Fin cfg5.N) (b : Fin 2) (hb : b.val = t.val / 64) (ch : Fin 128) (jj : Fin 512) (j : Fin 4096)
    (hj : j.val = 512 * (t.val % 8) + jj.val) :
    (iblk5 V c 0 t : S1x128x512.Idx → EReal) (ix3 (0 : Fin 1) ch jj) = colCloud V c b j ch := by
  obtain ⟨e0, e1, e2, -⟩ := idx_facts t
  unfold iblk5 colCloud
  rw [View.read_apply]
  show V c main_v1 (((cfg5.win 0).blk t).view.emb (ix3 (0 : Fin 1) ch jj)) = V c main_v1 (ix3 b ch j)
  refine congrArg (V c main_v1) (funext fun a => Fin.ext ?_)
  match a with
  | ⟨0, _⟩ => show win5_0.index t (0 : Fin 3) * 1 + 1 * 0 = b.val; omega
  | ⟨1, _⟩ => show win5_0.index t (1 : Fin 3) * 128 + 1 * ch.val = ch.val; omega
  | ⟨2, _⟩ => show win5_0.index t (2 : Fin 3) * 512 + 1 * jj.val = j.val; omega

theorem rowBlock_at (c : Dev nD) (t : Fin cfg5.N) (b : Fin 2) (hb : b.val = t.val / 64) (r : Fin 512) (i : Fin 4096)
    (hi : i.val = 512 * (t.val / 8 % 8) + r.val) (ch : Fin 128) :
    (iblk5 V c 1 t : S1x512x128.Idx → EReal) (ix3 (0 : Fin 1) r ch) = rowCloud V c b i ch := by
  obtain ⟨-, -, -, e0, e1, e2, -⟩ := idx_facts t
  unfold iblk5 rowCloud
  rw [View.read_apply]
  show V c main_v2 (((cfg5.win 1).blk t).view.emb (ix3 (0 : Fin 1) r ch)) = V c main_v2 (ix3 b i ch)
  refine congrArg (V c main_v2) (funext fun a => Fin.ext ?_)
  match a with
  | ⟨0, _⟩ => show win5_1.index t (0 : Fin 3) * 1 + 1 * 0 = b.val; omega
  | ⟨1, _⟩ => show win5_1.index t (1 : Fin 3) * 512 + 1 * r.val = i.val; omega
  | ⟨2, _⟩ => show win5_1.index t (2 : Fin 3) * 128 + 1 * ch.val = ch.val; omega

theorem minBlock_at (c : Dev nD) (t : Fin cfg5.N) (b : Fin 2) (hb : b.val = t.val / 64) (jj : Fin 512) (j : Fin 4096)
    (hj : j.val = 512 * (t.val % 8) + jj.val) :
    (iblk5 V c 2 t : S1x1x512.Idx → EReal) (ix3 (0 : Fin 1) (0 : Fin 1) jj) = minIn V c b j := by
  obtain ⟨-, -, -, -, -, -, e0, e1, e2, -⟩ := idx_facts t
  unfold iblk5 minIn
  rw [View.read_apply]
  show V c main_v11 (((cfg5.win 2).blk t).view.emb (ix3 (0 : Fin 1) (0 : Fin 1) jj)) = V c main_v11 (ix3 b (0 : Fin 1) j)
  refine congrArg (V c main_v11) (funext fun a => Fin.ext ?_)
  match a with
  | ⟨0, _⟩ => show win5_2.index t (0 : Fin 3) * 1 + 1 * 0 = b.val; omega
  | ⟨1, _⟩ => show win5_2.index t (1 : Fin 3) * 1 + 1 * 0 = 0; omega
  | ⟨2, _⟩ => show win5_2.index t (2 : Fin 3) * 512 + 1 * jj.val = j.val; omega

theorem totBlock_at (c : Dev nD) (t : Fin cfg5.N) (b : Fin 2) (hb : b.val = t.val / 64) (jj : Fin 512) (j : Fin 4096)
    (hj : j.val = 512 * (t.val % 8) + jj.val) :
    (iblk5 V c 3 t : S1x1x512.Idx → EReal) (ix3 (0 : Fin 1) (0 : Fin 1) jj) = totIn V c b j := by
  obtain ⟨-, -, -, -, -, -, -, -, -, e0, e1, e2, -⟩ := idx_facts t
  unfold iblk5 totIn
  rw [View.read_apply]
  show V c main_v12 (((cfg5.win 3).blk t).view.emb (ix3 (0 : Fin 1) (0 : Fin 1) jj)) = V c main_v12 (ix3 b (0 : Fin 1) j)
  refine congrArg (V c main_v12) (funext fun a => Fin.ext ?_)
  match a with
  | ⟨0, _⟩ => show win5_3.index t (0 : Fin 3) * 1 + 1 * 0 = b.val; omega
  | ⟨1, _⟩ => show win5_3.index t (1 : Fin 3) * 1 + 1 * 0 = 0; omega
  | ⟨2, _⟩ => show win5_3.index t (2 : Fin 3) * 512 + 1 * jj.val = j.val; omega

theorem tile_is_dist (c : Dev nD) (t : Fin cfg5.N) (b : Fin 2) (hb : b.val = t.val / 64) (r : Fin 512) (i : Fin 4096)
    (hi : i.val = 512 * (t.val / 8 % 8) + r.val) (jj : Fin 512) (j : Fin 4096) (hj : j.val = 512 * (t.val % 8) + jj.val) :
    tileDist (iblk5 V c 0 t) (iblk5 V c 1 t) (ix2 r jj) = dist (colCloud V c) (rowCloud V c) b i j := by
  rw [tileDist_at]
  have e0 : ∀ ch : Fin 128, (iblk5 V c 0 t : S1x128x512.Idx → EReal) (ix3 (0 : Fin 1) ch jj) = colCloud V c b j ch :=
    fun ch => colBlock_at V c t b hb ch jj j hj
  have e1 : ∀ ch : Fin 128, (iblk5 V c 1 t : S1x512x128.Idx → EReal) (ix3 (0 : Fin 1) r ch) = rowCloud V c b i ch :=
    fun ch => rowBlock_at V c t b hb r i hi ch
  simp only [e0, e1]
  rfl

/-- The normalized weight of the pair `(i, j)`. -/
abbrev rowRatios (c : Dev nD) (b : Fin 2) (i : Fin 4096) : Fin 4096 → EReal :=
  fun j => Ideal.div (weight (colCloud V c) (rowCloud V c) (minIn V c) b i j) (totIn V c b j)

/-- One entry of the tile's normalized weights is the clouds' at the tile's row and column. -/
theorem tile_is_ratio (c : Dev nD) (t : Fin cfg5.N) (b : Fin 2) (hb : b.val = t.val / 64) (r : Fin 512) (i : Fin 4096)
    (hi : i.val = 512 * (t.val / 8 % 8) + r.val) (jj : Fin 512) (j : Fin 4096) (hj : j.val = 512 * (t.val % 8) + jj.val) :
    Ideal.div (Ideal.exp (Ideal.div (k5_pay4 (iblk5 V c 0 t) (iblk5 V c 1 t) (iblk5 V c 2 t) (ix2 r jj)) (Scalar.ofBits (F := Ideal) .f32 0x3F000000#32)))
        (k5_pay3 (iblk5 V c 3 t) (ix2 (0 : Fin 1) jj))
      = rowRatios V c b i j := by
  rw [show k5_pay4 (iblk5 V c 0 t) (iblk5 V c 1 t) (iblk5 V c 2 t) = tileRatio (iblk5 V c 0 t) (iblk5 V c 1 t) (iblk5 V c 2 t) from rfl,
    show k5_pay3 (iblk5 V c 3 t) = k2_pay3 (iblk5 V c 3 t) from rfl,
    tileRatio_at, totalsPart_at, tile_is_dist V c t b hb r i hi jj j hj, minBlock_at V c t b hb jj j hj, totBlock_at V c t b hb jj j hj]
  rfl

/-! ## The running maximum, point by point -/

theorem store_at (c : Dev nD) (t : Fin cfg5.N) (xo : Vec Ideal S1x512x1 .f32) (r : Fin 512) :
    (k5_pay1 (k5_pay3 (iblk5 V c 3 t)) (k5_pay4 (iblk5 V c 0 t) (iblk5 V c 1 t) (iblk5 V c 2 t)) (Scalar.ofBits .f32 0x3F000000#32) xo
        : S1x512x1.Idx → EReal) (ix3 (0 : Fin 1) r (0 : Fin 1))
      = max (xo (ix3 (0 : Fin 1) r (0 : Fin 1)))
          ((Finset.univ : Finset (Fin 512)).fold max cNegInf (fun jj =>
            Ideal.div (Ideal.exp (Ideal.div (k5_pay4 (iblk5 V c 0 t) (iblk5 V c 1 t) (iblk5 V c 2 t) (ix2 r jj)) (Scalar.ofBits (F := Ideal) .f32 0x3F000000#32)))
              (k5_pay3 (iblk5 V c 3 t) (ix2 (0 : Fin 1) jj)))) :=
  maxStore_at _ _ _ _ r

theorem init_at (i : S1x512x1.Idx) : (k5_pay2 (F := Ideal) : S1x512x1.Idx → EReal) i = cNegInf := rfl

theorem first_tile (c : Dev nD) (t : Fin cfg5.N) (h0 : t.val % 8 = 0) (b : Fin 2) (hb : b.val = t.val / 64) (r : Fin 512) (i : Fin 4096)
    (hi : i.val = 512 * (t.val / 8 % 8) + r.val) :
    IsMaxBelow cNegInf (rowRatios V c b i) 512
      ((outsAt5 V c t.val t.isLt : S1x512x1.Idx → EReal) (ix3 (0 : Fin 1) r (0 : Fin 1))) := by
  rw [outsAt5_A V c t h0, left_first, store_at, init_at]
  exact IsMaxBelow.first cNegInf _ _ (fun jj => ⟨jj.val, by have := jj.isLt; omega⟩) (fun _ => rfl)
    (fun jj => tile_is_ratio V c t b hb r i hi jj _ (by show jj.val = 512 * (t.val % 8) + jj.val; omega))

theorem later_tile (c : Dev nD) (t : Fin cfg5.N) (h0 : ¬t.val % 8 = 0) (b : Fin 2) (hb : b.val = t.val / 64) (r : Fin 512) (i : Fin 4096)
    (hi : i.val = 512 * (t.val / 8 % 8) + r.val)
    (ih : IsMaxBelow cNegInf (rowRatios V c b i) (512 * (t.val % 8))
      ((outsAt5 V c (t.val - 1) (Nat.lt_of_le_of_lt (Nat.sub_le _ _) t.isLt) : S1x512x1.Idx → EReal) (ix3 (0 : Fin 1) r (0 : Fin 1)))) :
    IsMaxBelow cNegInf (rowRatios V c b i) (512 * (t.val % 8) + 512)
      ((outsAt5 V c t.val t.isLt : S1x512x1.Idx → EReal) (ix3 (0 : Fin 1) r (0 : Fin 1))) := by
  rw [outsAt5_B V c t h0, left_later, store_at]
  have hlt : t.val % 8 < 8 := Nat.mod_lt _ (by decide)
  exact ih.step _ (fun jj => ⟨512 * (t.val % 8) + jj.val, by have := jj.isLt; omega⟩) (fun _ => rfl)
    (fun jj => tile_is_ratio V c t b hb r i hi jj _ rfl)

theorem running_max (c : Dev nD) : ∀ (n : ℕ) (hn : n < cfg5.N) (b : Fin 2), b.val = n / 64 → ∀ (r : Fin 512) (i : Fin 4096),
    i.val = 512 * (n / 8 % 8) + r.val →
    IsMaxBelow cNegInf (rowRatios V c b i) (512 * (n % 8 + 1))
      ((outsAt5 V c n hn : S1x512x1.Idx → EReal) (ix3 (0 : Fin 1) r (0 : Fin 1)))
  | 0, hn, b, hb, r, i, hi => first_tile V c ⟨0, hn⟩ rfl b hb r i hi
  | n + 1, hn, b, hb, r, i, hi => by
    by_cases h0 : (n + 1) % 8 = 0
    · have := first_tile V c ⟨n + 1, hn⟩ h0 b hb r i hi
      rw [h0]; exact this
    · have ih := running_max c n (Nat.lt_of_succ_lt hn) b (by omega) r i (by omega)
      have e : 512 * (n % 8 + 1) = 512 * ((n + 1) % 8) := by omega
      rw [e] at ih
      have := later_tile V c ⟨n + 1, hn⟩ h0 b hb r i hi ih
      have e' : 512 * ((n + 1) % 8) + 512 = 512 * ((n + 1) % 8 + 1) := by omega
      rw [← e']; exact this

/-! ## The array after the region -/

/-- The row maxima as the region's output array `[2, 4096, 1]`. -/
def bestArray (s t : Cloud) (M Z : Fin 2 → Fin 4096 → EReal) : S2x4096x1.Idx → EReal := fun i => best s t M Z (i 0) (i 1)

theorem flushed_eq (c : Dev nD) (t : Fin cfg5.N) (hf : (cfg5.win 4).flush t = true) :
    (dat5 V c).flushed 4 t
      = ((cfg5.win 4).blk t).view.read (Elt Ideal) (bestArray (colCloud V c) (rowCloud V c) (minIn V c) (totIn V c)) := by
  have h7 : t.val % 8 = 7 := (flush5_4 t).mp hf
  have hN : t.val < 128 := lt_of_lt_of_eq t.isLt (show cfg5.N = 128 from N_5)
  obtain ⟨-, -, -, -, -, -, -, -, -, -, -, -, e0, e1, e2⟩ := idx_facts t
  show (cfg5.win 4).cut (grid5.coords t) ((dat5 V c).after 4 t) = _
  rw [after5_4]
  refine funext fun (y : S1x512x1.Idx) => ?_
  have hy : y = ix3 (0 : Fin 1) (y 1) (0 : Fin 1) := funext fun a => Fin.ext (by
    match a with
    | ⟨0, _⟩ => have h : (y 0).val < 1 := (y 0).isLt; show (y 0).val = 0; omega
    | ⟨1, _⟩ => rfl
    | ⟨2, _⟩ => have h : (y 2).val < 1 := (y 2).isLt; show (y 2).val = 0; omega)
  obtain ⟨r, rfl⟩ : ∃ r : Fin 512, y = ix3 (0 : Fin 1) r (0 : Fin 1) := ⟨y 1, hy⟩
  have hr : r.val < 512 := r.isLt
  have inv := running_max V c t.val t.isLt ⟨t.val / 64, by omega⟩ rfl r ⟨512 * (t.val / 8 % 8) + r.val, by omega⟩ rfl
  rw [show 512 * (t.val % 8 + 1) = 4096 by omega] at inv
  rw [View.read_apply]
  show (outsAt5 V c t.val t.isLt : S1x512x1.Idx → EReal) (ix3 (0 : Fin 1) r (0 : Fin 1))
    = best (colCloud V c) (rowCloud V c) (minIn V c) (totIn V c) ((((cfg5.win 4).blk t).view.emb (ix3 (0 : Fin 1) r (0 : Fin 1))) 0)
        ((((cfg5.win 4).blk t).view.emb (ix3 (0 : Fin 1) r (0 : Fin 1))) 1)
  have eb : (((cfg5.win 4).blk t).view.emb (ix3 (0 : Fin 1) r (0 : Fin 1))) 0 = (⟨t.val / 64, by omega⟩ : Fin 2) :=
    Fin.ext (by show win5_4.index t (0 : Fin 3) * 1 + 1 * 0 = t.val / 64; omega)
  have ei : (((cfg5.win 4).blk t).view.emb (ix3 (0 : Fin 1) r (0 : Fin 1))) 1 = (⟨512 * (t.val / 8 % 8) + r.val, by omega⟩ : Fin 4096) :=
    Fin.ext (by show win5_4.index t (1 : Fin 3) * 512 + 1 * r.val = 512 * (t.val / 8 % 8) + r.val; omega)
  rw [eb, ei]
  exact inv.eq_fold

theorem mem_blk (t : Fin cfg5.N) (i : S2x4096x1.Idx) :
    i ∈ ((cfg5.win 4).blk t).view.set ↔ ∀ a : Fin 3, win5_4.index t a * S1x512x1.size a ≤ (i a).val ∧ (i a).val < win5_4.index t a * S1x512x1.size a + S1x512x1.size a := by
  show i ∈ ((View.whole main_v13).slice (win5_4.rect t)).set ↔ _
  rw [View.set_slice_whole, Rect.mem_set_unit]
  exact Iff.rfl

theorem covered (i : S2x4096x1.Idx) : ∃ t : Fin cfg5.N, (cfg5.win 4).flush t = true ∧ i ∈ ((cfg5.win 4).blk t).view.set := by
  have h0 : (i 0).val < 2 := (i 0).isLt
  have h1 : (i 1).val < 4096 := (i 1).isLt
  have h2 : (i 2).val < 1 := (i 2).isLt
  have hlt : 64 * (i 0).val + 8 * ((i 1).val / 512) + 7 < cfg5.N := by rw [show cfg5.N = 128 from N_5]; omega
  refine ⟨⟨64 * (i 0).val + 8 * ((i 1).val / 512) + 7, hlt⟩, (flush5_4 _).mpr (by show (64 * (i 0).val + 8 * ((i 1).val / 512) + 7) % 8 = 7; omega), ?_⟩
  obtain ⟨-, -, -, -, -, -, -, -, -, -, -, -, e0, e1, e2⟩ := idx_facts ⟨64 * (i 0).val + 8 * ((i 1).val / 512) + 7, hlt⟩
  dsimp only at e0 e1 e2
  rw [mem_blk]
  intro a
  match a with
  | ⟨0, _⟩ => show win5_4.index _ (0 : Fin 3) * 1 ≤ (i 0).val ∧ (i 0).val < win5_4.index _ (0 : Fin 3) * 1 + 1; omega
  | ⟨1, _⟩ => show win5_4.index _ (1 : Fin 3) * 512 ≤ (i 1).val ∧ (i 1).val < win5_4.index _ (1 : Fin 3) * 512 + 512; omega
  | ⟨2, _⟩ => show win5_4.index _ (2 : Fin 3) * 1 ≤ (i 2).val ∧ (i 2).val < win5_4.index _ (2 : Fin 3) * 1 + 1; omega

/-- THE ARRAY AFTER THE REGION: the row maxima of the normalized weights, for the clouds, the column minima and the
    column totals the region was entered with. -/
theorem final (c : Dev nD) :
    (dat5 V c).arrAt 4 cfg5.N = bestArray (colCloud V c) (rowCloud V c) (minIn V c) (totIn V c) :=
  (dat5 V c).arrAt_eq_of_cover 4 (bestArray (colCloud V c) (rowCloud V c) (minIn V c) (totIn V c)) (fun t hf => flushed_eq V c t hf) covered

end Cert.KernelIdeal.PassMax5

end
-- ==== Proof.KernelValue.lean ====
/-
  The whole idealized kernel program, read: two directions of three passes each, among host operations.
  Before the first pass the host reshapes each argument to (batch, channel, point) and transposes it to
  (batch, point, channel); direction 1 takes argument 0's points as the column cloud and argument 1's as the row cloud,
  direction 2 the other way round. Each pass's output array is the specification's column minima, column totals and
  row maxima of the arrays the pass was entered with; an array a pass only reads, and every array it does not touch,
  is carried unchanged to the next boundary. After each direction the host takes the mean over the rows of the row
  maxima, and at the end the mean of the negated logarithms over the batch, for each direction, and their half-sum.
-/
import proofs.«129256_j54339926229668_1_alg».proof.Proof.PassMin0
import proofs.«129256_j54339926229668_1_alg».proof.Proof.PassSum1
import proofs.«129256_j54339926229668_1_alg».proof.Proof.PassMax2
import proofs.«129256_j54339926229668_1_alg».proof.Proof.PassMin3
import proofs.«129256_j54339926229668_1_alg».proof.Proof.PassSum4
import proofs.«129256_j54339926229668_1_alg».proof.Proof.PassMax5
import Idealize.ShloMosaic.Lib.StableHlo.Run
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.ShloMosaic.ValueIdx
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ContextualSim

variable (m : (ℓ : Loc nD τ sig) → Buf (Elt Ideal) ℓ) (ρ : Dev nD → PrngReg)

local notation "𝕄" => MT nD τ sig Unit (Elt Ideal) ℕ (UR sig nD τ) ℕ

/-! ## The run, with the result read at the last boundary -/

set_option backward.isDefEq.respectTransparency.types false in
/-- Every weakly fair execution of @main terminates, nothing faulting, with the result buffer at the last boundary's
    contents and the arguments as launched. -/
theorem run_result : θ_run defs (onTc (τ := τ) (main (F := Ideal))) ⟨m, fun _ => 0, ρ⟩ (fun r => ∀ c : Dev nD,
      r.2.mem ((c.tc : Thread nD τ).loc main_v27) = W9 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v27 (by decide)),
       (h c _ (mem_uc main_arg0 (by decide))).trans (W9_main_arg0 m ρ c),
       (h c _ (mem_uc main_arg1 (by decide))).trans (W9_main_arg1 m ρ c)⟩)

/-! ## The arrays before the first pass -/

/-- Argument `k` reshaped to (batch, channel, point), and that transposed to (batch, point, channel). -/
abbrev flat0 (c : Dev nD) : S2x128x4096.Idx → EReal :=
  shapeCast S2x128x4096 (m ((c.tc : Thread nD τ).loc main_arg0)) shapeCasts_S2x128x64x64_S2x128x4096
abbrev flat1 (c : Dev nD) : S2x128x4096.Idx → EReal :=
  shapeCast S2x128x4096 (m ((c.tc : Thread nD τ).loc main_arg1)) shapeCasts_S2x128x64x64_S2x128x4096
abbrev flatT0 (c : Dev nD) : S2x4096x128.Idx → EReal :=
  transpose S2x4096x128 [0, 2, 1] (flat0 m c) transposes_S2x128x4096_S2x4096x128_0_2_1
abbrev flatT1 (c : Dev nD) : S2x4096x128.Idx → EReal :=
  transpose S2x4096x128 [0, 2, 1] (flat1 m c) transposes_S2x128x4096_S2x4096x128_0_2_1

theorem V1_v0 (c : Dev nD) : (V1 m ρ c main_v0 : S2x128x4096.Idx → EReal) = flat0 m c := by
  show StableHlo.after hostOps0 (W0 m ρ c) (Proc.devRef .tc main_v0) = _
  after_results
  rfl
theorem V1_v1 (c : Dev nD) : (V1 m ρ c main_v1 : S2x128x4096.Idx → EReal) = flat1 m c := by
  show StableHlo.after hostOps0 (W0 m ρ c) (Proc.devRef .tc main_v1) = _
  after_results
  rfl
theorem V1_v2 (c : Dev nD) : (V1 m ρ c main_v2 : S2x4096x128.Idx → EReal) = flatT0 m c := by
  show StableHlo.after hostOps0 (W0 m ρ c) (Proc.devRef .tc main_v2) = _
  after_results
  rfl
theorem V1_v3 (c : Dev nD) : (V1 m ρ c main_v3 : S2x4096x128.Idx → EReal) = flatT1 m c := by
  show StableHlo.after hostOps0 (W0 m ρ c) (Proc.devRef .tc main_v3) = _
  after_results
  rfl

/-- The four clouds. -/
def cloudCol0 (c : Dev nD) : Cloud := fun b j ch => flat0 m c (ix3 b ch j)
def cloudCol1 (c : Dev nD) : Cloud := fun b j ch => flat1 m c (ix3 b ch j)
def cloudRow0 (c : Dev nD) : Cloud := fun b i ch => flatT0 m c (ix3 b i ch)
def cloudRow1 (c : Dev nD) : Cloud := fun b i ch => flatT1 m c (ix3 b i ch)

/-! ## Direction 1: the three passes -/

/-- A pass's input arrays are carried unchanged through it. -/
theorem V2_in (c : Dev nD) (w : Fin cfg0.W) (hin : (cfg0.win w).isOut = false) :
    V2 m ρ c (Pipeline.arrRef spec0 w) = V1 m ρ c (Pipeline.arrRef spec0 w) :=
  (W2_arr m ρ c w).trans (((dat0 (V1 m ρ) c).arrAt_in w hin _).trans (A_eq0 (V1 m ρ) c w))
theorem V3_in (c : Dev nD) (w : Fin cfg1.W) (hin : (cfg1.win w).isOut = false) :
    V3 m ρ c (Pipeline.arrRef spec1 w) = V2 m ρ c (Pipeline.arrRef spec1 w) :=
  (W3_arr m ρ c w).trans (((dat1 (V2 m ρ) c).arrAt_in w hin _).trans (A_eq1 (V2 m ρ) c w))

theorem V2_v0 (c : Dev nD) : (V2 m ρ c main_v0 : S2x128x4096.Idx → EReal) = flat0 m c := (V2_in m ρ c 0 rfl).trans (V1_v0 m ρ c)
theorem V2_v3 (c : Dev nD) : (V2 m ρ c main_v3 : S2x4096x128.Idx → EReal) = flatT1 m c := (V2_in m ρ c 1 rfl).trans (V1_v3 m ρ c)
theorem V3_v0 (c : Dev nD) : (V3 m ρ c main_v0 : S2x128x4096.Idx → EReal) = flat0 m c := (V3_in m ρ c 0 rfl).trans (V2_v0 m ρ c)
theorem V3_v3 (c : Dev nD) : (V3 m ρ c main_v3 : S2x4096x128.Idx → EReal) = flatT1 m c := (V3_in m ρ c 1 rfl).trans (V2_v3 m ρ c)

/-- After the first pass: the column minima. -/
theorem V2_v4 (c : Dev nD) : (V2 m ρ c main_v4 : S2x1x4096.Idx → EReal)
    = PassMin0.minArray (cloudCol0 m c) (cloudRow1 m c) := by
  have hc : PassMin0.colCloud (V1 m ρ) c = cloudCol0 m c :=
    funext fun b => funext fun j => funext fun ch => congrFun (V1_v0 m ρ c) (ix3 b ch j)
  have hr : PassMin0.rowCloud (V1 m ρ) c = cloudRow1 m c :=
    funext fun b => funext fun i => funext fun ch => congrFun (V1_v3 m ρ c) (ix3 b i ch)
  exact (W2_arr m ρ c 2).trans ((PassMin0.final (V1 m ρ) c).trans (by rw [hc, hr]))
theorem V3_v4 (c : Dev nD) : (V3 m ρ c main_v4 : S2x1x4096.Idx → EReal)
    = PassMin0.minArray (cloudCol0 m c) (cloudRow1 m c) := (V3_in m ρ c 2 rfl).trans (V2_v4 m ρ c)

/-- After the second pass: the column totals. -/
theorem V3_v5 (c : Dev nD) : (V3 m ρ c main_v5 : S2x1x4096.Idx → EReal)
    = PassSum1.totArray (cloudCol0 m c) (cloudRow1 m c) (mind (cloudCol0 m c) (cloudRow1 m c)) := by
  have hc : PassSum1.colCloud (V2 m ρ) c = cloudCol0 m c :=
    funext fun b => funext fun j => funext fun ch => congrFun (V2_v0 m ρ c) (ix3 b ch j)
  have hr : PassSum1.rowCloud (V2 m ρ) c = cloudRow1 m c :=
    funext fun b => funext fun i => funext fun ch => congrFun (V2_v3 m ρ c) (ix3 b i ch)
  have hm : PassSum1.minIn (V2 m ρ) c = mind (cloudCol0 m c) (cloudRow1 m c) :=
    funext fun b => funext fun j => congrFun (V2_v4 m ρ c) (ix3 b (0 : Fin 1) j)
  exact (W3_arr m ρ c 3).trans ((PassSum1.final (V2 m ρ) c).trans (by rw [hc, hr, hm]))

/-- After the third pass: the row maxima. -/
def best1 (c : Dev nD) : S2x4096x1.Idx → EReal :=
  PassMax2.bestArray (cloudCol0 m c) (cloudRow1 m c) (mind (cloudCol0 m c) (cloudRow1 m c))
    (total (cloudCol0 m c) (cloudRow1 m c) (mind (cloudCol0 m c) (cloudRow1 m c)))

theorem W4_v6 (c : Dev nD) : (W4 m ρ c (Proc.devRef .tc main_v6) : S2x4096x1.Idx → EReal) = best1 m c := by
  have hc : PassMax2.colCloud (V3 m ρ) c = cloudCol0 m c :=
    funext fun b => funext fun j => funext fun ch => congrFun (V3_v0 m ρ c) (ix3 b ch j)
  have hr : PassMax2.rowCloud (V3 m ρ) c = cloudRow1 m c :=
    funext fun b => funext fun i => funext fun ch => congrFun (V3_v3 m ρ c) (ix3 b i ch)
  have hm : PassMax2.minIn (V3 m ρ) c = mind (cloudCol0 m c) (cloudRow1 m c) :=
    funext fun b => funext fun j => congrFun (V3_v4 m ρ c) (ix3 b (0 : Fin 1) j)
  have hz : PassMax2.totIn (V3 m ρ) c = total (cloudCol0 m c) (cloudRow1 m c) (mind (cloudCol0 m c) (cloudRow1 m c)) :=
    funext fun b => funext fun j => congrFun (V3_v5 m ρ c) (ix3 b (0 : Fin 1) j)
  exact (W4_arr m ρ c 4).trans ((PassMax2.final (V3 m ρ) c).trans (by rw [hc, hr, hm, hz]; rfl))

/-! ## Between the directions -/

/-- The mean over the rows of a `[2, 4096, 1]` array of row maxima. -/
def rowMean (X : S2x4096x1.Idx → EReal) : S2.Idx → EReal :=
  Host.divf (F := Ideal) (Host.reduceAdd (F := Ideal) (shapeCast S2x4096 X shapeCasts_S2x4096x1_S2x4096) (constant (F := Ideal) S_ .f32 0x00000000#32) reducesTo_S2x4096_S2_d1 h_S_)
    (broadcastInDim S2 ![] bcast_S_S2 (constant (F := Ideal) S_ .f32 0x45800000#32))

theorem W5_v10 (c : Dev nD) : (W5 m ρ c (Proc.devRef .tc main_v10) : S2.Idx → EReal) = rowMean (best1 m c) := by
  show StableHlo.after hostOps3 (W4 m ρ c) (Proc.devRef .tc main_v10) = _
  after_results
  rw [W4_v6]
  rfl

/-- The host operations between the directions leave the reshaped and transposed arguments alone, and so did the
    first direction's passes. -/
theorem V5_v1 (c : Dev nD) : (V5 m ρ c main_v1 : S2x128x4096.Idx → EReal) = flat1 m c := by
  have e5 : W5 m ρ c (Proc.devRef .tc main_v1) = W4 m ρ c (Proc.devRef .tc main_v1) := by
    show StableHlo.after hostOps3 (W4 m ρ c) (Proc.devRef .tc main_v1) = _
    after_results
  exact e5.trans ((W4_of_ne m ρ c main_v1 (by decide)).trans ((W3_of_ne m ρ c main_v1 (by decide)).trans
    ((W2_of_ne m ρ c main_v1 (by decide)).trans (V1_v1 m ρ c))))
theorem V5_v2 (c : Dev nD) : (V5 m ρ c main_v2 : S2x4096x128.Idx → EReal) = flatT0 m c := by
  have e5 : W5 m ρ c (Proc.devRef .tc main_v2) = W4 m ρ c (Proc.devRef .tc main_v2) := by
    show StableHlo.after hostOps3 (W4 m ρ c) (Proc.devRef .tc main_v2) = _
    after_results
  exact e5.trans ((W4_of_ne m ρ c main_v2 (by decide)).trans ((W3_of_ne m ρ c main_v2 (by decide)).trans
    ((W2_of_ne m ρ c main_v2 (by decide)).trans (V1_v2 m ρ c))))

/-! ## Direction 2: the three passes -/

theorem V6_in (c : Dev nD) (w : Fin cfg3.W) (hin : (cfg3.win w).isOut = false) :
    V6 m ρ c (Pipeline.arrRef spec3 w) = V5 m ρ c (Pipeline.arrRef spec3 w) :=
  (W6_arr m ρ c w).trans (((dat3 (V5 m ρ) c).arrAt_in w hin _).trans (A_eq3 (V5 m ρ) c w))
theorem V7_in (c : Dev nD) (w : Fin cfg4.W) (hin : (cfg4.win w).isOut = false) :
    V7 m ρ c (Pipeline.arrRef spec4 w) = V6 m ρ c (Pipeline.arrRef spec4 w) :=
  (W7_arr m ρ c w).trans (((dat4 (V6 m ρ) c).arrAt_in w hin _).trans (A_eq4 (V6 m ρ) c w))

theorem V6_v1 (c : Dev nD) : (V6 m ρ c main_v1 : S2x128x4096.Idx → EReal) = flat1 m c := (V6_in m ρ c 0 rfl).trans (V5_v1 m ρ c)
theorem V6_v2 (c : Dev nD) : (V6 m ρ c main_v2 : S2x4096x128.Idx → EReal) = flatT0 m c := (V6_in m ρ c 1 rfl).trans (V5_v2 m ρ c)
theorem V7_v1 (c : Dev nD) : (V7 m ρ c main_v1 : S2x128x4096.Idx → EReal) = flat1 m c := (V7_in m ρ c 0 rfl).trans (V6_v1 m ρ c)
theorem V7_v2 (c : Dev nD) : (V7 m ρ c main_v2 : S2x4096x128.Idx → EReal) = flatT0 m c := (V7_in m ρ c 1 rfl).trans (V6_v2 m ρ c)

theorem V6_v11 (c : Dev nD) : (V6 m ρ c main_v11 : S2x1x4096.Idx → EReal)
    = PassMin3.minArray (cloudCol1 m c) (cloudRow0 m c) := by
  have hc : PassMin3.colCloud (V5 m ρ) c = cloudCol1 m c :=
    funext fun b => funext fun j => funext fun ch => congrFun (V5_v1 m ρ c) (ix3 b ch j)
  have hr : PassMin3.rowCloud (V5 m ρ) c = cloudRow0 m c :=
    funext fun b => funext fun i => funext fun ch => congrFun (V5_v2 m ρ c) (ix3 b i ch)
  exact (W6_arr m ρ c 2).trans ((PassMin3.final (V5 m ρ) c).trans (by rw [hc, hr]))
theorem V7_v11 (c : Dev nD) : (V7 m ρ c main_v11 : S2x1x4096.Idx → EReal)
    = PassMin3.minArray (cloudCol1 m c) (cloudRow0 m c) := (V7_in m ρ c 2 rfl).trans (V6_v11 m ρ c)

theorem V7_v12 (c : Dev nD) : (V7 m ρ c main_v12 : S2x1x4096.Idx → EReal)
    = PassSum4.totArray (cloudCol1 m c) (cloudRow0 m c) (mind (cloudCol1 m c) (cloudRow0 m c)) := by
  have hc : PassSum4.colCloud (V6 m ρ) c = cloudCol1 m c :=
    funext fun b => funext fun j => funext fun ch => congrFun (V6_v1 m ρ c) (ix3 b ch j)
  have hr : PassSum4.rowCloud (V6 m ρ) c = cloudRow0 m c :=
    funext fun b => funext fun i => funext fun ch => congrFun (V6_v2 m ρ c) (ix3 b i ch)
  have hm : PassSum4.minIn (V6 m ρ) c = mind (cloudCol1 m c) (cloudRow0 m c) :=
    funext fun b => funext fun j => congrFun (V6_v11 m ρ c) (ix3 b (0 : Fin 1) j)
  exact (W7_arr m ρ c 3).trans ((PassSum4.final (V6 m ρ) c).trans (by rw [hc, hr, hm]))

def best2 (c : Dev nD) : S2x4096x1.Idx → EReal :=
  PassMax5.bestArray (cloudCol1 m c) (cloudRow0 m c) (mind (cloudCol1 m c) (cloudRow0 m c))
    (total (cloudCol1 m c) (cloudRow0 m c) (mind (cloudCol1 m c) (cloudRow0 m c)))

theorem W8_v13 (c : Dev nD) : (W8 m ρ c (Proc.devRef .tc main_v13) : S2x4096x1.Idx → EReal) = best2 m c := by
  have hc : PassMax5.colCloud (V7 m ρ) c = cloudCol1 m c :=
    funext fun b => funext fun j => funext fun ch => congrFun (V7_v1 m ρ c) (ix3 b ch j)
  have hr : PassMax5.rowCloud (V7 m ρ) c = cloudRow0 m c :=
    funext fun b => funext fun i => funext fun ch => congrFun (V7_v2 m ρ c) (ix3 b i ch)
  have hm : PassMax5.minIn (V7 m ρ) c = mind (cloudCol1 m c) (cloudRow0 m c) :=
    funext fun b => funext fun j => congrFun (V7_v11 m ρ c) (ix3 b (0 : Fin 1) j)
  have hz : PassMax5.totIn (V7 m ρ) c = total (cloudCol1 m c) (cloudRow0 m c) (mind (cloudCol1 m c) (cloudRow0 m c)) :=
    funext fun b => funext fun j => congrFun (V7_v12 m ρ c) (ix3 b (0 : Fin 1) j)
  exact (W8_arr m ρ c 4).trans ((PassMax5.final (V7 m ρ) c).trans (by rw [hc, hr, hm, hz]; rfl))

/-- The first direction's row means pass the second direction untouched. -/
theorem W8_v10 (c : Dev nD) : (W8 m ρ c (Proc.devRef .tc main_v10) : S2.Idx → EReal) = rowMean (best1 m c) :=
  (W8_of_ne m ρ c main_v10 (by decide)).trans ((W7_of_ne m ρ c main_v10 (by decide)).trans
    ((W6_of_ne m ρ c main_v10 (by decide)).trans (W5_v10 m ρ c)))

/-! ## The result -/

/-- The mean over the batch of the negated logarithms of a direction's row means. -/
def negLogMean (Y : S2.Idx → EReal) : S_.Idx → EReal :=
  Host.divf (F := Ideal) (Host.reduceAdd (F := Ideal) (Host.negf (F := Ideal) (Host.log (F := Ideal) Y)) (constant (F := Ideal) S_ .f32 0x00000000#32) reducesTo_S2_S_d0 h_S_)
    (constant (F := Ideal) S_ .f32 0x40000000#32)

/-- The symmetric loss of the two directions' row maxima. -/
def lossOf (X1 X2 : S2x4096x1.Idx → EReal) : S_.Idx → EReal :=
  Host.divf (F := Ideal) (addf (F := Ideal) (negLogMean (rowMean X1)) (negLogMean (rowMean X2))) (constant (F := Ideal) S_ .f32 0x40000000#32)

theorem W9_v27 (c : Dev nD) : (W9 m ρ c (Proc.devRef .tc main_v27) : S_.Idx → EReal) = lossOf (best1 m c) (best2 m c) := by
  show StableHlo.after hostOps6 (W8 m ρ c) (Proc.devRef .tc main_v27) = _
  after_results
  rw [W8_v10, W8_v13]
  rfl

/-- THE KERNEL'S RUN, READ: the result is the symmetric loss of the two directions' row maxima. -/
theorem run : θ_run defs (onTc (τ := τ) (main (F := Ideal))) ⟨m, fun _ => 0, ρ⟩ (fun r => ∀ c : Dev nD,
      r.2.mem ((c.tc : Thread nD τ).loc main_v27) = lossOf (best1 m c) (best2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (W9_v27 m ρ c), (h c).2⟩) (run_result m ρ)

end Cert.KernelIdeal.Whole

end
-- ==== Proof.RefStages.lean ====
/-
  The reference, stage by stage, is the specification: for each direction the reshaped and transposed arguments are the
  two clouds, and the host's multiplies, sums, contraction, minimum-reduce, exponential, sum and maximum-reduce, read at
  coordinates, are `sqn`, `inner`, `dist`, `mind`, `weight`, `total` and `best` of those clouds. The host's sums
  start from the zero word, which is `0`; its two fold-reduces are folds of `min` / `max` from their initial words.
-/
import proofs.«129256_j54339926229668_1_alg».proof.Proof.Gen.ReferenceIdeal.Read
import proofs.«129256_j54339926229668_1_alg».proof.Proof.SimSpec
import Idealize.ShloMosaic.Lib.ValueIdx
import Idealize.ShloMosaic.PureOps.Ideal.Laws
import Idealize.ShloMosaic.PureOps.Reduce

noncomputable section

namespace Cert.ReferenceIdeal.Stage

open Cert.ReferenceIdeal Cert.ReferenceIdeal.Gen Cert.ReferenceIdeal.Read Idealize.ShloMosaic Idealize.ShloMosaic.ValueIdx ContextualSim

/-! ## Direction 1: the column cloud is argument 0's points, the row cloud argument 1's -/

/-- The column cloud: the reshaped argument read (batch, channel, point). -/
def colCloud1 (x0 : (⟨S2x128x64x64, .f32⟩ : BufTy).Contents (Elt Ideal)) : Cloud :=
  fun b j ch => val_main_v0 (F := Ideal) x0 (ix3 b ch j)
/-- The row cloud: the reshaped and transposed argument read (batch, point, channel). -/
def rowCloud1 (x1 : (⟨S2x128x64x64, .f32⟩ : BufTy).Contents (Elt Ideal)) : Cloud :=
  fun b i ch => val_main_v3 (F := Ideal) x1 (ix3 b i ch)

/-- The transposed column cloud is the column cloud by points. -/
theorem colT_at1 (x0 : (⟨S2x128x64x64, .f32⟩ : BufTy).Contents (Elt Ideal)) (b : Fin 2) (j : Fin 4096) (ch : Fin 128) :
    val_main_v1 (F := Ideal) x0 (ix3 b j ch) = colCloud1 x0 b j ch := by
  rw [val_main_v1_apply]
  exact congrArg (val_main_v0 (F := Ideal) x0) (funext fun a => Fin.ext (by
    match a with
    | ⟨0, _⟩ => rfl
    | ⟨1, _⟩ => rfl
    | ⟨2, _⟩ => rfl))

/-- The column points' squared norms (the host's sum starts from its zero word). -/
theorem ssq_at1 (x0 : (⟨S2x128x64x64, .f32⟩ : BufTy).Contents (Elt Ideal)) (b : Fin 2) (j : Fin 4096) :
    val_main_v5 (F := Ideal) x0 (ix2 b j) = sqn (colCloud1 x0) b j := by
  rw [val_main_v5_apply]
  show Ideal.ofBits .f32 0x00000000#32 + _ = _
  rw [Ideal.ofBits_zero_f32, zero_add]
  unfold sqn
  refine Finset.sum_congr rfl fun k _ => ?_
  have e : idx_main_v5 (ix2 b j) k = ix3 b j k := funext fun a => Fin.ext (by
    match a with
    | ⟨0, _⟩ => rfl
    | ⟨1, _⟩ => rfl
    | ⟨2, _⟩ => rfl)
  rw [e, val_main_v4_apply, colT_at1]
  rfl

/-- The row points' squared norms. -/
theorem tsq_at1 (x1 : (⟨S2x128x64x64, .f32⟩ : BufTy).Contents (Elt Ideal)) (b : Fin 2) (i : Fin 4096) :
    val_main_v7 (F := Ideal) x1 (ix2 b i) = sqn (rowCloud1 x1) b i := by
  rw [val_main_v7_apply]
  show Ideal.ofBits .f32 0x00000000#32 + _ = _
  rw [Ideal.ofBits_zero_f32, zero_add]
  unfold sqn
  refine Finset.sum_congr rfl fun k _ => ?_
  have e : idx_main_v7 (ix2 b i) k = ix3 b i k := funext fun a => Fin.ext (by
    match a with
    | ⟨0, _⟩ => rfl
    | ⟨1, _⟩ => rfl
    | ⟨2, _⟩ => rfl)
  rw [e, val_main_v6_apply]
  rfl

/-- The inner products: the contraction over the channels. -/
theorem inner_at1 (x0 x1 : (⟨S2x128x64x64, .f32⟩ : BufTy).Contents (Elt Ideal)) (b : Fin 2) (i j : Fin 4096) :
    val_main_v9 (F := Ideal) x0 x1 (ix3 b i j) = ContextualSim.inner (colCloud1 x0) (rowCloud1 x1) b i j := by
  rw [val_main_v9_apply]
  unfold ContextualSim.inner
  refine Finset.sum_congr rfl fun k _ => ?_
  have el : lidx_main_v9 (ix3 b i j) k = ix3 b i k := funext fun a => Fin.ext (by
    match a with
    | ⟨0, _⟩ => rfl
    | ⟨1, _⟩ => rfl
    | ⟨2, _⟩ => rfl)
  have er : ridx_main_v9 (ix3 b i j) k = ix3 b j k := funext fun a => Fin.ext (by
    match a with
    | ⟨0, _⟩ => rfl
    | ⟨1, _⟩ => rfl
    | ⟨2, _⟩ => rfl)
  rw [el, er, colT_at1]
  rfl

/-- The clamped squared distances. -/
theorem dist_at1 (x0 x1 : (⟨S2x128x64x64, .f32⟩ : BufTy).Contents (Elt Ideal)) (b : Fin 2) (i j : Fin 4096) :
    val_main_v18 (F := Ideal) x0 x1 (ix3 b i j) = dist (colCloud1 x0) (rowCloud1 x1) b i j := by
  have e12 : idx_main_v8 (idx_main_v12 (ix3 b i j)) = ix2 b i := funext fun a => Fin.ext (by
    match a with
    | ⟨0, _⟩ => rfl
    | ⟨1, _⟩ => rfl)
  have e15 : idx_main_v14 (idx_main_v15 (ix3 b i j)) = ix2 b j := funext fun a => Fin.ext (by
    match a with
    | ⟨0, _⟩ => rfl
    | ⟨1, _⟩ => rfl)
  rw [val_main_v18_apply, val_main_v16_apply, val_main_v13_apply, val_main_v12_apply, val_main_v8_apply, e12,
    val_main_v11_apply, val_main_v15_apply, val_main_v14_apply, e15, tsq_at1, ssq_at1, inner_at1]
  rfl

/-- The column minima: the host's minimum-reduce over the row axis is the fold of `min` from its initial word. -/
theorem mind_at1 (x0 x1 : (⟨S2x128x64x64, .f32⟩ : BufTy).Contents (Elt Ideal)) (b : Fin 2) (j : Fin 4096) :
    val_main_v19 (F := Ideal) x0 x1 (ix2 b j) = mind (colCloud1 x0) (rowCloud1 x1) b j := by
  have hred : S2x4096x4096.Reduces [1] S2x4096 := by decide
  unfold val_main_v19
  refine (Host.reduce_eq_fold_single FloatOps.minimumf _ _ reducesTo_S2x4096x4096_S2x4096_d1 hred h_S_ (ix2 b j)).trans ?_
  unfold mind
  refine congrArg (fun f => (Finset.univ : Finset (Fin 4096)).fold min cPosInf f) (funext fun (i : Fin 4096) => ?_)
  show val_main_v18 (F := Ideal) x0 x1 (hred.lift (ix2 b j) i) = _
  rw [show hred.lift (ix2 b j) i = ix3 b i j from funext fun a => Fin.ext (by
    match a with
    | ⟨0, _⟩ => rfl
    | ⟨1, _⟩ => rfl
    | ⟨2, _⟩ => rfl), dist_at1]

/-- The weights. -/
theorem weight_at1 (x0 x1 : (⟨S2x128x64x64, .f32⟩ : BufTy).Contents (Elt Ideal)) (b : Fin 2) (i j : Fin 4096) :
    val_main_v29 (F := Ideal) x0 x1 (ix3 b i j) = weight (colCloud1 x0) (rowCloud1 x1) (mind (colCloud1 x0) (rowCloud1 x1)) b i j := by
  have e : idx_main_v20 (idx_main_v23 (ix3 b i j)) = ix2 b j := funext fun a => Fin.ext (by
    match a with
    | ⟨0, _⟩ => rfl
    | ⟨1, _⟩ => rfl)
  rw [val_main_v29_apply, val_main_v28_apply, val_main_v26_apply, val_main_v24_apply, val_main_v23_apply,
    val_main_v22_apply, val_main_v20_apply, e, mind_at1, dist_at1]
  rfl

/-- The column totals of the weights. -/
theorem total_at1 (x0 x1 : (⟨S2x128x64x64, .f32⟩ : BufTy).Contents (Elt Ideal)) (b : Fin 2) (j : Fin 4096) :
    val_main_v30 (F := Ideal) x0 x1 (ix2 b j) = total (colCloud1 x0) (rowCloud1 x1) (mind (colCloud1 x0) (rowCloud1 x1)) b j := by
  rw [val_main_v30_apply]
  unfold total
  show cZero + _ = cZero + _
  refine congrArg (fun z => cZero + z) (Finset.sum_congr rfl fun k _ => ?_)
  have e : idx_main_v30 (ix2 b j) k = ix3 b k j := funext fun a => Fin.ext (by
    match a with
    | ⟨0, _⟩ => rfl
    | ⟨1, _⟩ => rfl
    | ⟨2, _⟩ => rfl)
  rw [e, weight_at1]

/-- The row maxima of the normalized weights: the host's maximum-reduce over the column axis. -/
theorem best_at1 (x0 x1 : (⟨S2x128x64x64, .f32⟩ : BufTy).Contents (Elt Ideal)) (b : Fin 2) (i : Fin 4096) :
    val_main_v34 (F := Ideal) x0 x1 (ix2 b i) = best (colCloud1 x0) (rowCloud1 x1) (mind (colCloud1 x0) (rowCloud1 x1)) (total (colCloud1 x0) (rowCloud1 x1) (mind (colCloud1 x0) (rowCloud1 x1))) b i := by
  have hred : S2x4096x4096.Reduces [2] S2x4096 := by decide
  unfold val_main_v34
  refine (Host.reduce_eq_fold_single FloatOps.maximumf _ _ reducesTo_S2x4096x4096_S2x4096_d2 hred h_S_ (ix2 b i)).trans ?_
  unfold best
  refine congrArg (fun f => (Finset.univ : Finset (Fin 4096)).fold max cNegInf f) (funext fun (j : Fin 4096) => ?_)
  show val_main_v33 (F := Ideal) x0 x1 (hred.lift (ix2 b i) j) = _
  have e : idx_main_v31 (idx_main_v32 (ix3 b i j)) = ix2 b j := funext fun a => Fin.ext (by
    match a with
    | ⟨0, _⟩ => rfl
    | ⟨1, _⟩ => rfl)
  rw [show hred.lift (ix2 b i) j = ix3 b i j from funext fun a => Fin.ext (by
    match a with
    | ⟨0, _⟩ => rfl
    | ⟨1, _⟩ => rfl
    | ⟨2, _⟩ => rfl), val_main_v33_apply, val_main_v32_apply, val_main_v31_apply, e,
    weight_at1, total_at1]
  rfl

/-! ## Direction 2: the column cloud is argument 1's points, the row cloud argument 0's -/

/-- The column cloud: the reshaped argument read (batch, channel, point). -/
def colCloud2 (x1 : (⟨S2x128x64x64, .f32⟩ : BufTy).Contents (Elt Ideal)) : Cloud :=
  fun b j ch => val_main_v42 (F := Ideal) x1 (ix3 b ch j)
/-- The row cloud: the reshaped and transposed argument read (batch, point, channel). -/
def rowCloud2 (x0 : (⟨S2x128x64x64, .f32⟩ : BufTy).Contents (Elt Ideal)) : Cloud :=
  fun b i ch => val_main_v45 (F := Ideal) x0 (ix3 b i ch)

/-- The transposed column cloud is the column cloud by points. -/
theorem colT_at2 (x1 : (⟨S2x128x64x64, .f32⟩ : BufTy).Contents (Elt Ideal)) (b : Fin 2) (j : Fin 4096) (ch : Fin 128) :
    val_main_v43 (F := Ideal) x1 (ix3 b j ch) = colCloud2 x1 b j ch := by
  rw [val_main_v43_apply]
  exact congrArg (val_main_v42 (F := Ideal) x1) (funext fun a => Fin.ext (by
    match a with
    | ⟨0, _⟩ => rfl
    | ⟨1, _⟩ => rfl
    | ⟨2, _⟩ => rfl))

/-- The column points' squared norms (the host's sum starts from its zero word). -/
theorem ssq_at2 (x1 : (⟨S2x128x64x64, .f32⟩ : BufTy).Contents (Elt Ideal)) (b : Fin 2) (j : Fin 4096) :
    val_main_v47 (F := Ideal) x1 (ix2 b j) = sqn (colCloud2 x1) b j := by
  rw [val_main_v47_apply]
  show Ideal.ofBits .f32 0x00000000#32 + _ = _
  rw [Ideal.ofBits_zero_f32, zero_add]
  unfold sqn
  refine Finset.sum_congr rfl fun k _ => ?_
  have e : idx_main_v47 (ix2 b j) k = ix3 b j k := funext fun a => Fin.ext (by
    match a with
    | ⟨0, _⟩ => rfl
    | ⟨1, _⟩ => rfl
    | ⟨2, _⟩ => rfl)
  rw [e, val_main_v46_apply, colT_at2]
  rfl

/-- The row points' squared norms. -/
theorem tsq_at2 (x0 : (⟨S2x128x64x64, .f32⟩ : BufTy).Contents (Elt Ideal)) (b : Fin 2) (i : Fin 4096) :
    val_main_v49 (F := Ideal) x0 (ix2 b i) = sqn (rowCloud2 x0) b i := by
  rw [val_main_v49_apply]
  show Ideal.ofBits .f32 0x00000000#32 + _ = _
  rw [Ideal.ofBits_zero_f32, zero_add]
  unfold sqn
  refine Finset.sum_congr rfl fun k _ => ?_
  have e : idx_main_v49 (ix2 b i) k = ix3 b i k := funext fun a => Fin.ext (by
    match a with
    | ⟨0, _⟩ => rfl
    | ⟨1, _⟩ => rfl
    | ⟨2, _⟩ => rfl)
  rw [e, val_main_v48_apply]
  rfl

/-- The inner products: the contraction over the channels. -/
theorem inner_at2 (x0 x1 : (⟨S2x128x64x64, .f32⟩ : BufTy).Contents (Elt Ideal)) (b : Fin 2) (i j : Fin 4096) :
    val_main_v51 (F := Ideal) x0 x1 (ix3 b i j) = ContextualSim.inner (colCloud2 x1) (rowCloud2 x0) b i j := by
  rw [val_main_v51_apply]
  unfold ContextualSim.inner
  refine Finset.sum_congr rfl fun k _ => ?_
  have el : lidx_main_v51 (ix3 b i j) k = ix3 b i k := funext fun a => Fin.ext (by
    match a with
    | ⟨0, _⟩ => rfl
    | ⟨1, _⟩ => rfl
    | ⟨2, _⟩ => rfl)
  have er : ridx_main_v51 (ix3 b i j) k = ix3 b j k := funext fun a => Fin.ext (by
    match a with
    | ⟨0, _⟩ => rfl
    | ⟨1, _⟩ => rfl
    | ⟨2, _⟩ => rfl)
  rw [el, er, colT_at2]
  rfl

/-- The clamped squared distances. -/
theorem dist_at2 (x0 x1 : (⟨S2x128x64x64, .f32⟩ : BufTy).Contents (Elt Ideal)) (b : Fin 2) (i j : Fin 4096) :
    val_main_v60 (F := Ideal) x0 x1 (ix3 b i j) = dist (colCloud2 x1) (rowCloud2 x0) b i j := by
  have e12 : idx_main_v50 (idx_main_v54 (ix3 b i j)) = ix2 b i := funext fun a => Fin.ext (by
    match a with
    | ⟨0, _⟩ => rfl
    | ⟨1, _⟩ => rfl)
  have e15 : idx_main_v56 (idx_main_v57 (ix3 b i j)) = ix2 b j := funext fun a => Fin.ext (by
    match a with
    | ⟨0, _⟩ => rfl
    | ⟨1, _⟩ => rfl)
  rw [val_main_v60_apply, val_main_v58_apply, val_main_v55_apply, val_main_v54_apply, val_main_v50_apply, e12,
    val_main_v53_apply, val_main_v57_apply, val_main_v56_apply, e15, tsq_at2, ssq_at2, inner_at2]
  rfl

/-- The column minima: the host's minimum-reduce over the row axis is the fold of `min` from its initial word. -/
theorem mind_at2 (x0 x1 : (⟨S2x128x64x64, .f32⟩ : BufTy).Contents (Elt Ideal)) (b : Fin 2) (j : Fin 4096) :
    val_main_v61 (F := Ideal) x0 x1 (ix2 b j) = mind (colCloud2 x1) (rowCloud2 x0) b j := by
  have hred : S2x4096x4096.Reduces [1] S2x4096 := by decide
  unfold val_main_v61
  refine (Host.reduce_eq_fold_single FloatOps.minimumf _ _ reducesTo_S2x4096x4096_S2x4096_d1 hred h_S_ (ix2 b j)).trans ?_
  unfold mind
  refine congrArg (fun f => (Finset.univ : Finset (Fin 4096)).fold min cPosInf f) (funext fun (i : Fin 4096) => ?_)
  show val_main_v60 (F := Ideal) x0 x1 (hred.lift (ix2 b j) i) = _
  rw [show hred.lift (ix2 b j) i = ix3 b i j from funext fun a => Fin.ext (by
    match a with
    | ⟨0, _⟩ => rfl
    | ⟨1, _⟩ => rfl
    | ⟨2, _⟩ => rfl), dist_at2]

/-- The weights. -/
theorem weight_at2 (x0 x1 : (⟨S2x128x64x64, .f32⟩ : BufTy).Contents (Elt Ideal)) (b : Fin 2) (i j : Fin 4096) :
    val_main_v71 (F := Ideal) x0 x1 (ix3 b i j) = weight (colCloud2 x1) (rowCloud2 x0) (mind (colCloud2 x1) (rowCloud2 x0)) b i j := by
  have e : idx_main_v62 (idx_main_v65 (ix3 b i j)) = ix2 b j := funext fun a => Fin.ext (by
    match a with
    | ⟨0, _⟩ => rfl
    | ⟨1, _⟩ => rfl)
  rw [val_main_v71_apply, val_main_v70_apply, val_main_v68_apply, val_main_v66_apply, val_main_v65_apply,
    val_main_v64_apply, val_main_v62_apply, e, mind_at2, dist_at2]
  rfl

/-- The column totals of the weights. -/
theorem total_at2 (x0 x1 : (⟨S2x128x64x64, .f32⟩ : BufTy).Contents (Elt Ideal)) (b : Fin 2) (j : Fin 4096) :
    val_main_v72 (F := Ideal) x0 x1 (ix2 b j) = total (colCloud2 x1) (rowCloud2 x0) (mind (colCloud2 x1) (rowCloud2 x0)) b j := by
  rw [val_main_v72_apply]
  unfold total
  show cZero + _ = cZero + _
  refine congrArg (fun z => cZero + z) (Finset.sum_congr rfl fun k _ => ?_)
  have e : idx_main_v72 (ix2 b j) k = ix3 b k j := funext fun a => Fin.ext (by
    match a with
    | ⟨0, _⟩ => rfl
    | ⟨1, _⟩ => rfl
    | ⟨2, _⟩ => rfl)
  rw [e, weight_at2]

/-- The row maxima of the normalized weights: the host's maximum-reduce over the column axis. -/
theorem best_at2 (x0 x1 : (⟨S2x128x64x64, .f32⟩ : BufTy).Contents (Elt Ideal)) (b : Fin 2) (i : Fin 4096) :
    val_main_v76 (F := Ideal) x0 x1 (ix2 b i) = best (colCloud2 x1) (rowCloud2 x0) (mind (colCloud2 x1) (rowCloud2 x0)) (total (colCloud2 x1) (rowCloud2 x0) (mind (colCloud2 x1) (rowCloud2 x0))) b i := by
  have hred : S2x4096x4096.Reduces [2] S2x4096 := by decide
  unfold val_main_v76
  refine (Host.reduce_eq_fold_single FloatOps.maximumf _ _ reducesTo_S2x4096x4096_S2x4096_d2 hred h_S_ (ix2 b i)).trans ?_
  unfold best
  refine congrArg (fun f => (Finset.univ : Finset (Fin 4096)).fold max cNegInf f) (funext fun (j : Fin 4096) => ?_)
  show val_main_v75 (F := Ideal) x0 x1 (hred.lift (ix2 b i) j) = _
  have e : idx_main_v73 (idx_main_v74 (ix3 b i j)) = ix2 b j := funext fun a => Fin.ext (by
    match a with
    | ⟨0, _⟩ => rfl
    | ⟨1, _⟩ => rfl)
  rw [show hred.lift (ix2 b i) j = ix3 b i j from funext fun a => Fin.ext (by
    match a with
    | ⟨0, _⟩ => rfl
    | ⟨1, _⟩ => rfl
    | ⟨2, _⟩ => rfl), val_main_v75_apply, val_main_v74_apply, val_main_v73_apply, e,
    weight_at2, total_at2]
  rfl

end Cert.ReferenceIdeal.Stage

end
-- ==== Proof.Bridge.lean ====
/-
  The two programs meet: the kernel's two directions of row maxima, carried through its fold, are the reference's two
  maximum-reduces — the same specification functions of the same clouds, since both programs reshape and transpose the
  arguments the same way — and both end in the same host tail: the mean over the rows, the mean of the negated
  logarithms over the batch, the half-sum.
-/
import proofs.«129256_j54339926229668_1_alg».proof.Proof.KernelValue
import proofs.«129256_j54339926229668_1_alg».proof.Proof.RefStages
import Idealize.ShloMosaic.Lib.Pipeline.Value

set_option maxRecDepth 16384

noncomputable section

namespace Cert.Bridge

open Idealize.ShloMosaic Idealize.ShloMosaic.TcCoe Idealize.ShloMosaic.ValueIdx Idealize.SL.Sem ContextualSim
open Cert.KernelIdeal (nD τ sig main_arg0 main_arg1)

variable (m : (ℓ : Loc Cert.KernelIdeal.nD Cert.KernelIdeal.τ Cert.KernelIdeal.sig) → Buf (Elt Ideal) ℓ)

/-- The kernel's launch contents of the two arguments. -/
abbrev a0 (c : Dev Cert.KernelIdeal.nD) := m ((c.tc : Thread Cert.KernelIdeal.nD Cert.KernelIdeal.τ).loc Cert.KernelIdeal.main_arg0)
abbrev a1 (c : Dev Cert.KernelIdeal.nD) := m ((c.tc : Thread Cert.KernelIdeal.nD Cert.KernelIdeal.τ).loc Cert.KernelIdeal.main_arg1)

/-- Both programs' clouds are the same arrays of the arguments. -/
theorem col0_eq (c : Dev Cert.KernelIdeal.nD) : Cert.KernelIdeal.Whole.cloudCol0 m c = Cert.ReferenceIdeal.Stage.colCloud1 (a0 m c) := rfl
theorem row1_eq (c : Dev Cert.KernelIdeal.nD) : Cert.KernelIdeal.Whole.cloudRow1 m c = Cert.ReferenceIdeal.Stage.rowCloud1 (a1 m c) := rfl
theorem col1_eq (c : Dev Cert.KernelIdeal.nD) : Cert.KernelIdeal.Whole.cloudCol1 m c = Cert.ReferenceIdeal.Stage.colCloud2 (a1 m c) := rfl
theorem row0_eq (c : Dev Cert.KernelIdeal.nD) : Cert.KernelIdeal.Whole.cloudRow0 m c = Cert.ReferenceIdeal.Stage.rowCloud2 (a0 m c) := rfl

/-- A `[2, 4096, 1]` array with its unit axis dropped. -/
theorem squeeze_at (X : Cert.KernelIdeal.S2x4096x1.Idx → EReal) (b : Fin 2) (i : Fin 4096) :
    shapeCast Cert.KernelIdeal.S2x4096 X Cert.KernelIdeal.Gen.shapeCasts_S2x4096x1_S2x4096 (ix2 b i) = X (ix3 b i (0 : Fin 1)) :=
  shapeCast_apply X Cert.KernelIdeal.Gen.shapeCasts_S2x4096x1_S2x4096 _ _ (by
    rw [Shape.rowMajor_val_three, Shape.rowMajor_val_two]
    show (b.val * 4096 + i.val) * 1 + 0 = b.val * 4096 + i.val
    omega)

/-- Direction 1's row maxima, squeezed, are the reference's first maximum-reduce. -/
theorem best1_eq (c : Dev Cert.KernelIdeal.nD) :
    shapeCast Cert.KernelIdeal.S2x4096 (Cert.KernelIdeal.Whole.best1 m c) Cert.KernelIdeal.Gen.shapeCasts_S2x4096x1_S2x4096
      = Cert.ReferenceIdeal.Read.val_main_v34 (F := Ideal) (a0 m c) (a1 m c) := by
  funext i
  obtain ⟨b, r, rfl⟩ : ∃ (b : Fin 2) (r : Fin 4096), i = ix2 b r := ⟨i 0, i 1, eq_ix2 i⟩
  rw [squeeze_at, Cert.ReferenceIdeal.Stage.best_at1]
  unfold Cert.KernelIdeal.Whole.best1
  rw [col0_eq, row1_eq]
  rfl

/-- Direction 2's row maxima, squeezed, are the reference's second maximum-reduce. -/
theorem best2_eq (c : Dev Cert.KernelIdeal.nD) :
    shapeCast Cert.KernelIdeal.S2x4096 (Cert.KernelIdeal.Whole.best2 m c) Cert.KernelIdeal.Gen.shapeCasts_S2x4096x1_S2x4096
      = Cert.ReferenceIdeal.Read.val_main_v76 (F := Ideal) (a0 m c) (a1 m c) := by
  funext i
  obtain ⟨b, r, rfl⟩ : ∃ (b : Fin 2) (r : Fin 4096), i = ix2 b r := ⟨i 0, i 1, eq_ix2 i⟩
  rw [squeeze_at, Cert.ReferenceIdeal.Stage.best_at2]
  unfold Cert.KernelIdeal.Whole.best2
  rw [col1_eq, row0_eq]
  rfl

/-- So the kernel's result is the reference's. -/
theorem loss_eq (c : Dev Cert.KernelIdeal.nD) :
    Cert.KernelIdeal.Whole.lossOf (Cert.KernelIdeal.Whole.best1 m c) (Cert.KernelIdeal.Whole.best2 m c)
      = Cert.ReferenceIdeal.Read.val_main_v85 (F := Ideal) (a0 m c) (a1 m c) := by
  unfold Cert.KernelIdeal.Whole.lossOf Cert.KernelIdeal.Whole.negLogMean Cert.KernelIdeal.Whole.rowMean
  rw [best1_eq, best2_eq]
  rfl

end Cert.Bridge

end
-- ==== Proof.lean ====
/-
  The claim: the tiled contextual-similarity loss of the kernel equals the reference's, over the extended reals.
  For each direction the kernel takes the column minima of the clamped squared distances, the column totals of the
  weights `exp ((1 - dist / (min + ε)) / ½)` and the row maxima of the normalized weights in three passes, each tile by
  tile with a running value kept in the output block; the reference takes them in one piece. A running minimum or
  maximum over consecutive tiles is the one-piece value by the order's universal property, a running total by
  splitting the sum over a range; nothing else is rearranged, so no finiteness of the inputs is used. The three frames
  are the generated ones (the reference's is its generated run with the result dropped); the idealization rewrote
  nothing.
-/
import proofs.«129256_j54339926229668_1_alg».proof.Defs
import proofs.«129256_j54339926229668_1_alg».proof.Proof.Gen.Kernel
import proofs.«129256_j54339926229668_1_alg».proof.Proof.Gen.Kernel.Frame
import proofs.«129256_j54339926229668_1_alg».proof.Proof.Gen.KernelIdeal
import proofs.«129256_j54339926229668_1_alg».proof.Proof.Gen.KernelIdeal.Frame
import proofs.«129256_j54339926229668_1_alg».proof.Proof.Gen.ReferenceIdeal
import proofs.«129256_j54339926229668_1_alg».proof.Proof.Gen.ReferenceIdeal.Run
import proofs.«129256_j54339926229668_1_alg».proof.Proof.Gen.ReferenceIdeal.Read
import proofs.«129256_j54339926229668_1_alg».proof.Proof.Gen.Pre_finite_inputs
import proofs.«129256_j54339926229668_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result buffer ends at the symmetric loss of its two directions' row maxima
    and the reference's at its own term of arguments that agree: one value. -/
theorem algebraic : Cert.algebraic_KernelIdeal_ReferenceIdeal := by
  intro m ρ m' ρ' _ hagree
  refine ⟨fun c => Cert.KernelIdeal.Whole.lossOf (Cert.KernelIdeal.Whole.best1 m c) (Cert.KernelIdeal.Whole.best2 m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v85_eq, (hagree c).1, (hagree c).2]
  exact (Cert.Bridge.loss_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
